-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v9_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v9_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x64x64 : Shape := ⟨4, ![4, 256, 64, 64]⟩
abbrev S256x256 : Shape := ⟨2, ![256, 256]⟩
abbrev S256 : Shape := ⟨1, ![256]⟩
abbrev S_ : Shape := ⟨0, ![]⟩

class Facts : Prop where
  bcast_S_S4x256x64x64 : S_.BroadcastsInDim S4x256x64x64 (![] : Fin 0 → Fin S4x256x64x64.rank)
  reducesTo_S4x256x64x64_S_d0_1_2_3 : S4x256x64x64.ReducesTo [0, 1, 2, 3] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256x256 .f32) (main_arg5 : FVec F S256 .f32) (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S4x256x64x64 .f32) (main_arg1 : FVec F S256x256 .f32) (main_arg2 : FVec F S256x256 .f32) (main_arg3 : FVec F S256x256 .f32) (main_arg4 : FVec F S256x256 .f32) (main_arg5 : FVec F S256 .f32) (main_arg6 : FVec F S256 .f32) : IVec S_ 1 :=
  let main_v0 : FVec F S4x256x64x64 .f32 := Host.absf main_arg0
  let main_cst : FVec F S_ .f32 := constant S_ .f32 0x7F800000#32
  let main_v1 : FVec F S4x256x64x64 .f32 := broadcastInDim S4x256x64x64 ![] bcast_S_S4x256x64x64 main_cst
  let main_v2 : IVec S4x256x64x64 1 := cmpf .olt main_v0 main_v1
  let main_c : IVec S_ 1 := constantI S_ 1 1#1
  let main_v3 : IVec S_ 1 := (fun x v => Host.reduce IntOp.andi x v reducesTo_S4x256x64x64_S_d0_1_2_3 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S4x256x64x64 : Shape := ⟨4, ![4, 256, 64, 64]⟩
abbrev S256x256 : Shape := ⟨2, ![256, 256]⟩
abbrev S256 : Shape := ⟨1, ![256]⟩
abbrev S4x256x4096 : Shape := ⟨3, ![4, 256, 4096]⟩
abbrev S4x4096x256 : Shape := ⟨3, ![4, 4096, 256]⟩
abbrev S1x4096x256 : Shape := ⟨3, ![1, 4096, 256]⟩
abbrev S4096x256 : Shape := ⟨2, ![4096, 256]⟩
abbrev S1x256 : Shape := ⟨2, ![1, 256]⟩
abbrev S4x4096x4096 : Shape := ⟨3, ![4, 4096, 4096]⟩
abbrev S1x1024x256 : Shape := ⟨3, ![1, 1024, 256]⟩
abbrev S1x1024x1024 : Shape := ⟨3, ![1, 1024, 1024]⟩
abbrev S1024x256 : Shape := ⟨2, ![1024, 256]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 22
  | .vmem => 27
  | .smem => 0
  | _ => 0

abbrev bufTy : (tb : Table) → Fin (tcTables nBuf tb) → BufTy
  | .hbm, ⟨0, _⟩ => ⟨S4x256x64x64, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256, .f32⟩
  | .hbm, ⟨6, _⟩ => ⟨S256, .f32⟩
  | .hbm, ⟨7, _⟩ => ⟨S4x256x4096, .f32⟩
  | .hbm, ⟨8, _⟩ => ⟨S4x4096x256, .f32⟩
  | .hbm, ⟨9, _⟩ => ⟨S256x256, .f32⟩
  | .hbm, ⟨10, _⟩ => ⟨S256x256, .f32⟩
  | .hbm, ⟨11, _⟩ => ⟨S256x256, .f32⟩
  | .hbm, ⟨12, _⟩ => ⟨S256x256, .f32⟩
  | .hbm, ⟨13, _⟩ => ⟨S4x4096x256, .bf16⟩
  | .hbm, ⟨14, _⟩ => ⟨S4x4096x256, .bf16⟩
  | .hbm, ⟨15, _⟩ => ⟨S4x4096x256, .bf16⟩
  | .hbm, ⟨16, _⟩ => ⟨S1x256, .f32⟩
  | .hbm, ⟨17, _⟩ => ⟨S1x256, .f32⟩
  | .hbm, ⟨18, _⟩ => ⟨S4x4096x4096, .f32⟩
  | .hbm, ⟨19, _⟩ => ⟨S4x4096x256, .f32⟩
  | .hbm, ⟨20, _⟩ => ⟨S4x256x4096, .f32⟩
  | .hbm, ⟨21, _⟩ => ⟨S4x256x64x64, .f32⟩
  | .local _ .vmem, ⟨0, _⟩ => ⟨S1x4096x256, .f32⟩
  | .local _ .vmem, ⟨1, _⟩ => ⟨S1x4096x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S1x4096x256, .bf16⟩
  | .local _ .vmem, ⟨6, _⟩ => ⟨S1x4096x256, .bf16⟩
  | .local _ .vmem, ⟨7, _⟩ => ⟨S1x4096x256, .bf16⟩
  | .local _ .vmem, ⟨8, _⟩ => ⟨S1x4096x256, .bf16⟩
  | .local _ .vmem, ⟨9, _⟩ => ⟨S1x4096x256, .bf16⟩
  | .local _ .vmem, ⟨10, _⟩ => ⟨S1x4096x256, .bf16⟩
  | .local _ .vmem, ⟨11, _⟩ => ⟨S1x1024x256, .bf16⟩
  | .local _ .vmem, ⟨12, _⟩ => ⟨S1x1024x256, .bf16⟩
  | .local _ .vmem, ⟨13, _⟩ => ⟨S1x1024x256, .bf16⟩
  | .local _ .vmem, ⟨14, _⟩ => ⟨S1x1024x256, .bf16⟩
  | .local _ .vmem, ⟨15, _⟩ => ⟨S1x1024x256, .bf16⟩
  | .local _ .vmem, ⟨16, _⟩ => ⟨S1x1024x256, .bf16⟩
  | .local _ .vmem, ⟨17, _⟩ => ⟨S1x1024x256, .f32⟩
  | .local _ .vmem, ⟨18, _⟩ => ⟨S1x1024x256, .f32⟩
  | .local _ .vmem, ⟨19, _⟩ => ⟨S256x256, .f32⟩
  | .local _ .vmem, ⟨20, _⟩ => ⟨S1x256, .f32⟩
  | .local _ .vmem, ⟨21, _⟩ => ⟨S1x256, .f32⟩
  | .local _ .vmem, ⟨22, _⟩ => ⟨S1x1024x1024, .f32⟩
  | .local _ .vmem, ⟨23, _⟩ => ⟨S1x1024x1024, .f32⟩
  | .local _ .vmem, ⟨24, _⟩ => ⟨S1x1024x256, .f32⟩
  | .local _ .vmem, ⟨25, _⟩ => ⟨S1x1024x256, .f32⟩
  | .local _ .vmem, ⟨26, _⟩ => ⟨S1024x256, .f32⟩
  | _, _ => ⟨S4x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc1_scratch0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23
abbrev cc1_sem8_0 : DmaSem sig := 24
abbrev cc1_sem8_1 : DmaSem sig := 25

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨3, ![4, 4, 4], ![false, false, false]⟩

def k1_cond2 (i : grid1.Coords) : BitVec 1 :=
  let arg2 : BitVec 32 := BitVec.ofNat 32 (i 2).val
  let c3_i32 : BitVec 32 := 3#32
  let v23 : BitVec 1 := Scalar.cmpi .eq arg2 c3_i32
  let v24 : BitVec 32 := Scalar.extui v23
  let c0_i32_18 : BitVec 32 := 0#32
  let v25 : BitVec 1 := Scalar.cmpi .ne v24 c0_i32_18
  v25

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_8 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false, false]

abbrev stage1_7 : Fin 2 → Memref sig .tc .vmem S1x1024x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, true]

abbrev stage1_8 : Fin 2 → Memref sig .tc .vmem S1x1024x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true, false]

class Facts₀ : Prop where
  shapeCasts_S4x256x64x64_S4x256x4096 : S4x256x64x64.ShapeCasts S4x256x4096
  transposes_S4x256x4096_S4x4096x256_0_2_1 : S4x256x4096.Transposes [0, 2, 1] S4x4096x256
  transposes_S256x256_S256x256_1_0 : S256x256.Transposes [1, 0] S256x256
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S4096x256_S1x4096x256 : S4096x256.ShapeCasts S1x4096x256
  packedbf16_S1x4096x256_S1x4096x256_0_0_0 : (Rect.unit (s := S1x4096x256) ![0, 0, 0] S1x4096x256.size inb_S1x4096x256_S1x4096x256_0_0_0).PackedRows (EltTy.packing .bf16)
  shapeCasts_S256_S1x256 : S256.ShapeCasts S1x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  reduces_S1024x256_S1024 : S1024x256.Reduces [1] S1024
  shapeCasts_S1024_S1024x1 : S1024.ShapeCasts S1024x1
  broadcasts_S1024x1_S1024x256 : S1024x1.Broadcasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  shapeCasts_S1024x256_S1x1024x256 : S1024x256.ShapeCasts S1x1024x256
  transposes_S4x4096x256_S4x256x4096_0_2_1 : S4x4096x256.Transposes [0, 2, 1] S4x256x4096
  shapeCasts_S4x256x4096_S4x256x64x64 : S4x256x4096.ShapeCasts S4x256x64x64
  dot_S4096x256_S256x256_S4096x256_1_0_0_1_n_n_wf : DotDims.WF S4096x256 S256x256 S4096x256 [1] [0] [0] [1] [] []
  dot_S1024x256_S1024x256_S1024x1024_1_1_0_0_n_n_wf : DotDims.WF S1024x256 S1024x256 S1024x1024 [1] [1] [0] [0] [] []
  dot_S1024x1024_S1024x256_S1024x256_1_0_0_1_n_n_wf : DotDims.WF S1024x1024 S1024x256 S1024x256 [1] [0] [0] [1] [] []
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S4x4096x256.size a
  hwx0_0 : ∀ i : grid0.Coords, EltTy.bits .f32 = 32 ∨ (Rect.block (s := S4x4096x256) S1x4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4096x256.size a ≤ S4x4096x256.size a
  hwx0_4 : ∀ i : grid0.Coords, EltTy.bits .bf16 = 32 ∨ (Rect.block (s := S4x4096x256) S1x4096x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x4096x256.size a ≤ S4x4096x256.size a
  hwx0_5 : ∀ i : grid0.Coords, EltTy.bits .bf16 = 32 ∨ (Rect.block (s := S4x4096x256) S1x4096x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x4096x256.size a ≤ S4x4096x256.size a
  hwx0_6 : ∀ i : grid0.Coords, EltTy.bits .bf16 = 32 ∨ (Rect.block (s := S4x4096x256) S1x4096x256.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x256.size a ≤ S4x4096x256.size a
  hwx1_0 : ∀ i : grid1.Coords, EltTy.bits .bf16 = 32 ∨ (Rect.block (s := S4x4096x256) S1x1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x256.size a ≤ S4x4096x256.size a
  hwx1_1 : ∀ i : grid1.Coords, EltTy.bits .bf16 = 32 ∨ (Rect.block (s := S4x4096x256) S1x1024x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x256.size a ≤ S4x4096x256.size a
  hwx1_2 : ∀ i : grid1.Coords, EltTy.bits .bf16 = 32 ∨ (Rect.block (s := S4x4096x256) S1x1024x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x256.size a ≤ S4x4096x256.size a
  hwx1_3 : ∀ i : grid1.Coords, EltTy.bits .f32 = 32 ∨ (Rect.block (s := S4x4096x256) S1x1024x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x1024x1024.size a ≤ S4x4096x4096.size a
  hwx1_7 : ∀ i : grid1.Coords, EltTy.bits .f32 = 32 ∨ (Rect.block (s := S4x4096x4096) S1x1024x1024.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x1024x256.size a ≤ S4x4096x256.size a
  hwx1_8 : ∀ i : grid1.Coords, EltTy.bits .f32 = 32 ∨ (Rect.block (s := S4x4096x256) S1x1024x256.size (cc1_transform_8 i) (hinb1_8 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_v1) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S1x4096x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S1x4096x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_2) S1x4096x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v6_0) S1x1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_1) S1x1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6_2) S1x1024x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x1024x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v8) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v9_0) S1x1024x1024.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v9_1) S1x1024x256.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun _ => false | 7 => fun _ => false | 8 => fun i => !(k1_cond2 i == 1#1) | ⟨_ + 9, h⟩ => absurd h (Nat.not_lt.2 (Nat.le_add_left _ _))

class Facts : Prop extends Facts₀ where

variable [Facts]
-- ==== ReferenceIdeal.lean ====
abbrev S4x256x64x64 : Shape := ⟨4, ![4, 256, 64, 64]⟩
abbrev S256x256 : Shape := ⟨2, ![256, 256]⟩
abbrev S256 : Shape := ⟨1, ![256]⟩
abbrev S4x256x4096 : Shape := ⟨3, ![4, 256, 4096]⟩
abbrev S4x4096x256 : Shape := ⟨3, ![4, 4096, 256]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S1x1x256 : Shape := ⟨3, ![1, 1, 256]⟩

abbrev nBuf : Space → Nat
  | .hbm => 61
  | .vmem => 0
  | .smem => 0
  | _ => 0

abbrev bufTy : (tb : Table) → Fin (tcTables nBuf tb) → BufTy
  | .hbm, ⟨0, _⟩ => ⟨S4x256x64x64, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256, .f32⟩
  | .hbm, ⟨6, _⟩ => ⟨S256, .f32⟩
  | .hbm, ⟨7, _⟩ => ⟨S4x256x4096, .f32⟩
  | .hbm, ⟨8, _⟩ => ⟨S4x4096x256, .f32⟩
  | .hbm, ⟨9, _⟩ => ⟨S4x4096x256, .f32⟩
  | .hbm, ⟨10, _⟩ => ⟨S4x4096x256, .f32⟩
  | .hbm, ⟨11, _⟩ => ⟨S4x4096x256, .f32⟩
  | .hbm, ⟨12, _⟩ => ⟨S4x4096x4096, .f32⟩
  | .hbm, ⟨13, _⟩ => ⟨S_, .f32⟩
  | .hbm, ⟨14, _⟩ => ⟨S4x4096x4096, .f32⟩
  | .hbm, ⟨15, _⟩ => ⟨S4x4096x4096, .f32⟩
  | .hbm, ⟨16, _⟩ => ⟨S4x4096x4096, .f32⟩
  | .hbm, ⟨17, _⟩ => ⟨S4x4096x4096, .f32⟩
  | .hbm, ⟨18, _⟩ => ⟨S_, .f32⟩
  | .hbm, ⟨19, _⟩ => ⟨S4x4096x4096, .f32⟩
  | .hbm, ⟨20, _⟩ => ⟨S4x4096x4096, .f32⟩
  | .hbm, ⟨21, _⟩ => ⟨S_, .f32⟩
  | .hbm, ⟨22, _⟩ => ⟨S4x4096x4096, .f32⟩
  | .hbm, ⟨23, _⟩ => ⟨S4x4096x4096, .f32⟩
  | .hbm, ⟨24, _⟩ => ⟨S4x4096x256, .f32⟩
  | .hbm, ⟨25, _⟩ => ⟨S_, .f32⟩
  | .hbm, ⟨26, _⟩ => ⟨S4x4096x256, .f32⟩
  | .hbm, ⟨27, _⟩ => ⟨S4x4096x256, .f32⟩
  | .hbm, ⟨28, _⟩ => ⟨S4x4096x256, .f32⟩
  | .hbm, ⟨29, _⟩ => ⟨S4x4096x256, .f32⟩
  | .hbm, ⟨30, _⟩ => ⟨S_, .f32⟩
  | .hbm, ⟨31, _⟩ => ⟨S4x4096, .f32⟩
  | .hbm, ⟨32, _⟩ => ⟨S4x4096x1, .f32⟩
  | .hbm, ⟨33, _⟩ => ⟨S_, .f32⟩
  | .hbm, ⟨34, _⟩ => ⟨S4x4096x1, .f32⟩
  | .hbm, ⟨35, _⟩ => ⟨S4x4096x1, .f32⟩
  | .hbm, ⟨36, _⟩ => ⟨S4x4096x256, .f32⟩
  | .hbm, ⟨37, _⟩ => ⟨S4x4096x256, .f32⟩
  | .hbm, ⟨38, _⟩ => ⟨S4x4096x256, .f32⟩
  | .hbm, ⟨39, _⟩ => ⟨S_, .f32⟩
  | .hbm, ⟨40, _⟩ => ⟨S4x4096, .f32⟩
  | .hbm, ⟨41, _⟩ => ⟨S4x4096x1, .f32⟩
  | .hbm, ⟨42, _⟩ => ⟨S_, .f32⟩
  | .hbm, ⟨43, _⟩ => ⟨S4x4096x1, .f32⟩
  | .hbm, ⟨44, _⟩ => ⟨S4x4096x1, .f32⟩
  | .hbm, ⟨45, _⟩ => ⟨S4x4096x256, .f32⟩
  | .hbm, ⟨46, _⟩ => ⟨S4x4096x256, .f32⟩
  | .hbm, ⟨47, _⟩ => ⟨S_, .f32⟩
  | .hbm, ⟨48, _⟩ => ⟨S4x4096x1, .f32⟩
  | .hbm, ⟨49, _⟩ => ⟨S4x4096x1, .f32⟩
  | .hbm, ⟨50, _⟩ => ⟨S4x4096x1, .f32⟩
  | .hbm, ⟨51, _⟩ => ⟨S4x4096x256, .f32⟩
  | .hbm, ⟨52, _⟩ => ⟨S4x4096x256, .f32⟩
  | .hbm, ⟨53, _⟩ => ⟨S1x1x256, .f32⟩
  | .hbm, ⟨54, _⟩ => ⟨S4x4096x256, .f32⟩
  | .hbm, ⟨55, _⟩ => ⟨S4x4096x256, .f32⟩
  | .hbm, ⟨56, _⟩ => ⟨S1x1x256, .f32⟩
  | .hbm, ⟨57, _⟩ => ⟨S4x4096x256, .f32⟩
  | .hbm, ⟨58, _⟩ => ⟨S4x4096x256, .f32⟩
  | .hbm, ⟨59, _⟩ => ⟨S4x256x4096, .f32⟩
  | .hbm, ⟨60, _⟩ => ⟨S4x256x64x64, .f32⟩
  | _, _ => ⟨S4x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]

class Facts₀ : Prop where
  shapeCasts_S4x256x64x64_S4x256x4096 : S4x256x64x64.ShapeCasts S4x256x4096
  transposes_S4x256x4096_S4x4096x256_0_2_1 : S4x256x4096.Transposes [0, 2, 1] S4x4096x256
  bcast_S_S4x4096x4096 : S_.BroadcastsInDim S4x4096x4096 (![] : Fin 0 → Fin S4x4096x4096.rank)
  bcast_S_S4x4096x256 : S_.BroadcastsInDim S4x4096x256 (![] : Fin 0 → Fin S4x4096x256.rank)
  reducesTo_S4x4096x256_S4x4096_d2 : S4x4096x256.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x256_0_1_2 : S4x4096x1.BroadcastsInDim S4x4096x256 (![0, 1, 2] : Fin 3 → Fin S4x4096x256.rank)
  bcast_S256_S1x1x256_2 : S256.BroadcastsInDim S1x1x256 (![2] : Fin 1 → Fin S1x1x256.rank)
  bcast_S1x1x256_S4x4096x256_0_1_2 : S1x1x256.BroadcastsInDim S4x4096x256 (![0, 1, 2] : Fin 3 → Fin S4x4096x256.rank)
  transposes_S4x4096x256_S4x256x4096_0_2_1 : S4x4096x256.Transposes [0, 2, 1] S4x256x4096
  shapeCasts_S4x256x4096_S4x256x64x64 : S4x256x4096.ShapeCasts S4x256x64x64
  dot_S4x4096x256_S256x256_S4x4096x256_2_1_01_0_n_n_wf : DotDims.WF S4x4096x256 S256x256 S4x4096x256 [2] [1] [0, 1] [0] [] []
  dot_S4x4096x256_S4x4096x256_S4x4096x4096_2_2_1_1_0_0_wf : DotDims.WF S4x4096x256 S4x4096x256 S4x4096x4096 [2] [2] [1] [1] [0] [0]
  dot_S4x4096x4096_S4x4096x256_S4x4096x256_2_1_1_2_0_0_wf : DotDims.WF S4x4096x4096 S4x4096x256 S4x4096x256 [2] [1] [1] [2] [0] [0]

variable [Facts₀]

def dot_S4x4096x256_S256x256_S4x4096x256_2_1_01_0_n_n : DotDims S4x4096x256 S256x256 S4x4096x256 where
  lhsContracting := [2]
  rhsContracting := [1]
  lhsNonContracting := [0, 1]
  rhsNonContracting := [0]
  lhsBatch := []
  rhsBatch := []
  wf := dot_S4x4096x256_S256x256_S4x4096x256_2_1_01_0_n_n_wf
def dot_S4x4096x256_S4x4096x256_S4x4096x4096_2_2_1_1_0_0 : DotDims S4x4096x256 S4x4096x256 S4x4096x4096 where
  lhsContracting := [2]
  rhsContracting := [2]
  lhsNonContracting := [1]
  rhsNonContracting := [1]
  lhsBatch := [0]
  rhsBatch := [0]
  wf := dot_S4x4096x256_S4x4096x256_S4x4096x4096_2_2_1_1_0_0_wf
def dot_S4x4096x4096_S4x4096x256_S4x4096x256_2_1_1_2_0_0 : DotDims S4x4096x4096 S4x4096x256 S4x4096x256 where
  lhsContracting := [2]
  rhsContracting := [1]
  lhsNonContracting := [1]
  rhsNonContracting := [2]
  lhsBatch := [0]
  rhsBatch := [0]
  wf := dot_S4x4096x4096_S4x4096x256_S4x4096x256_2_1_1_2_0_0_wf

class Facts : Prop extends Facts₀ where

variable [Facts]
-- ==== Proof.RegionData.lean ====
/-
  The proof data of the two pipelined regions, at a parameter `V`: the unscoped buffers' contents on core `c`
  when the region is entered.

  Region 0 (the projections, one grid point per batch entry): a point reads the batch entry's rows of the
  transposed input and the three transposed weight matrices whole, and stores the three products.
  Region 1 (the attention, grid (batch, query tile, key tile), the key tile innermost): a point stores the
  logistic of the scaled query-key products of its tile pair; a scratch accumulates, over the four key tiles of
  one (batch, query tile), the products of that logistic tile with the value tile, starting from zero at key
  tile 0; at key tile 3 the normalised, projected, residual-added and layer-normalised rows are stored.
-/
import proofs.«105034_j8933531975947_1_alg».proof.Proof.Gen.KernelIdeal.Launch
import proofs.«105034_j8933531975947_1_alg».proof.Proof.Gen.KernelIdeal.Skeleton
import proofs.«105034_j8933531975947_1_alg».proof.Proof.Gen.KernelIdeal.Points
import Idealize.ShloMosaic.Lib.Pipeline.FrameBody
import Idealize.ShloMosaic.Lib.Pipeline.Frame

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0 -/

/-- Window `w`'s block of its array at grid point `t`, as region 0 finds the array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 0's proof data: the four inputs keep their blocks, each of the three outputs holds the product of the
    batch entry's rows with one transposed weight matrix; nothing is carried between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay2 (iblk0 V c 0 t) (iblk0 V c 1 t)
    | ⟨5, _⟩ => k0_pay3 (iblk0 V c 0 t) (iblk0 V c 2 t)
    | ⟨6, _⟩ => k0_pay4 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = k0_pay2 (iblk0 V c 0 t) (iblk0 V c 1 t) := by dsimp only [dat0]
theorem after0_5 (c : Dev nD) (t : Fin cfg0.N) : (dat0 V c).after 5 t = k0_pay3 (iblk0 V c 0 t) (iblk0 V c 2 t) := by dsimp only [dat0]
theorem after0_6 (c : Dev nD) (t : Fin cfg0.N) : (dat0 V c).after 6 t = k0_pay4 (iblk0 V c 0 t) (iblk0 V c 3 t) := by dsimp only [dat0]

/-! ## Region 1 -/

/-- Window `w`'s block of its array at grid point `t`, as region 1 finds the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator scratch as a whole memref. -/
abbrev scM : Memref sig .tc .vmem S1024x256 .f32 := Memref.whole cc1_scratch0

/-- What the accumulator holds after grid point `n`: the point's logistic tile times its value tile, added to
    zero at key tile 0 (`n ≡ 0 mod 4`) and to what the point before left otherwise. -/
def accAfter (c : Dev nD) : (n : ℕ) → n < cfg1.N → FVec F S1024x256 .f32
  | 0, h => k1_pay4 (iblk1 V c 0 ⟨0, h⟩) (iblk1 V c 1 ⟨0, h⟩) (iblk1 V c 2 ⟨0, h⟩) (k1_pay1 (F := F))
  | n + 1, h => k1_pay4 (iblk1 V c 0 ⟨n + 1, h⟩) (iblk1 V c 1 ⟨n + 1, h⟩) (iblk1 V c 2 ⟨n + 1, h⟩)
      (if (n + 1) % 4 = 0 then k1_pay1 (F := F) else accAfter c n (Nat.lt_of_succ_lt h))

theorem accAfter_reset (c : Dev nD) (t : Fin cfg1.N) (h0 : t.val % 4 = 0) :
    accAfter V c t.val t.isLt = k1_pay4 (iblk1 V c 0 t) (iblk1 V c 1 t) (iblk1 V c 2 t) (k1_pay1 (F := F)) := by
  obtain ⟨n, hn⟩ := t
  cases n with
  | zero => rfl
  | succ n => exact congrArg _ (if_pos h0)

theorem accAfter_step (c : Dev nD) (t : Fin cfg1.N) (h0 : ¬ t.val % 4 = 0) :
    accAfter V c t.val t.isLt = k1_pay4 (iblk1 V c 0 t) (iblk1 V c 1 t) (iblk1 V c 2 t)
      (accAfter V c (t.val - 1) (Nat.lt_of_le_of_lt (Nat.sub_le _ _) t.isLt)) := by
  obtain ⟨n, hn⟩ := t
  cases n with
  | zero => exact absurd (Nat.zero_mod _) h0
  | succ n => exact congrArg _ (if_neg h0)

/-- The scoped buffers region 1 neither stages nor accumulates in, each at some contents. -/
def restOther (c : Dev nD) : sProp 𝕄 :=
  Pipeline.scopedRestBut (Ix := Unit) (Name := ℕ) (U := UR sig nD τ) (Lvl := ℕ) (Val := Elt F) spec1 c [cc1_scratch0]

/-- Region 1's invariant before grid point `n`: before the first point every scoped buffer it does not stage at
    anything (and the generator register at some state); afterwards the accumulator at `accAfter` of the point
    before, the other such buffers at anything. -/
def Phi1 (c : Dev nD) : (n : ℕ) → n ≤ cfg1.N → sProp 𝕄
  | 0, _ => Pipeline.ΦA spec1 c
  | n + 1, hn => iprop(restOther (F := F) c ∗ owns (c : Thread nD τ) scM fullShare (accAfter V c n hn) ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(restOther (F := F) c ∗ owns (c : Thread nD τ) scM fullShare (accAfter V c n hn) ∗ (∃ r, prngReg c r)) := rfl

theorem Phi1_pos (c : Dev nD) (n : ℕ) (h : n ≤ cfg1.N) (hz : n ≠ 0) :
    Phi1 V c n h = iprop(restOther (F := F) c ∗ owns (c : Thread nD τ) scM fullShare (accAfter V c (n - 1) (by omega)) ∗ (∃ r, prngReg c r)) := by
  cases n with
  | zero => exact absurd rfl hz
  | succ n => rfl

/-- Region 1's proof data: the seven inputs keep their blocks; the logistic tile's buffer holds the point's
    tile; the rows' buffer, at a key tile 3, holds the finished rows computed from the accumulator (at the other
    points the window is idle and the field is not consulted); the invariant carries the accumulator. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => k1_pay3 (iblk1 V c 0 t) (iblk1 V c 1 t)
    | ⟨8, _⟩ => k1_pay5 (k1_pay6 (accAfter V c t.val t.isLt) (iblk1 V c 4 t) (iblk1 V c 3 t) (iblk1 V c 5 t) (iblk1 V c 6 t))
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = k1_pay3 (iblk1 V c 0 t) (iblk1 V c 1 t) := by dsimp only [dat1]
theorem after1_8 (c : Dev nD) (t : Fin cfg1.N) : (dat1 V c).after 8 t
    = k1_pay5 (k1_pay6 (accAfter V c t.val t.isLt) (iblk1 V c 4 t) (iblk1 V c 3 t) (iblk1 V c 5 t) (iblk1 V c 6 t)) := by dsimp only [dat1]

end Cert.KernelIdeal.Hand

end
-- ==== Proof.Boundaries.lean ====
/-
  The unscoped buffers' contents followed through @main: the launch memory, then each stretch of host operations
  applied, then at each region's exit the region's arrays at what its write-backs leave and every other buffer as
  the region found it. No item writes an argument array.
-/
import proofs.«105034_j8933531975947_1_alg».proof.Proof.RegionData
import proofs.«105034_j8933531975947_1_alg».proof.Proof.Gen.KernelIdeal.Regions
import Idealize.ShloMosaic.Lib.Pipeline.FrameSuffix

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-! ## The buffers' contents at each boundary -/

/-- At launch. -/
abbrev W0 (c : Dev nD) : Valuation τ sig (Elt F) := fun b => m (c, b)
/-- After the first host stretch (the reshape and the five transposes): region 0's entry. -/
abbrev W1 (c : Dev nD) : Valuation τ sig (Elt F) := StableHlo.after hostOps0 (W0 m c)
abbrev E1 : (c : Dev nD) → (b : Ref sig .tc) → Buf (Elt F) ((c : Thread nD τ).loc b) := fun c b => W1 m c b
/-- At region 0's exit: its arrays at what the write-backs leave, the rest as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After the second host stretch (gamma and beta reshaped to rows): region 1's entry. -/
abbrev W3 (c : Dev nD) : Valuation τ sig (Elt F) := StableHlo.after hostOps1 (W2 m c)
abbrev E3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev E4 : (c : Dev nD) → (b : Ref sig .tc) → Buf (Elt F) ((c : Thread nD τ).loc b) := fun c b => W4 m c b
theorem hF1 (c : Dev nD) (w : Fin cfg1.W) : (dat1 (E3 m) c).arrAt w cfg1.N = E4 m c (Pipeline.arrRef spec1 w) :=
  (W4_arr m c w).symm
theorem hrest1 (c : Dev nD) : ∀ b, b ∉ Finset.univ.image (Pipeline.arrRef spec1) → E4 m c b = E3 m c b :=
  fun b hb => W4_of_ne m c b fun w e => hb (Finset.mem_image.mpr ⟨w, Finset.mem_univ _, e⟩)

/-- After the last host stretch (the transpose back and the reshape): the end. -/
abbrev W5 (c : Dev nD) : Valuation τ sig (Elt F) := StableHlo.after hostOps2 (W4 m c)

/-! ## No item writes an argument -/

theorem W5_main_arg0 (c : Dev nD) : W5 m c (Proc.devRef .tc main_arg0) = m ((c : Thread nD τ).loc main_arg0) :=
  (StableHlo.after_of_writes_sub hostOps2 _ hostOps2_writes (r := main_arg0) (by decide)).trans <|
  (W4_of_ne m c main_arg0 (by decide)).trans <|
  (StableHlo.after_of_writes_sub hostOps1 _ hostOps1_writes (r := main_arg0) (by decide)).trans <|
  (W2_of_ne m c main_arg0 (by decide)).trans <|
  (StableHlo.after_of_writes_sub hostOps0 _ hostOps0_writes (r := main_arg0) (by decide)).trans rfl
theorem W5_main_arg1 (c : Dev nD) : W5 m c (Proc.devRef .tc main_arg1) = m ((c : Thread nD τ).loc main_arg1) :=
  (StableHlo.after_of_writes_sub hostOps2 _ hostOps2_writes (r := main_arg1) (by decide)).trans <|
  (W4_of_ne m c main_arg1 (by decide)).trans <|
  (StableHlo.after_of_writes_sub hostOps1 _ hostOps1_writes (r := main_arg1) (by decide)).trans <|
  (W2_of_ne m c main_arg1 (by decide)).trans <|
  (StableHlo.after_of_writes_sub hostOps0 _ hostOps0_writes (r := main_arg1) (by decide)).trans rfl
theorem W5_main_arg2 (c : Dev nD) : W5 m c (Proc.devRef .tc main_arg2) = m ((c : Thread nD τ).loc main_arg2) :=
  (StableHlo.after_of_writes_sub hostOps2 _ hostOps2_writes (r := main_arg2) (by decide)).trans <|
  (W4_of_ne m c main_arg2 (by decide)).trans <|
  (StableHlo.after_of_writes_sub hostOps1 _ hostOps1_writes (r := main_arg2) (by decide)).trans <|
  (W2_of_ne m c main_arg2 (by decide)).trans <|
  (StableHlo.after_of_writes_sub hostOps0 _ hostOps0_writes (r := main_arg2) (by decide)).trans rfl
theorem W5_main_arg3 (c : Dev nD) : W5 m c (Proc.devRef .tc main_arg3) = m ((c : Thread nD τ).loc main_arg3) :=
  (StableHlo.after_of_writes_sub hostOps2 _ hostOps2_writes (r := main_arg3) (by decide)).trans <|
  (W4_of_ne m c main_arg3 (by decide)).trans <|
  (StableHlo.after_of_writes_sub hostOps1 _ hostOps1_writes (r := main_arg3) (by decide)).trans <|
  (W2_of_ne m c main_arg3 (by decide)).trans <|
  (StableHlo.after_of_writes_sub hostOps0 _ hostOps0_writes (r := main_arg3) (by decide)).trans rfl
theorem W5_main_arg4 (c : Dev nD) : W5 m c (Proc.devRef .tc main_arg4) = m ((c : Thread nD τ).loc main_arg4) :=
  (StableHlo.after_of_writes_sub hostOps2 _ hostOps2_writes (r := main_arg4) (by decide)).trans <|
  (W4_of_ne m c main_arg4 (by decide)).trans <|
  (StableHlo.after_of_writes_sub hostOps1 _ hostOps1_writes (r := main_arg4) (by decide)).trans <|
  (W2_of_ne m c main_arg4 (by decide)).trans <|
  (StableHlo.after_of_writes_sub hostOps0 _ hostOps0_writes (r := main_arg4) (by decide)).trans rfl
theorem W5_main_arg5 (c : Dev nD) : W5 m c (Proc.devRef .tc main_arg5) = m ((c : Thread nD τ).loc main_arg5) :=
  (StableHlo.after_of_writes_sub hostOps2 _ hostOps2_writes (r := main_arg5) (by decide)).trans <|
  (W4_of_ne m c main_arg5 (by decide)).trans <|
  (StableHlo.after_of_writes_sub hostOps1 _ hostOps1_writes (r := main_arg5) (by decide)).trans <|
  (W2_of_ne m c main_arg5 (by decide)).trans <|
  (StableHlo.after_of_writes_sub hostOps0 _ hostOps0_writes (r := main_arg5) (by decide)).trans rfl
theorem W5_main_arg6 (c : Dev nD) : W5 m c (Proc.devRef .tc main_arg6) = m ((c : Thread nD τ).loc main_arg6) :=
  (StableHlo.after_of_writes_sub hostOps2 _ hostOps2_writes (r := main_arg6) (by decide)).trans <|
  (W4_of_ne m c main_arg6 (by decide)).trans <|
  (StableHlo.after_of_writes_sub hostOps1 _ hostOps1_writes (r := main_arg6) (by decide)).trans <|
  (W2_of_ne m c main_arg6 (by decide)).trans <|
  (StableHlo.after_of_writes_sub hostOps0 _ hostOps0_writes (r := main_arg6) (by decide)).trans rfl

end Cert.KernelIdeal.Hand

end
-- ==== Proof.ProjBody.lean ====
/-
  Region 0's body: at every grid point the projection kernel, called on the current staging buffers holding the
  point's blocks, leaves each input buffer as it was and each output buffer at the product the proof data names.
-/
import proofs.«105034_j8933531975947_1_alg».proof.Proof.RegionData
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Whole-buffer accesses

Every load and store of the projection kernel goes through the rectangle that is its whole buffer at offset
zero. Through such a rectangle a load reads the contents themselves, and a single store, read back through any
view of the buffer, leaves exactly its payload whatever was there before. -/

/-- The zero offsets of a rank-3 buffer, as the constant function. -/
theorem proj_zeros3 : (![0, 0, 0] : Fin 3 → ℕ) = fun _ => 0 := funext fun a => by fin_cases a <;> rfl

/-- The zero offsets of a rank-2 buffer, as the constant function. -/
theorem proj_zeros2 : (![0, 0] : Fin 2 → ℕ) = fun _ => 0 := funext fun a => by fin_cases a <;> rfl

/-- Reading back one store made through the whole-buffer rectangle gives the stored payload: the rectangle holds
    every index, so the store covers the buffer, and the canonical contents of one covering store are its payload. -/
theorem proj_read_whole_store {σ : RefSig} {κ : Kind} {sp : Space} {S : Shape} {e : EltTy}
    (v : View σ κ sp S e) (f : v.ty.Contents (Elt F)) {off : Fin S.rank → ℕ} (hz : off = fun _ => 0)
    (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon v f _
    (fun y => ⟨_, List.mem_singleton_self _, View.mem_set_unit_zero hz inb y⟩)]
  exact View.canon_unit_zero hz inb w

variable (V : (c : Dev nD) → (b : Ref sig .tc) → Buf (Elt F) ((c : Thread nD τ).loc b))

/-! ## What the body finds in the input windows' staging buffers

The body leaves every input window's block in place and no input window is cut or idle, so the buffer a point is
handed holds the window's block of the array as the region found it, whether the point fetched it or not: a
window fetched at the first point only has not moved its block index since. -/

/-- The rows of the transposed input: fetched at every point. -/
theorem before0_0 (c : Dev nD) (t : Fin cfg0.N) (d) : (dat0 V c).before 0 t d = iblk0 V c 0 t := by
  have hkeep : ∀ t, (cfg0.win 0).cut (cfg0.grid.coords t) ((dat0 V c).after 0 t) = (dat0 V c).blockOf 0 t := by
    intro t; rw [after0_0]; unfold Dat.blockOf iblk0; rw [A_eq0]; try rfl
  rw [(dat0 V c).before_in_eq_fetched 0 rfl (fun _ => rfl) (fun _ _ _ => rfl) hkeep t d]
  unfold Dat.fetched Dat.blockOf iblk0; rw [A_eq0]; try rfl

/-- The first transposed weight matrix: fetched once, its block index constant. -/
theorem before0_1 (c : Dev nD) (t : Fin cfg0.N) (d) : (dat0 V c).before 1 t d = iblk0 V c 1 t := by
  have hkeep : ∀ t, (cfg0.win 1).cut (cfg0.grid.coords t) ((dat0 V c).after 1 t) = (dat0 V c).blockOf 1 t := by
    intro t; rw [after0_1]; unfold Dat.blockOf iblk0; rw [A_eq0]; try rfl
  rw [(dat0 V c).before_in_eq_fetched 1 rfl (fun _ => rfl) (fun _ _ _ => rfl) hkeep t d]
  unfold Dat.fetched Dat.blockOf iblk0; rw [A_eq0]; try rfl

/-- The second transposed weight matrix: likewise. -/
theorem before0_2 (c : Dev nD) (t : Fin cfg0.N) (d) : (dat0 V c).before 2 t d = iblk0 V c 2 t := by
  have hkeep : ∀ t, (cfg0.win 2).cut (cfg0.grid.coords t) ((dat0 V c).after 2 t) = (dat0 V c).blockOf 2 t := by
    intro t; rw [after0_2]; unfold Dat.blockOf iblk0; rw [A_eq0]; try rfl
  rw [(dat0 V c).before_in_eq_fetched 2 rfl (fun _ => rfl) (fun _ _ _ => rfl) hkeep t d]
  unfold Dat.fetched Dat.blockOf iblk0; rw [A_eq0]; try rfl

/-- The third transposed weight matrix: likewise. -/
theorem before0_3 (c : Dev nD) (t : Fin cfg0.N) (d) : (dat0 V c).before 3 t d = iblk0 V c 3 t := by
  have hkeep : ∀ t, (cfg0.win 3).cut (cfg0.grid.coords t) ((dat0 V c).after 3 t) = (dat0 V c).blockOf 3 t := by
    intro t; rw [after0_3]; unfold Dat.blockOf iblk0; rw [A_eq0]; try rfl
  rw [(dat0 V c).before_in_eq_fetched 3 rfl (fun _ => rfl) (fun _ _ _ => rfl) hkeep t d]
  unfold Dat.fetched Dat.blockOf iblk0; rw [A_eq0]; try rfl

/-! ## The kernel's triple

On whole staging memrefs, with the four inputs owned at contents `x0 … x3` and the three outputs owned at anything,
the projection kernel runs to its continuation with the inputs as they were and each output at the product of the
input rows with one weight matrix. The printed kernel is its skeleton of loads, payloads and stores by definition;
the symbolic run leaves each output buffer as one store over its old contents, which reads back as the payload of
the loaded values, and the loaded values are the contents. -/

set_option maxHeartbeats 1000000 in
theorem sound_kernel0 (c : Dev nD) (E : Set ℕ) (i : grid0.Coords)
    (arg1 : Memref sig .tc .vmem S1x4096x256 .f32) (harg1 : arg1.IsWhole)
    (arg2 : Memref sig .tc .vmem S256x256 .f32) (harg2 : arg2.IsWhole)
    (arg3 : Memref sig .tc .vmem S256x256 .f32) (harg3 : arg3.IsWhole)
    (arg4 : Memref sig .tc .vmem S256x256 .f32) (harg4 : arg4.IsWhole)
    (arg5 : Memref sig .tc .vmem S1x4096x256 .bf16) (harg5 : arg5.IsWhole)
    (arg6 : Memref sig .tc .vmem S1x4096x256 .bf16) (harg6 : arg6.IsWhole)
    (arg7 : Memref sig .tc .vmem S1x4096x256 .bf16) (harg7 : arg7.IsWhole)
    (x0 : Vec F S1x4096x256 .f32) (x1 x2 x3 : Vec F S256x256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k0_pay2 x0 x1) ∗ owns (c : Thread nD τ) arg6 fullShare (k0_pay3 x0 x2)
            ∗ owns (c : Thread nD τ) arg7 fullShare (k0_pay4 x0 x3)) -∗ K ⟨⟩))
      ⊢ wp frame (wpE (defs₀ (F := F)) Variants.none c none) E
          (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩,
    ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (proj_read_whole_store _ _ proj_zeros3 _ _).trans ?_
    rw [View.readAt_eq_ld, View.readAt_eq_ld, View.ld_unit_zero (S := S1x4096x256) proj_zeros3,
      View.ld_unit_zero (S := S256x256) proj_zeros2]
  isplitl [H5]
  · iexists _; isplitr
    swap; · iexact H5
    ipureintro
    refine (proj_read_whole_store _ _ proj_zeros3 _ _).trans ?_
    rw [View.readAt_eq_ld, View.readAt_eq_ld, View.ld_unit_zero (S := S1x4096x256) proj_zeros3,
      View.ld_unit_zero (S := S256x256) proj_zeros2]
  · iexists _; isplitr
    swap; · iexact H6
    ipureintro
    refine (proj_read_whole_store _ _ proj_zeros3 _ _).trans ?_
    rw [View.readAt_eq_ld, View.readAt_eq_ld, View.ld_unit_zero (S := S1x4096x256) proj_zeros3,
      View.ld_unit_zero (S := S256x256) proj_zeros2]

/-! ## The body obligation at a grid point -/

/-- What the body is called with at point `t`: the invariant, the core's debts, and every window's current staging
    buffer at what the schedule left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What it must return: the same with every buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- At any point the input buffers hold their blocks, so the kernel's triple applies at those blocks; the
    invariant and the debts are constant over the points and pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _
    (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of region 0, at every grid point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.AttnRuns.lean ====
/-
  The attention kernel on arbitrary whole memrefs: what one call leaves in the logistic tile's buffer, the rows'
  buffer and the accumulator, in each of the three cases of its two branches on the key tile.
-/
import proofs.«105034_j8933531975947_1_alg».proof.Proof.RegionData
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branch conditions and the whole-buffer rectangles

The kernel branches twice on the key-tile coordinate: it zeroes the accumulator where the key tile is 0, and
finishes the rows where it is 3. Every load and store goes through the rectangle that is its whole buffer at
offset zero, so a load reads the contents themselves and the last store into a buffer, read back, is its payload. -/

/-- The first branch's condition, as the kernel computes it from the key-tile coordinate: the key tile is 0. -/
abbrev attnKeyFirst (i : grid1.Coords) : Prop :=
  (Scalar.cmpi .ne (Scalar.extui (Scalar.cmpi .eq (BitVec.ofNat 32 (i 2).val) 0#32)) 0#32) = 1#1

/-- The zero offsets of a rank-2 buffer, as the constant function. -/
theorem attn_zeros2 : (![0, 0] : Fin 2 → Nat) = fun _ => 0 := funext fun a => by fin_cases a <;> rfl

/-- The zero offsets of a rank-3 buffer, as the constant function. -/
theorem attn_zeros3 : (![0, 0, 0] : Fin 3 → Nat) = fun _ => 0 := funext fun a => by fin_cases a <;> rfl

/-! ## The kernel's triple, one per case of the two branches

On whole memrefs, the seven inputs owned at contents `x0 … x6` and the logistic tile's buffer at anything, the
kernel runs to its continuation with the inputs as they were, the logistic tile stored, and the accumulator at
its old contents (zero, where the key tile is 0) plus the product of the logistic tile with the value tile. The
rows' buffer is handed back untouched unless the key tile is 3, where it is overwritten whole with the finished
rows computed from the new accumulator. The printed kernel is its skeleton of loads, payloads and stores by
definition; the symbolic run leaves each stored buffer as its stores over the old contents, the last of which
covers the buffer, and a load of the accumulator after a store into it reads that store's payload back. -/

set_option maxHeartbeats 4800000 in
/-- Key tile 0: the accumulator is zeroed first, so it ends at zero plus the tile's product, whatever it held. -/
theorem attn_runA (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x1024x1024 .f32) (harg10 : arg10.IsWhole) (arg11 : Memref sig .tc .vmem S1x1024x256 .f32) (harg11 : arg11.IsWhole) (arg12 : Memref sig .tc .vmem S1024x256 .f32) (harg12 : arg12.IsWhole)
    (hc0 : attnKeyFirst i) (hc1 : ¬ k1_cond2 i = 1#1)
    (x0 x1 x2 : Vec F S1x1024x256 .bf16) (x3 : Vec F S1x1024x256 .f32) (x4 : Vec F S256x256 .f32) (x5 x6 : Vec F S1x256 .f32) (y8 : Vec F S1x1024x256 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
        ∗ (∃ d, owns (c : Thread nD τ) arg10 fullShare d) ∗ owns (c : Thread nD τ) arg11 fullShare y8 ∗ (∃ d, owns (c : Thread nD τ) arg12 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
            ∗ owns (c : Thread nD τ) arg10 fullShare (k1_pay3 x0 x1) ∗ owns (c : Thread nD τ) arg11 fullShare y8
            ∗ owns (c : Thread nD τ) arg12 fullShare (k1_pay4 x0 x1 x2 (k1_pay1 (F := F)))) -∗ K ⟨⟩))
      ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%ds, %fs, -, HS⟩, Hk⟩
  sl_exec (disch := first | exact hc0 | exact hc1)
  sl_step
  iapply Hk
  isplitl [H0]
  · iexists _; isplitr
    · ipureintro; exact hf0
    iexact H0
  isplitl [H1]
  · iexists _; isplitr
    · ipureintro; exact hf1
    iexact H1
  isplitl [H2]
  · iexists _; isplitr
    · ipureintro; exact hf2
    iexact H2
  isplitl [H3]
  · iexists _; isplitr
    · ipureintro; exact hf3
    iexact H3
  isplitl [H4]
  · iexists _; isplitr
    · ipureintro; exact hf4
    iexact H4
  isplitl [H5]
  · iexists _; isplitr
    · ipureintro; exact hf5
    iexact H5
  isplitl [H6]
  · iexists _; isplitr
    · ipureintro; exact hf6
    iexact H6
  isplitl [H7]
  · iexists _; isplitr
    swap; · iexact H7
    ipureintro
    try sl_unfold_run_names
    rw [View.read_writes_eq_canon _ _ _ (fun y => ⟨_, List.mem_singleton_self _, View.mem_set_unit_zero attn_zeros3 inb_S1x1024x1024_S1x1024x1024_0_0_0 y⟩), View.canon_unit_zero attn_zeros3]
    simp only [View.readAt_eq_ld, hf0, hf1, View.ld_unit_zero (S := S1x1024x256) attn_zeros3]
  isplitl [H8]
  · iexists _; isplitr
    · ipureintro; exact hf8
    iexact H8
  iexists _; isplitr
  swap; · iexact HS
  ipureintro
  try sl_unfold_run_names
  rw [View.read_writes_eq_canon _ _ _ (fun y => ⟨_, List.mem_cons.mpr (Or.inl rfl), View.mem_set_unit_zero attn_zeros2 inb_S1024x256_S1024x256_0_0 y⟩), View.canon_cons_unit_zero attn_zeros2]
  sl_unfold_run_names
  rw [View.readCov_unit_zero _ attn_zeros2]
  simp only [View.readAt_eq_ld, hf0, hf1, hf2, View.ld_unit_zero (S := S1x1024x256) attn_zeros3, View.ld_unit_zero (S := S1024x256) attn_zeros2, View.ld_unit_zero (S := S256x256) attn_zeros2, View.ld_unit_zero (S := S1x256) attn_zeros2]

set_option maxHeartbeats 4800000 in
/-- Key tiles 1 and 2: the logistic tile is stored, the accumulator gains the tile's product; the rows' buffer is not touched. -/
theorem attn_runB (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x1024x1024 .f32) (harg10 : arg10.IsWhole) (arg11 : Memref sig .tc .vmem S1x1024x256 .f32) (harg11 : arg11.IsWhole) (arg12 : Memref sig .tc .vmem S1024x256 .f32) (harg12 : arg12.IsWhole)
    (hc0 : ¬ attnKeyFirst i) (hc1 : ¬ k1_cond2 i = 1#1)
    (x0 x1 x2 : Vec F S1x1024x256 .bf16) (x3 : Vec F S1x1024x256 .f32) (x4 : Vec F S256x256 .f32) (x5 x6 : Vec F S1x256 .f32) (y8 : Vec F S1x1024x256 .f32) (a : Vec F S1024x256 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
        ∗ (∃ d, owns (c : Thread nD τ) arg10 fullShare d) ∗ owns (c : Thread nD τ) arg11 fullShare y8 ∗ owns (c : Thread nD τ) arg12 fullShare a
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
            ∗ owns (c : Thread nD τ) arg10 fullShare (k1_pay3 x0 x1) ∗ owns (c : Thread nD τ) arg11 fullShare y8
            ∗ owns (c : Thread nD τ) arg12 fullShare (k1_pay4 x0 x1 x2 a)) -∗ K ⟨⟩))
      ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%fs, %hfs, HS⟩, Hk⟩
  sl_exec (disch := first | exact hc0 | exact hc1)
  sl_step
  iapply Hk
  isplitl [H0]
  · iexists _; isplitr
    · ipureintro; exact hf0
    iexact H0
  isplitl [H1]
  · iexists _; isplitr
    · ipureintro; exact hf1
    iexact H1
  isplitl [H2]
  · iexists _; isplitr
    · ipureintro; exact hf2
    iexact H2
  isplitl [H3]
  · iexists _; isplitr
    · ipureintro; exact hf3
    iexact H3
  isplitl [H4]
  · iexists _; isplitr
    · ipureintro; exact hf4
    iexact H4
  isplitl [H5]
  · iexists _; isplitr
    · ipureintro; exact hf5
    iexact H5
  isplitl [H6]
  · iexists _; isplitr
    · ipureintro; exact hf6
    iexact H6
  isplitl [H7]
  · iexists _; isplitr
    swap; · iexact H7
    ipureintro
    try sl_unfold_run_names
    rw [View.read_writes_eq_canon _ _ _ (fun y => ⟨_, List.mem_singleton_self _, View.mem_set_unit_zero attn_zeros3 inb_S1x1024x1024_S1x1024x1024_0_0_0 y⟩), View.canon_unit_zero attn_zeros3]
    simp only [View.readAt_eq_ld, hf0, hf1, View.ld_unit_zero (S := S1x1024x256) attn_zeros3]
  isplitl [H8]
  · iexists _; isplitr
    · ipureintro; exact hf8
    iexact H8
  iexists _; isplitr
  swap; · iexact HS
  ipureintro
  try sl_unfold_run_names
  rw [View.read_writes_eq_canon _ _ _ (fun y => ⟨_, List.mem_singleton_self _, View.mem_set_unit_zero attn_zeros2 inb_S1024x256_S1024x256_0_0 y⟩), View.canon_unit_zero attn_zeros2]
  simp only [View.readAt_eq_ld, hf0, hf1, hf2, hfs, View.ld_unit_zero (S := S1x1024x256) attn_zeros3, View.ld_unit_zero (S := S1024x256) attn_zeros2]

set_option maxHeartbeats 4800000 in
/-- Key tile 3: as at tiles 1 and 2, and then the rows' buffer is overwritten whole with the finished rows computed from the accumulator. -/
theorem attn_runC (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x1024x1024 .f32) (harg10 : arg10.IsWhole) (arg11 : Memref sig .tc .vmem S1x1024x256 .f32) (harg11 : arg11.IsWhole) (arg12 : Memref sig .tc .vmem S1024x256 .f32) (harg12 : arg12.IsWhole)
    (hc0 : ¬ attnKeyFirst i) (hc1 : k1_cond2 i = 1#1)
    (x0 x1 x2 : Vec F S1x1024x256 .bf16) (x3 : Vec F S1x1024x256 .f32) (x4 : Vec F S256x256 .f32) (x5 x6 : Vec F S1x256 .f32) (a : Vec F S1024x256 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
        ∗ (∃ d, owns (c : Thread nD τ) arg10 fullShare d) ∗ (∃ d, owns (c : Thread nD τ) arg11 fullShare d) ∗ owns (c : Thread nD τ) arg12 fullShare a
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
            ∗ owns (c : Thread nD τ) arg10 fullShare (k1_pay3 x0 x1)
            ∗ owns (c : Thread nD τ) arg11 fullShare (k1_pay5 (k1_pay6 (k1_pay4 x0 x1 x2 a) x4 x3 x5 x6))
            ∗ owns (c : Thread nD τ) arg12 fullShare (k1_pay4 x0 x1 x2 a)) -∗ K ⟨⟩))
      ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs, %hfs, HS⟩, Hk⟩
  sl_exec (disch := first | exact hc0 | exact hc1)
  sl_step
  iapply Hk
  isplitl [H0]
  · iexists _; isplitr
    · ipureintro; exact hf0
    iexact H0
  isplitl [H1]
  · iexists _; isplitr
    · ipureintro; exact hf1
    iexact H1
  isplitl [H2]
  · iexists _; isplitr
    · ipureintro; exact hf2
    iexact H2
  isplitl [H3]
  · iexists _; isplitr
    · ipureintro; exact hf3
    iexact H3
  isplitl [H4]
  · iexists _; isplitr
    · ipureintro; exact hf4
    iexact H4
  isplitl [H5]
  · iexists _; isplitr
    · ipureintro; exact hf5
    iexact H5
  isplitl [H6]
  · iexists _; isplitr
    · ipureintro; exact hf6
    iexact H6
  isplitl [H7]
  · iexists _; isplitr
    swap; · iexact H7
    ipureintro
    try sl_unfold_run_names
    rw [View.read_writes_eq_canon _ _ _ (fun y => ⟨_, List.mem_singleton_self _, View.mem_set_unit_zero attn_zeros3 inb_S1x1024x1024_S1x1024x1024_0_0_0 y⟩), View.canon_unit_zero attn_zeros3]
    simp only [View.readAt_eq_ld, hf0, hf1, View.ld_unit_zero (S := S1x1024x256) attn_zeros3]
  isplitl [H8]
  · iexists _; isplitr
    swap; · iexact H8
    ipureintro
    try sl_unfold_run_names
    rw [View.read_writes_eq_canon _ _ _ (fun y => ⟨_, List.mem_singleton_self _, View.mem_set_unit_zero attn_zeros3 inb_S1x1024x256_S1x1024x256_0_0_0 y⟩), View.canon_unit_zero attn_zeros3]
    sl_unfold_run_names
    rw [View.readCov_unit_zero _ attn_zeros2]
    simp only [View.readAt_eq_ld, hf0, hf1, hf2, hf3, hf4, hf5, hf6, hfs, View.ld_unit_zero (S := S1x1024x256) attn_zeros3, View.ld_unit_zero (S := S1024x256) attn_zeros2, View.ld_unit_zero (S := S256x256) attn_zeros2, View.ld_unit_zero (S := S1x256) attn_zeros2]
  iexists _; isplitr
  swap; · iexact HS
  ipureintro
  try sl_unfold_run_names
  rw [View.read_writes_eq_canon _ _ _ (fun y => ⟨_, List.mem_singleton_self _, View.mem_set_unit_zero attn_zeros2 inb_S1024x256_S1024x256_0_0 y⟩), View.canon_unit_zero attn_zeros2]
  simp only [View.readAt_eq_ld, hf0, hf1, hf2, hfs, View.ld_unit_zero (S := S1x1024x256) attn_zeros3, View.ld_unit_zero (S := S1024x256) attn_zeros2, View.ld_unit_zero (S := S256x256) attn_zeros2, View.ld_unit_zero (S := S1x256) attn_zeros2]

end Cert.KernelIdeal.Hand

end
-- ==== Proof.AttnBody.lean ====
/-
  Region 1's body: at every grid point the attention kernel, called on the current staging buffers and the
  accumulator scratch, leaves the inputs as they were, the logistic tile in its buffer, the accumulator at
  `accAfter`, and at a key tile 3 the finished rows in theirs.
-/
import proofs.«105034_j8933531975947_1_alg».proof.Proof.RegionData
import proofs.«105034_j8933531975947_1_alg».proof.Proof.AttnRuns
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The invariant's two ends -/

/-- The invariant before the first point, with the accumulator split out of the scoped buffers. -/
theorem PhiA1_eq (c : Dev nD) :
    (Pipeline.ΦA spec1 c : sProp 𝕄)
      = iprop(restOther (F := F) c ∗ (∃ d, owns (c : Thread nD τ) scM fullShare d) ∗ (∃ r, prngReg c r)) := by
  unfold Pipeline.ΦA restOther
  rw [Pipeline.scopedRest_split_of_list spec1 c [cc1_scratch0] (by decide) (by decide)]
  simp only [bigSepL_singleton, scM, owns_whole]
  have h₁ : iprop(((∃ f : Buf (Elt F) ((c : Thread nD τ).loc cc1_scratch0), ((c : Thread nD τ).loc cc1_scratch0) ↦{fullShare} f)
        ∗ Pipeline.scopedRestBut (Ix := Unit) (Name := ℕ) (U := UR sig nD τ) (Lvl := ℕ) (Val := Elt F) spec1 c [cc1_scratch0]) ∗ (∃ r, prngReg c r))
      ⊢ (iprop(Pipeline.scopedRestBut (Ix := Unit) (Name := ℕ) (U := UR sig nD τ) (Lvl := ℕ) (Val := Elt F) spec1 c [cc1_scratch0]
        ∗ (∃ d : Buf (Elt F) ((c : Thread nD τ).loc cc1_scratch0), ((c : Thread nD τ).loc cc1_scratch0) ↦{fullShare} d) ∗ (∃ r, prngReg c r)) : sProp 𝕄) := by
    iintro ⟨⟨HS, Hr⟩, Hg⟩
    isplitl [Hr]; · iexact Hr
    isplitl [HS]; · iexact HS
    iexact Hg
  have h₂ : (iprop(Pipeline.scopedRestBut (Ix := Unit) (Name := ℕ) (U := UR sig nD τ) (Lvl := ℕ) (Val := Elt F) spec1 c [cc1_scratch0]
        ∗ (∃ d : Buf (Elt F) ((c : Thread nD τ).loc cc1_scratch0), ((c : Thread nD τ).loc cc1_scratch0) ↦{fullShare} d) ∗ (∃ r, prngReg c r)) : sProp 𝕄)
      ⊢ iprop(((∃ f : Buf (Elt F) ((c : Thread nD τ).loc cc1_scratch0), ((c : Thread nD τ).loc cc1_scratch0) ↦{fullShare} f)
        ∗ Pipeline.scopedRestBut (Ix := Unit) (Name := ℕ) (U := UR sig nD τ) (Lvl := ℕ) (Val := Elt F) spec1 c [cc1_scratch0]) ∗ (∃ r, prngReg c r)) := by
    iintro ⟨Hr, HS, Hg⟩
    isplitl [HS Hr]
    · isplitl [HS]; · iexact HS
      iexact Hr
    iexact Hg
  exact BI.equiv_iff.mp ⟨h₁, h₂⟩

/-- What the launch hands region 1 is its invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After the last point the invariant gives it back, the accumulator's contents forgotten. -/
theorem hout1 (c : Dev nD) : (dat1 V c).Φ (Fin.last cfg1.N) ⊢ Pipeline.ΦA spec1 c := by
  have hN : (Fin.last cfg1.N).val ≠ 0 := by rw [Fin.val_last]; have : cfg1.N = 64 := N_1; omega
  rw [show (dat1 V c).Φ (Fin.last cfg1.N) = Phi1 V c (Fin.last cfg1.N).val (Nat.le_of_lt_succ (Fin.last cfg1.N).isLt) from rfl,
    Phi1_pos V c _ _ hN, PhiA1_eq]
  iintro ⟨Hr, HS, Hg⟩
  isplitl [Hr]; · iexact Hr
  isplitl [HS]; · iexists _; iexact HS
  iexact Hg

/-! ## The branch conditions over the grid

The key tile is the innermost coordinate, so it is the point's position modulo 4: decided over the 64 points. -/

theorem attn_first_iff : ∀ t : Fin cfg1.N, attnKeyFirst (grid1.coords t) ↔ t.val % 4 = 0 :=
  (by decide +kernel : ∀ t : Fin grid1.N, attnKeyFirst (grid1.coords t) ↔ t.val % 4 = 0)

theorem attn_last_iff : ∀ t : Fin cfg1.N, k1_cond2 (grid1.coords t) = 1#1 ↔ t.val % 4 = 3 :=
  (by decide +kernel : ∀ t : Fin grid1.N, k1_cond2 (grid1.coords t) = 1#1 ↔ t.val % 4 = 3)

/-! ## Where the windows are idle

Only the rows' window is ever idle: at the points whose key tile is not 3, and there it is not written back. -/

theorem attn_live_0 : ∀ t : Fin cfg1.N, cfg1.idle 0 (grid1.coords t) = false := fun _ => rfl
theorem attn_live_1 : ∀ t : Fin cfg1.N, cfg1.idle 1 (grid1.coords t) = false := fun _ => rfl
theorem attn_live_2 : ∀ t : Fin cfg1.N, cfg1.idle 2 (grid1.coords t) = false := fun _ => rfl
theorem attn_live_3 : ∀ t : Fin cfg1.N, cfg1.idle 3 (grid1.coords t) = false := fun _ => rfl
theorem attn_live_4 : ∀ t : Fin cfg1.N, cfg1.idle 4 (grid1.coords t) = false := fun _ => rfl
theorem attn_live_5 : ∀ t : Fin cfg1.N, cfg1.idle 5 (grid1.coords t) = false := fun _ => rfl
theorem attn_live_6 : ∀ t : Fin cfg1.N, cfg1.idle 6 (grid1.coords t) = false := fun _ => rfl
theorem attn_live_7 : ∀ t : Fin cfg1.N, cfg1.idle 7 (grid1.coords t) = false := fun _ => rfl

theorem attn_idle_8 : ∀ t : Fin cfg1.N, ¬ k1_cond2 (grid1.coords t) = 1#1 → cfg1.idle 8 (grid1.coords t) = true := by decide +kernel

theorem attn_noflush_8 : ∀ t : Fin cfg1.N, ¬ k1_cond2 (grid1.coords t) = 1#1 → (cfg1.win 8).flush t = false := by decide +kernel

theorem attn_live_8 : ∀ t : Fin cfg1.N, k1_cond2 (grid1.coords t) = 1#1 → cfg1.idle 8 (grid1.coords t) = false := by decide +kernel

/-! ## What the body finds in the input windows' staging buffers

The body leaves every input window's block in place and no input window is cut or idle, so the buffer a point is
handed holds the window's block of the array as the region found it, whether the point fetched it or not: an
unfetched window has not moved its block index since the point before. -/

theorem attn_before_0 (c : Dev nD) (t : Fin cfg1.N) (d) : (dat1 V c).before 0 t d = iblk1 V c 0 t := by
  have hkeep : ∀ t, (cfg1.win 0).cut (cfg1.grid.coords t) ((dat1 V c).after 0 t) = (dat1 V c).blockOf 0 t := by
    intro t; rw [after1_0]; unfold Dat.blockOf iblk1; rw [A_eq1]; try rfl
  rw [(dat1 V c).before_in_eq_fetched 0 rfl (fun _ => rfl) (fun _ _ _ => rfl) hkeep t d]
  unfold Dat.fetched Dat.blockOf iblk1; rw [A_eq1]; try rfl

theorem attn_before_1 (c : Dev nD) (t : Fin cfg1.N) (d) : (dat1 V c).before 1 t d = iblk1 V c 1 t := by
  have hkeep : ∀ t, (cfg1.win 1).cut (cfg1.grid.coords t) ((dat1 V c).after 1 t) = (dat1 V c).blockOf 1 t := by
    intro t; rw [after1_1]; unfold Dat.blockOf iblk1; rw [A_eq1]; try rfl
  rw [(dat1 V c).before_in_eq_fetched 1 rfl (fun _ => rfl) (fun _ _ _ => rfl) hkeep t d]
  unfold Dat.fetched Dat.blockOf iblk1; rw [A_eq1]; try rfl

theorem attn_before_2 (c : Dev nD) (t : Fin cfg1.N) (d) : (dat1 V c).before 2 t d = iblk1 V c 2 t := by
  have hkeep : ∀ t, (cfg1.win 2).cut (cfg1.grid.coords t) ((dat1 V c).after 2 t) = (dat1 V c).blockOf 2 t := by
    intro t; rw [after1_2]; unfold Dat.blockOf iblk1; rw [A_eq1]; try rfl
  rw [(dat1 V c).before_in_eq_fetched 2 rfl (fun _ => rfl) (fun _ _ _ => rfl) hkeep t d]
  unfold Dat.fetched Dat.blockOf iblk1; rw [A_eq1]; try rfl

theorem attn_before_3 (c : Dev nD) (t : Fin cfg1.N) (d) : (dat1 V c).before 3 t d = iblk1 V c 3 t := by
  have hkeep : ∀ t, (cfg1.win 3).cut (cfg1.grid.coords t) ((dat1 V c).after 3 t) = (dat1 V c).blockOf 3 t := by
    intro t; rw [after1_3]; unfold Dat.blockOf iblk1; rw [A_eq1]; try rfl
  rw [(dat1 V c).before_in_eq_fetched 3 rfl (fun _ => rfl) (fun _ _ _ => rfl) hkeep t d]
  unfold Dat.fetched Dat.blockOf iblk1; rw [A_eq1]; try rfl

theorem attn_before_4 (c : Dev nD) (t : Fin cfg1.N) (d) : (dat1 V c).before 4 t d = iblk1 V c 4 t := by
  have hkeep : ∀ t, (cfg1.win 4).cut (cfg1.grid.coords t) ((dat1 V c).after 4 t) = (dat1 V c).blockOf 4 t := by
    intro t; rw [after1_4]; unfold Dat.blockOf iblk1; rw [A_eq1]; try rfl
  rw [(dat1 V c).before_in_eq_fetched 4 rfl (fun _ => rfl) (fun _ _ _ => rfl) hkeep t d]
  unfold Dat.fetched Dat.blockOf iblk1; rw [A_eq1]; try rfl

theorem attn_before_5 (c : Dev nD) (t : Fin cfg1.N) (d) : (dat1 V c).before 5 t d = iblk1 V c 5 t := by
  have hkeep : ∀ t, (cfg1.win 5).cut (cfg1.grid.coords t) ((dat1 V c).after 5 t) = (dat1 V c).blockOf 5 t := by
    intro t; rw [after1_5]; unfold Dat.blockOf iblk1; rw [A_eq1]; try rfl
  rw [(dat1 V c).before_in_eq_fetched 5 rfl (fun _ => rfl) (fun _ _ _ => rfl) hkeep t d]
  unfold Dat.fetched Dat.blockOf iblk1; rw [A_eq1]; try rfl

theorem attn_before_6 (c : Dev nD) (t : Fin cfg1.N) (d) : (dat1 V c).before 6 t d = iblk1 V c 6 t := by
  have hkeep : ∀ t, (cfg1.win 6).cut (cfg1.grid.coords t) ((dat1 V c).after 6 t) = (dat1 V c).blockOf 6 t := by
    intro t; rw [after1_6]; unfold Dat.blockOf iblk1; rw [A_eq1]; try rfl
  rw [(dat1 V c).before_in_eq_fetched 6 rfl (fun _ => rfl) (fun _ _ _ => rfl) hkeep t d]
  unfold Dat.fetched Dat.blockOf iblk1; rw [A_eq1]; try rfl

/-! ## The body obligation at a grid point -/

/-- What the body is called with at point `t`: the invariant, the core's debts, and every window's current staging
    buffer at what the schedule left in it. -/
def attnPre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- What it must return: the invariant at the next point, the debts, and every buffer at what the proof data says the
    body leaves (the rows' buffer as it was found, where its window is idle). -/
def attnPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 4800000 in
/-- At any point the input buffers hold their blocks; the point's position modulo 4 says which case of the kernel's
    triple applies; the invariant hands the accumulator at what the point before left (at anything before the first
    point, which is a key tile 0) and takes it back at this point's contents. -/
theorem attn_sound_body (c : Dev nD) (t : Fin cfg1.N) :
    attnPre V c t ⊢ wp frame (wpE (defs₀ (F := F)) Variants.none c none) Set.univ (bodyAt1 t) (fun _ => attnPost V c t) := by
  unfold attnPre attnPost bodyAt1
  simp only [attn_before_0, attn_before_1, attn_before_2, attn_before_3, attn_before_4, attn_before_5, attn_before_6]
  rw [show (dat1 V c).owesAt () t.succ = (dat1 V c).owesAt () t.castSucc from rfl]
  rw [show (dat1 V c).Φ t.succ = Phi1 V c (t.val + 1) t.isLt from rfl, Phi1_succ]
  have hN : t.val < 64 := lt_of_lt_of_eq t.isLt (show cfg1.N = 64 from N_1)
  by_cases h0 : t.val % 4 = 0
  · have h1 : ¬ t.val % 4 = 3 := by omega
    have hc0 : attnKeyFirst (grid1.coords t) := (attn_first_iff t).mpr h0
    have hc1 : ¬ k1_cond2 (grid1.coords t) = 1#1 := fun h => h1 ((attn_last_iff t).mp h)
    rw [show (dat1 V c).leavesExact 0 t = owns (c : Thread nD τ) (st1_0 t) fullShare ((dat1 V c).after 0 t) from by
      unfold Dat.leavesExact; rw [attn_live_0 t], after1_0]
    rw [show (dat1 V c).leavesExact 1 t = owns (c : Thread nD τ) (st1_1 t) fullShare ((dat1 V c).after 1 t) from by
      unfold Dat.leavesExact; rw [attn_live_1 t], after1_1]
    rw [show (dat1 V c).leavesExact 2 t = owns (c : Thread nD τ) (st1_2 t) fullShare ((dat1 V c).after 2 t) from by
      unfold Dat.leavesExact; rw [attn_live_2 t], after1_2]
    rw [show (dat1 V c).leavesExact 3 t = owns (c : Thread nD τ) (st1_3 t) fullShare ((dat1 V c).after 3 t) from by
      unfold Dat.leavesExact; rw [attn_live_3 t], after1_3]
    rw [show (dat1 V c).leavesExact 4 t = owns (c : Thread nD τ) (st1_4 t) fullShare ((dat1 V c).after 4 t) from by
      unfold Dat.leavesExact; rw [attn_live_4 t], after1_4]
    rw [show (dat1 V c).leavesExact 5 t = owns (c : Thread nD τ) (st1_5 t) fullShare ((dat1 V c).after 5 t) from by
      unfold Dat.leavesExact; rw [attn_live_5 t], after1_5]
    rw [show (dat1 V c).leavesExact 6 t = owns (c : Thread nD τ) (st1_6 t) fullShare ((dat1 V c).after 6 t) from by
      unfold Dat.leavesExact; rw [attn_live_6 t], after1_6]
    rw [show (dat1 V c).leavesExact 7 t = owns (c : Thread nD τ) (st1_7 t) fullShare ((dat1 V c).after 7 t) from by
      unfold Dat.leavesExact; rw [attn_live_7 t], after1_7]
    rw [Dat.leavesExact_idle (dat1 V c) 8 t (attn_idle_8 t hc1) (attn_noflush_8 t hc1)]
    rw [accAfter_reset V c t h0]
    have hpre : (dat1 V c).Φ t.castSucc ⊢ iprop(restOther (F := F) c ∗ (∃ d, owns (c : Thread nD τ) scM fullShare d) ∗ (∃ r, prngReg c r)) := by
      by_cases hz : t.val = 0
      · rw [Phi1_castSucc V c t, Phi1_zero V c _ _ hz, PhiA1_eq]
        try exact Idealize.SL.BI.Entails.refl _
      · rw [Phi1_castSucc V c t, Phi1_pos V c _ _ hz]
        iintro ⟨Hr, HS, Hg⟩
        isplitl [Hr]; · iexact Hr
        isplitl [HS]; · iexists _; iexact HS
        iexact Hg
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave HΦ' := hpre $$ HΦ
    icases HΦ' with ⟨Hr, HS, Hg⟩
    iapply (attn_runA c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) ((dat1 V c).before 8 t d8) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [HS]; · iexact HS
    iintro ⟨H0, H1, H2, H3, H4, H5, H6, H7, H8, HS⟩
    isplitl [Hr HS Hg]
    · isplitl [Hr]; · iexact Hr
      isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · have hz : t.val ≠ 0 := fun h => h0 (by rw [h])
    have hc0 : ¬ attnKeyFirst (grid1.coords t) := fun h => h0 ((attn_first_iff t).mp h)
    rw [show (dat1 V c).leavesExact 0 t = owns (c : Thread nD τ) (st1_0 t) fullShare ((dat1 V c).after 0 t) from by
      unfold Dat.leavesExact; rw [attn_live_0 t], after1_0]
    rw [show (dat1 V c).leavesExact 1 t = owns (c : Thread nD τ) (st1_1 t) fullShare ((dat1 V c).after 1 t) from by
      unfold Dat.leavesExact; rw [attn_live_1 t], after1_1]
    rw [show (dat1 V c).leavesExact 2 t = owns (c : Thread nD τ) (st1_2 t) fullShare ((dat1 V c).after 2 t) from by
      unfold Dat.leavesExact; rw [attn_live_2 t], after1_2]
    rw [show (dat1 V c).leavesExact 3 t = owns (c : Thread nD τ) (st1_3 t) fullShare ((dat1 V c).after 3 t) from by
      unfold Dat.leavesExact; rw [attn_live_3 t], after1_3]
    rw [show (dat1 V c).leavesExact 4 t = owns (c : Thread nD τ) (st1_4 t) fullShare ((dat1 V c).after 4 t) from by
      unfold Dat.leavesExact; rw [attn_live_4 t], after1_4]
    rw [show (dat1 V c).leavesExact 5 t = owns (c : Thread nD τ) (st1_5 t) fullShare ((dat1 V c).after 5 t) from by
      unfold Dat.leavesExact; rw [attn_live_5 t], after1_5]
    rw [show (dat1 V c).leavesExact 6 t = owns (c : Thread nD τ) (st1_6 t) fullShare ((dat1 V c).after 6 t) from by
      unfold Dat.leavesExact; rw [attn_live_6 t], after1_6]
    rw [show (dat1 V c).leavesExact 7 t = owns (c : Thread nD τ) (st1_7 t) fullShare ((dat1 V c).after 7 t) from by
      unfold Dat.leavesExact; rw [attn_live_7 t], after1_7]
    rw [accAfter_step V c t h0]
    rw [Phi1_castSucc V c t, Phi1_pos V c _ _ hz]
    by_cases h1 : t.val % 4 = 3
    · have hc1 : k1_cond2 (grid1.coords t) = 1#1 := (attn_last_iff t).mpr h1
      rw [show (dat1 V c).leavesExact 8 t = owns (c : Thread nD τ) (st1_8 t) fullShare ((dat1 V c).after 8 t) from by
        unfold Dat.leavesExact; rw [attn_live_8 t hc1], after1_8, accAfter_step V c t h0]
      iintro ⟨⟨Hr, HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (attn_runC c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS]; · iexact HS
      iintro ⟨H0, H1, H2, H3, H4, H5, H6, H7, H8, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hc1 : ¬ k1_cond2 (grid1.coords t) = 1#1 := fun h => h1 ((attn_last_iff t).mp h)
      rw [Dat.leavesExact_idle (dat1 V c) 8 t (attn_idle_8 t hc1) (attn_noflush_8 t hc1)]
      iintro ⟨⟨Hr, HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (attn_runB c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) ((dat1 V c).before 8 t d8) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [HS]; · iexact HS
      iintro ⟨H0, H1, H2, H3, H4, H5, H6, H7, H8, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The body obligation of region 1, at every grid point. -/
theorem body_obligation1 (c : Dev nD) : BodyObligation (dat1 (F := F) V c) (defs₀ (F := F)) Variants.none () Set.univ := fun t => by
  rw [bigSep_W1, bigSep_W1]
  exact attn_sound_body V c t

end Cert.KernelIdeal.Hand

end
-- ==== Proof.MainRun.lean ====
/-
  The run of the whole program over the boundary valuations: @main as five items (host operations, region 0, host
  operations, region 1, host operations), each region's record built from its proof data and body obligation.
  Every weakly fair execution terminates, and the final memory holds every unscoped buffer at the last valuation.
-/
import proofs.«105034_j8933531975947_1_alg».proof.Proof.Boundaries
import proofs.«105034_j8933531975947_1_alg».proof.Proof.ProjBody
import proofs.«105034_j8933531975947_1_alg».proof.Proof.AttnBody
import proofs.«105034_j8933531975947_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The proof data family, the thread state, the segments -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c

abbrev 𝒱₀ : Variants := Variants.none
/-- No core owes another anything. -/
abbrev Lz : GSem nD τ sig → Finset Unit := fun _ => ∅
abbrev lvz : GSem nD τ sig → Unit → ℕ := fun _ _ => 0
/-- What rides beside the buffers: the generator register at some state, and nothing owed. -/
abbrev Rz (c : Dev nD) : sProp 𝕄 := iprop((∃ r, prngReg c r) ∗ ∃ W, owes (c : Thread nD τ) (0 : CellTallies nD τ sig Unit) W)

/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rz

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tend (c : Dev nD) : sProp 𝕄 := iprop(StableHlo.held (c : Thread nD τ) (Pipeline.ucRefs τ sig) (W5 m c) ∗ ∃ r, prngReg c r)

set_option backward.isDefEq.respectTransparency.types false in
/-- Region 0 between the thread states "every unscoped buffer at `W1`" and "at `W2`". -/
def reg0 : Pipeline.RegionSeg (pcfgs (F := F)) adm (pdats m) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ Lz lvz 0 fun _ _ => rfl
  pre c := iprop(StableHlo.held (c : Thread nD τ) (Pipeline.ucRefs τ sig) (W1 m c) ∗ Rz c)
  post c := iprop(StableHlo.held (c : Thread nD τ) (Pipeline.ucRefs τ sig) (W2 m c) ∗ Rz c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 between "every unscoped buffer at `W3`" and "at `W4`"; its invariant takes the generator register and
    the scoped buffers it does not stage (the accumulator among them) in and gives them back. -/
def reg1 : Pipeline.RegionSeg (pcfgs (F := F)) adm (pdats m) () defs₀ 𝒱₀ Lz lvz 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ Lz lvz 1 fun _ _ => rfl
  pre c := iprop(StableHlo.held (c : Thread nD τ) (Pipeline.ucRefs τ sig) (W3 m c) ∗ Rz c)
  post c := iprop(StableHlo.held (c : Thread nD τ) (Pipeline.ucRefs τ sig) (W4 m c) ∗ Rz c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (E3 m) c).Φ 0 from rfl]
    have h := hin1 (F := F) (E3 m) c
    unfold Pipeline.ΦA at h
    iintro ⟨Hp, -, Hr⟩
    iapply h
    isplitl [Hr]; · iexact Hr
    iexact Hp
  hout c := by
    rw [Pipeline.ownSems0_none, show (pdats m 1 c).Φ (Fin.last _) = (dat1 (E3 m) c).Φ (Fin.last cfg1.N) from rfl]
    have h : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (F := F) (E3 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's five items in order. -/
abbrev segs : List (Pipeline.Seg (pcfgs (F := F)) adm (pdats m) () defs₀ 𝒱₀ Lz lvz) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]

theorem main_run (c : Dev nD) : main (F := F) c = Pipeline.Seg.run (segs m) := (main_chain c).trans (by chain_rfl)

set_option backward.isDefEq.respectTransparency.types false in
/-- THE RUN: from any memory `m` with zero counters every weakly fair execution of @main terminates, nothing
    faulting, and the final memory holds every unscoped buffer at `W5`. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W5 m c b) :=
  Pipeline.θ_run_regions_kit (pcfgs (F := F)) adm (pdats m) () cellOf_inj emb₁ defs₀ 𝒱₀ Lz lvz m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rz c)) (Tₙ := Tend m)
    (hch := ⟨fun _ => .rfl, fun _ => .rfl, fun _ => .rfl, fun _ => .rfl, fun _ => .rfl, fun c => (show iprop(StableHlo.held (c : Thread nD τ) (Pipeline.ucRefs τ sig) (W5 m c) ∗ Rz (F := F) c)
        ⊢ iprop(Tend m c ∗ ∃ W, owes (c : Thread nD τ) (0 : CellTallies nD τ sig Unit) W) from by
      iintro ⟨Hh, Hp, HO⟩
      isplitl [Hh Hp]
      · isplitl [Hh]; · iexact Hh
        iexact Hp
      iexact HO)⟩)
    (hinit := by
      refine Pipeline.initEach Lz lvz fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.KernelIdeal.Hand

end
-- ==== Proof.KRegionData.lean ====
/-
  The proof data of the two pipelined regions, at a parameter `V`: the unscoped buffers' contents on core `c`
  when the region is entered.

  Region 0 (the projections, one grid point per batch entry): a point reads the batch entry's rows of the
  transposed input and the three transposed weight matrices whole, and stores the three products.
  Region 1 (the attention, grid (batch, query tile, key tile), the key tile innermost): a point stores the
  logistic of the scaled query-key products of its tile pair; a scratch accumulates, over the four key tiles of
  one (batch, query tile), the products of that logistic tile with the value tile, starting from zero at key
  tile 0; at key tile 3 the normalised, projected, residual-added and layer-normalised rows are stored.
-/
import proofs.«105034_j8933531975947_1_alg».proof.Proof.Gen.Kernel.Launch
import proofs.«105034_j8933531975947_1_alg».proof.Proof.Gen.Kernel.Skeleton
import proofs.«105034_j8933531975947_1_alg».proof.Proof.Gen.Kernel.Points
import Idealize.ShloMosaic.Lib.Pipeline.FrameBody
import Idealize.ShloMosaic.Lib.Pipeline.Frame

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0 -/

/-- Window `w`'s block of its array at grid point `t`, as region 0 finds the array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 0's proof data: the four inputs keep their blocks, each of the three outputs holds the product of the
    batch entry's rows with one transposed weight matrix; nothing is carried between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay2 (iblk0 V c 0 t) (iblk0 V c 1 t)
    | ⟨5, _⟩ => k0_pay3 (iblk0 V c 0 t) (iblk0 V c 2 t)
    | ⟨6, _⟩ => k0_pay4 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = k0_pay2 (iblk0 V c 0 t) (iblk0 V c 1 t) := by dsimp only [dat0]
theorem after0_5 (c : Dev nD) (t : Fin cfg0.N) : (dat0 V c).after 5 t = k0_pay3 (iblk0 V c 0 t) (iblk0 V c 2 t) := by dsimp only [dat0]
theorem after0_6 (c : Dev nD) (t : Fin cfg0.N) : (dat0 V c).after 6 t = k0_pay4 (iblk0 V c 0 t) (iblk0 V c 3 t) := by dsimp only [dat0]

/-! ## Region 1 -/

/-- Window `w`'s block of its array at grid point `t`, as region 1 finds the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator scratch as a whole memref. -/
abbrev scM : Memref sig .tc .vmem S1024x256 .f32 := Memref.whole cc1_scratch0

/-- What the accumulator holds after grid point `n`: the point's logistic tile times its value tile, added to
    zero at key tile 0 (`n ≡ 0 mod 4`) and to what the point before left otherwise. -/
def accAfter (c : Dev nD) : (n : ℕ) → n < cfg1.N → FVec F S1024x256 .f32
  | 0, h => k1_pay4 (iblk1 V c 0 ⟨0, h⟩) (iblk1 V c 1 ⟨0, h⟩) (iblk1 V c 2 ⟨0, h⟩) (k1_pay1 (F := F))
  | n + 1, h => k1_pay4 (iblk1 V c 0 ⟨n + 1, h⟩) (iblk1 V c 1 ⟨n + 1, h⟩) (iblk1 V c 2 ⟨n + 1, h⟩)
      (if (n + 1) % 4 = 0 then k1_pay1 (F := F) else accAfter c n (Nat.lt_of_succ_lt h))

theorem accAfter_reset (c : Dev nD) (t : Fin cfg1.N) (h0 : t.val % 4 = 0) :
    accAfter V c t.val t.isLt = k1_pay4 (iblk1 V c 0 t) (iblk1 V c 1 t) (iblk1 V c 2 t) (k1_pay1 (F := F)) := by
  obtain ⟨n, hn⟩ := t
  cases n with
  | zero => rfl
  | succ n => exact congrArg _ (if_pos h0)

theorem accAfter_step (c : Dev nD) (t : Fin cfg1.N) (h0 : ¬ t.val % 4 = 0) :
    accAfter V c t.val t.isLt = k1_pay4 (iblk1 V c 0 t) (iblk1 V c 1 t) (iblk1 V c 2 t)
      (accAfter V c (t.val - 1) (Nat.lt_of_le_of_lt (Nat.sub_le _ _) t.isLt)) := by
  obtain ⟨n, hn⟩ := t
  cases n with
  | zero => exact absurd (Nat.zero_mod _) h0
  | succ n => exact congrArg _ (if_neg h0)

/-- The scoped buffers region 1 neither stages nor accumulates in, each at some contents. -/
def restOther (c : Dev nD) : sProp 𝕄 :=
  Pipeline.scopedRestBut (Ix := Unit) (Name := ℕ) (U := UR sig nD τ) (Lvl := ℕ) (Val := Elt F) spec1 c [cc1_scratch0]

/-- Region 1's invariant before grid point `n`: before the first point every scoped buffer it does not stage at
    anything (and the generator register at some state); afterwards the accumulator at `accAfter` of the point
    before, the other such buffers at anything. -/
def Phi1 (c : Dev nD) : (n : ℕ) → n ≤ cfg1.N → sProp 𝕄
  | 0, _ => Pipeline.ΦA spec1 c
  | n + 1, hn => iprop(restOther (F := F) c ∗ owns (c : Thread nD τ) scM fullShare (accAfter V c n hn) ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(restOther (F := F) c ∗ owns (c : Thread nD τ) scM fullShare (accAfter V c n hn) ∗ (∃ r, prngReg c r)) := rfl

theorem Phi1_pos (c : Dev nD) (n : ℕ) (h : n ≤ cfg1.N) (hz : n ≠ 0) :
    Phi1 V c n h = iprop(restOther (F := F) c ∗ owns (c : Thread nD τ) scM fullShare (accAfter V c (n - 1) (by omega)) ∗ (∃ r, prngReg c r)) := by
  cases n with
  | zero => exact absurd rfl hz
  | succ n => rfl

/-- Region 1's proof data: the seven inputs keep their blocks; the logistic tile's buffer holds the point's
    tile; the rows' buffer, at a key tile 3, holds the finished rows computed from the accumulator (at the other
    points the window is idle and the field is not consulted); the invariant carries the accumulator. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => k1_pay3 (iblk1 V c 0 t) (iblk1 V c 1 t)
    | ⟨8, _⟩ => k1_pay5 (k1_pay6 (accAfter V c t.val t.isLt) (iblk1 V c 4 t) (iblk1 V c 3 t) (iblk1 V c 5 t) (iblk1 V c 6 t))
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = k1_pay3 (iblk1 V c 0 t) (iblk1 V c 1 t) := by dsimp only [dat1]
theorem after1_8 (c : Dev nD) (t : Fin cfg1.N) : (dat1 V c).after 8 t
    = k1_pay5 (k1_pay6 (accAfter V c t.val t.isLt) (iblk1 V c 4 t) (iblk1 V c 3 t) (iblk1 V c 5 t) (iblk1 V c 6 t)) := by dsimp only [dat1]

end Cert.Kernel.Hand

end
-- ==== Proof.KBoundaries.lean ====
/-
  The unscoped buffers' contents followed through @main: the launch memory, then each stretch of host operations
  applied, then at each region's exit the region's arrays at what its write-backs leave and every other buffer as
  the region found it. No item writes an argument array.
-/
import proofs.«105034_j8933531975947_1_alg».proof.Proof.KRegionData
import proofs.«105034_j8933531975947_1_alg».proof.Proof.Gen.Kernel.Regions
import Idealize.ShloMosaic.Lib.Pipeline.FrameSuffix

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ)

/-! ## The buffers' contents at each boundary -/

/-- At launch. -/
abbrev W0 (c : Dev nD) : Valuation τ sig (Elt F) := fun b => m (c, b)
/-- After the first host stretch (the reshape and the five transposes): region 0's entry. -/
abbrev W1 (c : Dev nD) : Valuation τ sig (Elt F) := StableHlo.after hostOps0 (W0 m c)
abbrev E1 : (c : Dev nD) → (b : Ref sig .tc) → Buf (Elt F) ((c : Thread nD τ).loc b) := fun c b => W1 m c b
/-- At region 0's exit: its arrays at what the write-backs leave, the rest as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After the second host stretch (gamma and beta reshaped to rows): region 1's entry. -/
abbrev W3 (c : Dev nD) : Valuation τ sig (Elt F) := StableHlo.after hostOps1 (W2 m c)
abbrev E3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev E4 : (c : Dev nD) → (b : Ref sig .tc) → Buf (Elt F) ((c : Thread nD τ).loc b) := fun c b => W4 m c b
theorem hF1 (c : Dev nD) (w : Fin cfg1.W) : (dat1 (E3 m) c).arrAt w cfg1.N = E4 m c (Pipeline.arrRef spec1 w) :=
  (W4_arr m c w).symm
theorem hrest1 (c : Dev nD) : ∀ b, b ∉ Finset.univ.image (Pipeline.arrRef spec1) → E4 m c b = E3 m c b :=
  fun b hb => W4_of_ne m c b fun w e => hb (Finset.mem_image.mpr ⟨w, Finset.mem_univ _, e⟩)

/-- After the last host stretch (the transpose back and the reshape): the end. -/
abbrev W5 (c : Dev nD) : Valuation τ sig (Elt F) := StableHlo.after hostOps2 (W4 m c)

/-! ## No item writes an argument -/

theorem W5_main_arg0 (c : Dev nD) : W5 m c (Proc.devRef .tc main_arg0) = m ((c : Thread nD τ).loc main_arg0) :=
  (StableHlo.after_of_writes_sub hostOps2 _ hostOps2_writes (r := main_arg0) (by decide)).trans <|
  (W4_of_ne m c main_arg0 (by decide)).trans <|
  (StableHlo.after_of_writes_sub hostOps1 _ hostOps1_writes (r := main_arg0) (by decide)).trans <|
  (W2_of_ne m c main_arg0 (by decide)).trans <|
  (StableHlo.after_of_writes_sub hostOps0 _ hostOps0_writes (r := main_arg0) (by decide)).trans rfl
theorem W5_main_arg1 (c : Dev nD) : W5 m c (Proc.devRef .tc main_arg1) = m ((c : Thread nD τ).loc main_arg1) :=
  (StableHlo.after_of_writes_sub hostOps2 _ hostOps2_writes (r := main_arg1) (by decide)).trans <|
  (W4_of_ne m c main_arg1 (by decide)).trans <|
  (StableHlo.after_of_writes_sub hostOps1 _ hostOps1_writes (r := main_arg1) (by decide)).trans <|
  (W2_of_ne m c main_arg1 (by decide)).trans <|
  (StableHlo.after_of_writes_sub hostOps0 _ hostOps0_writes (r := main_arg1) (by decide)).trans rfl
theorem W5_main_arg2 (c : Dev nD) : W5 m c (Proc.devRef .tc main_arg2) = m ((c : Thread nD τ).loc main_arg2) :=
  (StableHlo.after_of_writes_sub hostOps2 _ hostOps2_writes (r := main_arg2) (by decide)).trans <|
  (W4_of_ne m c main_arg2 (by decide)).trans <|
  (StableHlo.after_of_writes_sub hostOps1 _ hostOps1_writes (r := main_arg2) (by decide)).trans <|
  (W2_of_ne m c main_arg2 (by decide)).trans <|
  (StableHlo.after_of_writes_sub hostOps0 _ hostOps0_writes (r := main_arg2) (by decide)).trans rfl
theorem W5_main_arg3 (c : Dev nD) : W5 m c (Proc.devRef .tc main_arg3) = m ((c : Thread nD τ).loc main_arg3) :=
  (StableHlo.after_of_writes_sub hostOps2 _ hostOps2_writes (r := main_arg3) (by decide)).trans <|
  (W4_of_ne m c main_arg3 (by decide)).trans <|
  (StableHlo.after_of_writes_sub hostOps1 _ hostOps1_writes (r := main_arg3) (by decide)).trans <|
  (W2_of_ne m c main_arg3 (by decide)).trans <|
  (StableHlo.after_of_writes_sub hostOps0 _ hostOps0_writes (r := main_arg3) (by decide)).trans rfl
theorem W5_main_arg4 (c : Dev nD) : W5 m c (Proc.devRef .tc main_arg4) = m ((c : Thread nD τ).loc main_arg4) :=
  (StableHlo.after_of_writes_sub hostOps2 _ hostOps2_writes (r := main_arg4) (by decide)).trans <|
  (W4_of_ne m c main_arg4 (by decide)).trans <|
  (StableHlo.after_of_writes_sub hostOps1 _ hostOps1_writes (r := main_arg4) (by decide)).trans <|
  (W2_of_ne m c main_arg4 (by decide)).trans <|
  (StableHlo.after_of_writes_sub hostOps0 _ hostOps0_writes (r := main_arg4) (by decide)).trans rfl
theorem W5_main_arg5 (c : Dev nD) : W5 m c (Proc.devRef .tc main_arg5) = m ((c : Thread nD τ).loc main_arg5) :=
  (StableHlo.after_of_writes_sub hostOps2 _ hostOps2_writes (r := main_arg5) (by decide)).trans <|
  (W4_of_ne m c main_arg5 (by decide)).trans <|
  (StableHlo.after_of_writes_sub hostOps1 _ hostOps1_writes (r := main_arg5) (by decide)).trans <|
  (W2_of_ne m c main_arg5 (by decide)).trans <|
  (StableHlo.after_of_writes_sub hostOps0 _ hostOps0_writes (r := main_arg5) (by decide)).trans rfl
theorem W5_main_arg6 (c : Dev nD) : W5 m c (Proc.devRef .tc main_arg6) = m ((c : Thread nD τ).loc main_arg6) :=
  (StableHlo.after_of_writes_sub hostOps2 _ hostOps2_writes (r := main_arg6) (by decide)).trans <|
  (W4_of_ne m c main_arg6 (by decide)).trans <|
  (StableHlo.after_of_writes_sub hostOps1 _ hostOps1_writes (r := main_arg6) (by decide)).trans <|
  (W2_of_ne m c main_arg6 (by decide)).trans <|
  (StableHlo.after_of_writes_sub hostOps0 _ hostOps0_writes (r := main_arg6) (by decide)).trans rfl

end Cert.Kernel.Hand

end
-- ==== Proof.KProjBody.lean ====
/-
  Region 0's body: at every grid point the projection kernel, called on the current staging buffers holding the
  point's blocks, leaves each input buffer as it was and each output buffer at the product the proof data names.
-/
import proofs.«105034_j8933531975947_1_alg».proof.Proof.KRegionData
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Whole-buffer accesses

Every load and store of the projection kernel goes through the rectangle that is its whole buffer at offset
zero. Through such a rectangle a load reads the contents themselves, and a single store, read back through any
view of the buffer, leaves exactly its payload whatever was there before. -/

/-- The zero offsets of a rank-3 buffer, as the constant function. -/
theorem proj_zeros3 : (![0, 0, 0] : Fin 3 → ℕ) = fun _ => 0 := funext fun a => by fin_cases a <;> rfl

/-- The zero offsets of a rank-2 buffer, as the constant function. -/
theorem proj_zeros2 : (![0, 0] : Fin 2 → ℕ) = fun _ => 0 := funext fun a => by fin_cases a <;> rfl

/-- Reading back one store made through the whole-buffer rectangle gives the stored payload: the rectangle holds
    every index, so the store covers the buffer, and the canonical contents of one covering store are its payload. -/
theorem proj_read_whole_store {σ : RefSig} {κ : Kind} {sp : Space} {S : Shape} {e : EltTy}
    (v : View σ κ sp S e) (f : v.ty.Contents (Elt F)) {off : Fin S.rank → ℕ} (hz : off = fun _ => 0)
    (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon v f _
    (fun y => ⟨_, List.mem_singleton_self _, View.mem_set_unit_zero hz inb y⟩)]
  exact View.canon_unit_zero hz inb w

variable (V : (c : Dev nD) → (b : Ref sig .tc) → Buf (Elt F) ((c : Thread nD τ).loc b))

/-! ## What the body finds in the input windows' staging buffers

The body leaves every input window's block in place and no input window is cut or idle, so the buffer a point is
handed holds the window's block of the array as the region found it, whether the point fetched it or not: a
window fetched at the first point only has not moved its block index since. -/

/-- The rows of the transposed input: fetched at every point. -/
theorem before0_0 (c : Dev nD) (t : Fin cfg0.N) (d) : (dat0 V c).before 0 t d = iblk0 V c 0 t := by
  have hkeep : ∀ t, (cfg0.win 0).cut (cfg0.grid.coords t) ((dat0 V c).after 0 t) = (dat0 V c).blockOf 0 t := by
    intro t; rw [after0_0]; unfold Dat.blockOf iblk0; rw [A_eq0]; try rfl
  rw [(dat0 V c).before_in_eq_fetched 0 rfl (fun _ => rfl) (fun _ _ _ => rfl) hkeep t d]
  unfold Dat.fetched Dat.blockOf iblk0; rw [A_eq0]; try rfl

/-- The first transposed weight matrix: fetched once, its block index constant. -/
theorem before0_1 (c : Dev nD) (t : Fin cfg0.N) (d) : (dat0 V c).before 1 t d = iblk0 V c 1 t := by
  have hkeep : ∀ t, (cfg0.win 1).cut (cfg0.grid.coords t) ((dat0 V c).after 1 t) = (dat0 V c).blockOf 1 t := by
    intro t; rw [after0_1]; unfold Dat.blockOf iblk0; rw [A_eq0]; try rfl
  rw [(dat0 V c).before_in_eq_fetched 1 rfl (fun _ => rfl) (fun _ _ _ => rfl) hkeep t d]
  unfold Dat.fetched Dat.blockOf iblk0; rw [A_eq0]; try rfl

/-- The second transposed weight matrix: likewise. -/
theorem before0_2 (c : Dev nD) (t : Fin cfg0.N) (d) : (dat0 V c).before 2 t d = iblk0 V c 2 t := by
  have hkeep : ∀ t, (cfg0.win 2).cut (cfg0.grid.coords t) ((dat0 V c).after 2 t) = (dat0 V c).blockOf 2 t := by
    intro t; rw [after0_2]; unfold Dat.blockOf iblk0; rw [A_eq0]; try rfl
  rw [(dat0 V c).before_in_eq_fetched 2 rfl (fun _ => rfl) (fun _ _ _ => rfl) hkeep t d]
  unfold Dat.fetched Dat.blockOf iblk0; rw [A_eq0]; try rfl

/-- The third transposed weight matrix: likewise. -/
theorem before0_3 (c : Dev nD) (t : Fin cfg0.N) (d) : (dat0 V c).before 3 t d = iblk0 V c 3 t := by
  have hkeep : ∀ t, (cfg0.win 3).cut (cfg0.grid.coords t) ((dat0 V c).after 3 t) = (dat0 V c).blockOf 3 t := by
    intro t; rw [after0_3]; unfold Dat.blockOf iblk0; rw [A_eq0]; try rfl
  rw [(dat0 V c).before_in_eq_fetched 3 rfl (fun _ => rfl) (fun _ _ _ => rfl) hkeep t d]
  unfold Dat.fetched Dat.blockOf iblk0; rw [A_eq0]; try rfl

/-! ## The kernel's triple

On whole staging memrefs, with the four inputs owned at contents `x0 … x3` and the three outputs owned at anything,
the projection kernel runs to its continuation with the inputs as they were and each output at the product of the
input rows with one weight matrix. The printed kernel is its skeleton of loads, payloads and stores by definition;
the symbolic run leaves each output buffer as one store over its old contents, which reads back as the payload of
the loaded values, and the loaded values are the contents. -/

set_option maxHeartbeats 1000000 in
theorem sound_kernel0 (c : Dev nD) (E : Set ℕ) (i : grid0.Coords)
    (arg1 : Memref sig .tc .vmem S1x4096x256 .f32) (harg1 : arg1.IsWhole)
    (arg2 : Memref sig .tc .vmem S256x256 .f32) (harg2 : arg2.IsWhole)
    (arg3 : Memref sig .tc .vmem S256x256 .f32) (harg3 : arg3.IsWhole)
    (arg4 : Memref sig .tc .vmem S256x256 .f32) (harg4 : arg4.IsWhole)
    (arg5 : Memref sig .tc .vmem S1x4096x256 .bf16) (harg5 : arg5.IsWhole)
    (arg6 : Memref sig .tc .vmem S1x4096x256 .bf16) (harg6 : arg6.IsWhole)
    (arg7 : Memref sig .tc .vmem S1x4096x256 .bf16) (harg7 : arg7.IsWhole)
    (x0 : Vec F S1x4096x256 .f32) (x1 x2 x3 : Vec F S256x256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k0_pay2 x0 x1) ∗ owns (c : Thread nD τ) arg6 fullShare (k0_pay3 x0 x2)
            ∗ owns (c : Thread nD τ) arg7 fullShare (k0_pay4 x0 x3)) -∗ K ⟨⟩))
      ⊢ wp frame (wpE (defs₀ (F := F)) Variants.none c none) E
          (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩,
    ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (proj_read_whole_store _ _ proj_zeros3 _ _).trans ?_
    rw [View.readAt_eq_ld, View.readAt_eq_ld, View.ld_unit_zero (S := S1x4096x256) proj_zeros3,
      View.ld_unit_zero (S := S256x256) proj_zeros2]
  isplitl [H5]
  · iexists _; isplitr
    swap; · iexact H5
    ipureintro
    refine (proj_read_whole_store _ _ proj_zeros3 _ _).trans ?_
    rw [View.readAt_eq_ld, View.readAt_eq_ld, View.ld_unit_zero (S := S1x4096x256) proj_zeros3,
      View.ld_unit_zero (S := S256x256) proj_zeros2]
  · iexists _; isplitr
    swap; · iexact H6
    ipureintro
    refine (proj_read_whole_store _ _ proj_zeros3 _ _).trans ?_
    rw [View.readAt_eq_ld, View.readAt_eq_ld, View.ld_unit_zero (S := S1x4096x256) proj_zeros3,
      View.ld_unit_zero (S := S256x256) proj_zeros2]

/-! ## The body obligation at a grid point -/

/-- What the body is called with at point `t`: the invariant, the core's debts, and every window's current staging
    buffer at what the schedule left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What it must return: the same with every buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- At any point the input buffers hold their blocks, so the kernel's triple applies at those blocks; the
    invariant and the debts are constant over the points and pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _
    (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of region 0, at every grid point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KAttnRuns.lean ====
/-
  The attention kernel on arbitrary whole memrefs: what one call leaves in the logistic tile's buffer, the rows'
  buffer and the accumulator, in each of the three cases of its two branches on the key tile.
-/
import proofs.«105034_j8933531975947_1_alg».proof.Proof.KRegionData
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branch conditions and the whole-buffer rectangles

The kernel branches twice on the key-tile coordinate: it zeroes the accumulator where the key tile is 0, and
finishes the rows where it is 3. Every load and store goes through the rectangle that is its whole buffer at
offset zero, so a load reads the contents themselves and the last store into a buffer, read back, is its payload. -/

/-- The first branch's condition, as the kernel computes it from the key-tile coordinate: the key tile is 0. -/
abbrev attnKeyFirst (i : grid1.Coords) : Prop :=
  (Scalar.cmpi .ne (Scalar.extui (Scalar.cmpi .eq (BitVec.ofNat 32 (i 2).val) 0#32)) 0#32) = 1#1

/-- The zero offsets of a rank-2 buffer, as the constant function. -/
theorem attn_zeros2 : (![0, 0] : Fin 2 → Nat) = fun _ => 0 := funext fun a => by fin_cases a <;> rfl

/-- The zero offsets of a rank-3 buffer, as the constant function. -/
theorem attn_zeros3 : (![0, 0, 0] : Fin 3 → Nat) = fun _ => 0 := funext fun a => by fin_cases a <;> rfl

/-! ## The kernel's triple, one per case of the two branches

On whole memrefs, the seven inputs owned at contents `x0 … x6` and the logistic tile's buffer at anything, the
kernel runs to its continuation with the inputs as they were, the logistic tile stored, and the accumulator at
its old contents (zero, where the key tile is 0) plus the product of the logistic tile with the value tile. The
rows' buffer is handed back untouched unless the key tile is 3, where it is overwritten whole with the finished
rows computed from the new accumulator. The printed kernel is its skeleton of loads, payloads and stores by
definition; the symbolic run leaves each stored buffer as its stores over the old contents, the last of which
covers the buffer, and a load of the accumulator after a store into it reads that store's payload back. -/

set_option maxHeartbeats 4800000 in
/-- Key tile 0: the accumulator is zeroed first, so it ends at zero plus the tile's product, whatever it held. -/
theorem attn_runA (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x1024x1024 .f32) (harg10 : arg10.IsWhole) (arg11 : Memref sig .tc .vmem S1x1024x256 .f32) (harg11 : arg11.IsWhole) (arg12 : Memref sig .tc .vmem S1024x256 .f32) (harg12 : arg12.IsWhole)
    (hc0 : attnKeyFirst i) (hc1 : ¬ k1_cond2 i = 1#1)
    (x0 x1 x2 : Vec F S1x1024x256 .bf16) (x3 : Vec F S1x1024x256 .f32) (x4 : Vec F S256x256 .f32) (x5 x6 : Vec F S1x256 .f32) (y8 : Vec F S1x1024x256 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
        ∗ (∃ d, owns (c : Thread nD τ) arg10 fullShare d) ∗ owns (c : Thread nD τ) arg11 fullShare y8 ∗ (∃ d, owns (c : Thread nD τ) arg12 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
            ∗ owns (c : Thread nD τ) arg10 fullShare (k1_pay3 x0 x1) ∗ owns (c : Thread nD τ) arg11 fullShare y8
            ∗ owns (c : Thread nD τ) arg12 fullShare (k1_pay4 x0 x1 x2 (k1_pay1 (F := F)))) -∗ K ⟨⟩))
      ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%ds, %fs, -, HS⟩, Hk⟩
  sl_exec (disch := first | exact hc0 | exact hc1)
  sl_step
  iapply Hk
  isplitl [H0]
  · iexists _; isplitr
    · ipureintro; exact hf0
    iexact H0
  isplitl [H1]
  · iexists _; isplitr
    · ipureintro; exact hf1
    iexact H1
  isplitl [H2]
  · iexists _; isplitr
    · ipureintro; exact hf2
    iexact H2
  isplitl [H3]
  · iexists _; isplitr
    · ipureintro; exact hf3
    iexact H3
  isplitl [H4]
  · iexists _; isplitr
    · ipureintro; exact hf4
    iexact H4
  isplitl [H5]
  · iexists _; isplitr
    · ipureintro; exact hf5
    iexact H5
  isplitl [H6]
  · iexists _; isplitr
    · ipureintro; exact hf6
    iexact H6
  isplitl [H7]
  · iexists _; isplitr
    swap; · iexact H7
    ipureintro
    try sl_unfold_run_names
    rw [View.read_writes_eq_canon _ _ _ (fun y => ⟨_, List.mem_singleton_self _, View.mem_set_unit_zero attn_zeros3 inb_S1x1024x1024_S1x1024x1024_0_0_0 y⟩), View.canon_unit_zero attn_zeros3]
    simp only [View.readAt_eq_ld, hf0, hf1, View.ld_unit_zero (S := S1x1024x256) attn_zeros3]
  isplitl [H8]
  · iexists _; isplitr
    · ipureintro; exact hf8
    iexact H8
  iexists _; isplitr
  swap; · iexact HS
  ipureintro
  try sl_unfold_run_names
  rw [View.read_writes_eq_canon _ _ _ (fun y => ⟨_, List.mem_cons.mpr (Or.inl rfl), View.mem_set_unit_zero attn_zeros2 inb_S1024x256_S1024x256_0_0 y⟩), View.canon_cons_unit_zero attn_zeros2]
  sl_unfold_run_names
  rw [View.readCov_unit_zero _ attn_zeros2]
  simp only [View.readAt_eq_ld, hf0, hf1, hf2, View.ld_unit_zero (S := S1x1024x256) attn_zeros3, View.ld_unit_zero (S := S1024x256) attn_zeros2, View.ld_unit_zero (S := S256x256) attn_zeros2, View.ld_unit_zero (S := S1x256) attn_zeros2]

set_option maxHeartbeats 4800000 in
/-- Key tiles 1 and 2: the logistic tile is stored, the accumulator gains the tile's product; the rows' buffer is not touched. -/
theorem attn_runB (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x1024x1024 .f32) (harg10 : arg10.IsWhole) (arg11 : Memref sig .tc .vmem S1x1024x256 .f32) (harg11 : arg11.IsWhole) (arg12 : Memref sig .tc .vmem S1024x256 .f32) (harg12 : arg12.IsWhole)
    (hc0 : ¬ attnKeyFirst i) (hc1 : ¬ k1_cond2 i = 1#1)
    (x0 x1 x2 : Vec F S1x1024x256 .bf16) (x3 : Vec F S1x1024x256 .f32) (x4 : Vec F S256x256 .f32) (x5 x6 : Vec F S1x256 .f32) (y8 : Vec F S1x1024x256 .f32) (a : Vec F S1024x256 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
        ∗ (∃ d, owns (c : Thread nD τ) arg10 fullShare d) ∗ owns (c : Thread nD τ) arg11 fullShare y8 ∗ owns (c : Thread nD τ) arg12 fullShare a
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
            ∗ owns (c : Thread nD τ) arg10 fullShare (k1_pay3 x0 x1) ∗ owns (c : Thread nD τ) arg11 fullShare y8
            ∗ owns (c : Thread nD τ) arg12 fullShare (k1_pay4 x0 x1 x2 a)) -∗ K ⟨⟩))
      ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%fs, %hfs, HS⟩, Hk⟩
  sl_exec (disch := first | exact hc0 | exact hc1)
  sl_step
  iapply Hk
  isplitl [H0]
  · iexists _; isplitr
    · ipureintro; exact hf0
    iexact H0
  isplitl [H1]
  · iexists _; isplitr
    · ipureintro; exact hf1
    iexact H1
  isplitl [H2]
  · iexists _; isplitr
    · ipureintro; exact hf2
    iexact H2
  isplitl [H3]
  · iexists _; isplitr
    · ipureintro; exact hf3
    iexact H3
  isplitl [H4]
  · iexists _; isplitr
    · ipureintro; exact hf4
    iexact H4
  isplitl [H5]
  · iexists _; isplitr
    · ipureintro; exact hf5
    iexact H5
  isplitl [H6]
  · iexists _; isplitr
    · ipureintro; exact hf6
    iexact H6
  isplitl [H7]
  · iexists _; isplitr
    swap; · iexact H7
    ipureintro
    try sl_unfold_run_names
    rw [View.read_writes_eq_canon _ _ _ (fun y => ⟨_, List.mem_singleton_self _, View.mem_set_unit_zero attn_zeros3 inb_S1x1024x1024_S1x1024x1024_0_0_0 y⟩), View.canon_unit_zero attn_zeros3]
    simp only [View.readAt_eq_ld, hf0, hf1, View.ld_unit_zero (S := S1x1024x256) attn_zeros3]
  isplitl [H8]
  · iexists _; isplitr
    · ipureintro; exact hf8
    iexact H8
  iexists _; isplitr
  swap; · iexact HS
  ipureintro
  try sl_unfold_run_names
  rw [View.read_writes_eq_canon _ _ _ (fun y => ⟨_, List.mem_singleton_self _, View.mem_set_unit_zero attn_zeros2 inb_S1024x256_S1024x256_0_0 y⟩), View.canon_unit_zero attn_zeros2]
  simp only [View.readAt_eq_ld, hf0, hf1, hf2, hfs, View.ld_unit_zero (S := S1x1024x256) attn_zeros3, View.ld_unit_zero (S := S1024x256) attn_zeros2]

set_option maxHeartbeats 4800000 in
/-- Key tile 3: as at tiles 1 and 2, and then the rows' buffer is overwritten whole with the finished rows computed from the accumulator. -/
theorem attn_runC (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x1024x1024 .f32) (harg10 : arg10.IsWhole) (arg11 : Memref sig .tc .vmem S1x1024x256 .f32) (harg11 : arg11.IsWhole) (arg12 : Memref sig .tc .vmem S1024x256 .f32) (harg12 : arg12.IsWhole)
    (hc0 : ¬ attnKeyFirst i) (hc1 : k1_cond2 i = 1#1)
    (x0 x1 x2 : Vec F S1x1024x256 .bf16) (x3 : Vec F S1x1024x256 .f32) (x4 : Vec F S256x256 .f32) (x5 x6 : Vec F S1x256 .f32) (a : Vec F S1024x256 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
        ∗ (∃ d, owns (c : Thread nD τ) arg10 fullShare d) ∗ (∃ d, owns (c : Thread nD τ) arg11 fullShare d) ∗ owns (c : Thread nD τ) arg12 fullShare a
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
            ∗ owns (c : Thread nD τ) arg10 fullShare (k1_pay3 x0 x1)
            ∗ owns (c : Thread nD τ) arg11 fullShare (k1_pay5 (k1_pay6 (k1_pay4 x0 x1 x2 a) x4 x3 x5 x6))
            ∗ owns (c : Thread nD τ) arg12 fullShare (k1_pay4 x0 x1 x2 a)) -∗ K ⟨⟩))
      ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs, %hfs, HS⟩, Hk⟩
  sl_exec (disch := first | exact hc0 | exact hc1)
  sl_step
  iapply Hk
  isplitl [H0]
  · iexists _; isplitr
    · ipureintro; exact hf0
    iexact H0
  isplitl [H1]
  · iexists _; isplitr
    · ipureintro; exact hf1
    iexact H1
  isplitl [H2]
  · iexists _; isplitr
    · ipureintro; exact hf2
    iexact H2
  isplitl [H3]
  · iexists _; isplitr
    · ipureintro; exact hf3
    iexact H3
  isplitl [H4]
  · iexists _; isplitr
    · ipureintro; exact hf4
    iexact H4
  isplitl [H5]
  · iexists _; isplitr
    · ipureintro; exact hf5
    iexact H5
  isplitl [H6]
  · iexists _; isplitr
    · ipureintro; exact hf6
    iexact H6
  isplitl [H7]
  · iexists _; isplitr
    swap; · iexact H7
    ipureintro
    try sl_unfold_run_names
    rw [View.read_writes_eq_canon _ _ _ (fun y => ⟨_, List.mem_singleton_self _, View.mem_set_unit_zero attn_zeros3 inb_S1x1024x1024_S1x1024x1024_0_0_0 y⟩), View.canon_unit_zero attn_zeros3]
    simp only [View.readAt_eq_ld, hf0, hf1, View.ld_unit_zero (S := S1x1024x256) attn_zeros3]
  isplitl [H8]
  · iexists _; isplitr
    swap; · iexact H8
    ipureintro
    try sl_unfold_run_names
    rw [View.read_writes_eq_canon _ _ _ (fun y => ⟨_, List.mem_singleton_self _, View.mem_set_unit_zero attn_zeros3 inb_S1x1024x256_S1x1024x256_0_0_0 y⟩), View.canon_unit_zero attn_zeros3]
    sl_unfold_run_names
    rw [View.readCov_unit_zero _ attn_zeros2]
    simp only [View.readAt_eq_ld, hf0, hf1, hf2, hf3, hf4, hf5, hf6, hfs, View.ld_unit_zero (S := S1x1024x256) attn_zeros3, View.ld_unit_zero (S := S1024x256) attn_zeros2, View.ld_unit_zero (S := S256x256) attn_zeros2, View.ld_unit_zero (S := S1x256) attn_zeros2]
  iexists _; isplitr
  swap; · iexact HS
  ipureintro
  try sl_unfold_run_names
  rw [View.read_writes_eq_canon _ _ _ (fun y => ⟨_, List.mem_singleton_self _, View.mem_set_unit_zero attn_zeros2 inb_S1024x256_S1024x256_0_0 y⟩), View.canon_unit_zero attn_zeros2]
  simp only [View.readAt_eq_ld, hf0, hf1, hf2, hfs, View.ld_unit_zero (S := S1x1024x256) attn_zeros3, View.ld_unit_zero (S := S1024x256) attn_zeros2, View.ld_unit_zero (S := S256x256) attn_zeros2, View.ld_unit_zero (S := S1x256) attn_zeros2]

end Cert.Kernel.Hand

end
-- ==== Proof.KAttnBody.lean ====
/-
  Region 1's body: at every grid point the attention kernel, called on the current staging buffers and the
  accumulator scratch, leaves the inputs as they were, the logistic tile in its buffer, the accumulator at
  `accAfter`, and at a key tile 3 the finished rows in theirs.
-/
import proofs.«105034_j8933531975947_1_alg».proof.Proof.KRegionData
import proofs.«105034_j8933531975947_1_alg».proof.Proof.KAttnRuns
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The invariant's two ends -/

/-- The invariant before the first point, with the accumulator split out of the scoped buffers. -/
theorem PhiA1_eq (c : Dev nD) :
    (Pipeline.ΦA spec1 c : sProp 𝕄)
      = iprop(restOther (F := F) c ∗ (∃ d, owns (c : Thread nD τ) scM fullShare d) ∗ (∃ r, prngReg c r)) := by
  unfold Pipeline.ΦA restOther
  rw [Pipeline.scopedRest_split_of_list spec1 c [cc1_scratch0] (by decide) (by decide)]
  simp only [bigSepL_singleton, scM, owns_whole]
  have h₁ : iprop(((∃ f : Buf (Elt F) ((c : Thread nD τ).loc cc1_scratch0), ((c : Thread nD τ).loc cc1_scratch0) ↦{fullShare} f)
        ∗ Pipeline.scopedRestBut (Ix := Unit) (Name := ℕ) (U := UR sig nD τ) (Lvl := ℕ) (Val := Elt F) spec1 c [cc1_scratch0]) ∗ (∃ r, prngReg c r))
      ⊢ (iprop(Pipeline.scopedRestBut (Ix := Unit) (Name := ℕ) (U := UR sig nD τ) (Lvl := ℕ) (Val := Elt F) spec1 c [cc1_scratch0]
        ∗ (∃ d : Buf (Elt F) ((c : Thread nD τ).loc cc1_scratch0), ((c : Thread nD τ).loc cc1_scratch0) ↦{fullShare} d) ∗ (∃ r, prngReg c r)) : sProp 𝕄) := by
    iintro ⟨⟨HS, Hr⟩, Hg⟩
    isplitl [Hr]; · iexact Hr
    isplitl [HS]; · iexact HS
    iexact Hg
  have h₂ : (iprop(Pipeline.scopedRestBut (Ix := Unit) (Name := ℕ) (U := UR sig nD τ) (Lvl := ℕ) (Val := Elt F) spec1 c [cc1_scratch0]
        ∗ (∃ d : Buf (Elt F) ((c : Thread nD τ).loc cc1_scratch0), ((c : Thread nD τ).loc cc1_scratch0) ↦{fullShare} d) ∗ (∃ r, prngReg c r)) : sProp 𝕄)
      ⊢ iprop(((∃ f : Buf (Elt F) ((c : Thread nD τ).loc cc1_scratch0), ((c : Thread nD τ).loc cc1_scratch0) ↦{fullShare} f)
        ∗ Pipeline.scopedRestBut (Ix := Unit) (Name := ℕ) (U := UR sig nD τ) (Lvl := ℕ) (Val := Elt F) spec1 c [cc1_scratch0]) ∗ (∃ r, prngReg c r)) := by
    iintro ⟨Hr, HS, Hg⟩
    isplitl [HS Hr]
    · isplitl [HS]; · iexact HS
      iexact Hr
    iexact Hg
  exact BI.equiv_iff.mp ⟨h₁, h₂⟩

/-- What the launch hands region 1 is its invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After the last point the invariant gives it back, the accumulator's contents forgotten. -/
theorem hout1 (c : Dev nD) : (dat1 V c).Φ (Fin.last cfg1.N) ⊢ Pipeline.ΦA spec1 c := by
  have hN : (Fin.last cfg1.N).val ≠ 0 := by rw [Fin.val_last]; have : cfg1.N = 64 := N_1; omega
  rw [show (dat1 V c).Φ (Fin.last cfg1.N) = Phi1 V c (Fin.last cfg1.N).val (Nat.le_of_lt_succ (Fin.last cfg1.N).isLt) from rfl,
    Phi1_pos V c _ _ hN, PhiA1_eq]
  iintro ⟨Hr, HS, Hg⟩
  isplitl [Hr]; · iexact Hr
  isplitl [HS]; · iexists _; iexact HS
  iexact Hg

/-! ## The branch conditions over the grid

The key tile is the innermost coordinate, so it is the point's position modulo 4: decided over the 64 points. -/

theorem attn_first_iff : ∀ t : Fin cfg1.N, attnKeyFirst (grid1.coords t) ↔ t.val % 4 = 0 :=
  (by decide +kernel : ∀ t : Fin grid1.N, attnKeyFirst (grid1.coords t) ↔ t.val % 4 = 0)

theorem attn_last_iff : ∀ t : Fin cfg1.N, k1_cond2 (grid1.coords t) = 1#1 ↔ t.val % 4 = 3 :=
  (by decide +kernel : ∀ t : Fin grid1.N, k1_cond2 (grid1.coords t) = 1#1 ↔ t.val % 4 = 3)

/-! ## Where the windows are idle

Only the rows' window is ever idle: at the points whose key tile is not 3, and there it is not written back. -/

theorem attn_live_0 : ∀ t : Fin cfg1.N, cfg1.idle 0 (grid1.coords t) = false := fun _ => rfl
theorem attn_live_1 : ∀ t : Fin cfg1.N, cfg1.idle 1 (grid1.coords t) = false := fun _ => rfl
theorem attn_live_2 : ∀ t : Fin cfg1.N, cfg1.idle 2 (grid1.coords t) = false := fun _ => rfl
theorem attn_live_3 : ∀ t : Fin cfg1.N, cfg1.idle 3 (grid1.coords t) = false := fun _ => rfl
theorem attn_live_4 : ∀ t : Fin cfg1.N, cfg1.idle 4 (grid1.coords t) = false := fun _ => rfl
theorem attn_live_5 : ∀ t : Fin cfg1.N, cfg1.idle 5 (grid1.coords t) = false := fun _ => rfl
theorem attn_live_6 : ∀ t : Fin cfg1.N, cfg1.idle 6 (grid1.coords t) = false := fun _ => rfl
theorem attn_live_7 : ∀ t : Fin cfg1.N, cfg1.idle 7 (grid1.coords t) = false := fun _ => rfl

theorem attn_idle_8 : ∀ t : Fin cfg1.N, ¬ k1_cond2 (grid1.coords t) = 1#1 → cfg1.idle 8 (grid1.coords t) = true := by decide +kernel

theorem attn_noflush_8 : ∀ t : Fin cfg1.N, ¬ k1_cond2 (grid1.coords t) = 1#1 → (cfg1.win 8).flush t = false := by decide +kernel

theorem attn_live_8 : ∀ t : Fin cfg1.N, k1_cond2 (grid1.coords t) = 1#1 → cfg1.idle 8 (grid1.coords t) = false := by decide +kernel

/-! ## What the body finds in the input windows' staging buffers

The body leaves every input window's block in place and no input window is cut or idle, so the buffer a point is
handed holds the window's block of the array as the region found it, whether the point fetched it or not: an
unfetched window has not moved its block index since the point before. -/

theorem attn_before_0 (c : Dev nD) (t : Fin cfg1.N) (d) : (dat1 V c).before 0 t d = iblk1 V c 0 t := by
  have hkeep : ∀ t, (cfg1.win 0).cut (cfg1.grid.coords t) ((dat1 V c).after 0 t) = (dat1 V c).blockOf 0 t := by
    intro t; rw [after1_0]; unfold Dat.blockOf iblk1; rw [A_eq1]; try rfl
  rw [(dat1 V c).before_in_eq_fetched 0 rfl (fun _ => rfl) (fun _ _ _ => rfl) hkeep t d]
  unfold Dat.fetched Dat.blockOf iblk1; rw [A_eq1]; try rfl

theorem attn_before_1 (c : Dev nD) (t : Fin cfg1.N) (d) : (dat1 V c).before 1 t d = iblk1 V c 1 t := by
  have hkeep : ∀ t, (cfg1.win 1).cut (cfg1.grid.coords t) ((dat1 V c).after 1 t) = (dat1 V c).blockOf 1 t := by
    intro t; rw [after1_1]; unfold Dat.blockOf iblk1; rw [A_eq1]; try rfl
  rw [(dat1 V c).before_in_eq_fetched 1 rfl (fun _ => rfl) (fun _ _ _ => rfl) hkeep t d]
  unfold Dat.fetched Dat.blockOf iblk1; rw [A_eq1]; try rfl

theorem attn_before_2 (c : Dev nD) (t : Fin cfg1.N) (d) : (dat1 V c).before 2 t d = iblk1 V c 2 t := by
  have hkeep : ∀ t, (cfg1.win 2).cut (cfg1.grid.coords t) ((dat1 V c).after 2 t) = (dat1 V c).blockOf 2 t := by
    intro t; rw [after1_2]; unfold Dat.blockOf iblk1; rw [A_eq1]; try rfl
  rw [(dat1 V c).before_in_eq_fetched 2 rfl (fun _ => rfl) (fun _ _ _ => rfl) hkeep t d]
  unfold Dat.fetched Dat.blockOf iblk1; rw [A_eq1]; try rfl

theorem attn_before_3 (c : Dev nD) (t : Fin cfg1.N) (d) : (dat1 V c).before 3 t d = iblk1 V c 3 t := by
  have hkeep : ∀ t, (cfg1.win 3).cut (cfg1.grid.coords t) ((dat1 V c).after 3 t) = (dat1 V c).blockOf 3 t := by
    intro t; rw [after1_3]; unfold Dat.blockOf iblk1; rw [A_eq1]; try rfl
  rw [(dat1 V c).before_in_eq_fetched 3 rfl (fun _ => rfl) (fun _ _ _ => rfl) hkeep t d]
  unfold Dat.fetched Dat.blockOf iblk1; rw [A_eq1]; try rfl

theorem attn_before_4 (c : Dev nD) (t : Fin cfg1.N) (d) : (dat1 V c).before 4 t d = iblk1 V c 4 t := by
  have hkeep : ∀ t, (cfg1.win 4).cut (cfg1.grid.coords t) ((dat1 V c).after 4 t) = (dat1 V c).blockOf 4 t := by
    intro t; rw [after1_4]; unfold Dat.blockOf iblk1; rw [A_eq1]; try rfl
  rw [(dat1 V c).before_in_eq_fetched 4 rfl (fun _ => rfl) (fun _ _ _ => rfl) hkeep t d]
  unfold Dat.fetched Dat.blockOf iblk1; rw [A_eq1]; try rfl

theorem attn_before_5 (c : Dev nD) (t : Fin cfg1.N) (d) : (dat1 V c).before 5 t d = iblk1 V c 5 t := by
  have hkeep : ∀ t, (cfg1.win 5).cut (cfg1.grid.coords t) ((dat1 V c).after 5 t) = (dat1 V c).blockOf 5 t := by
    intro t; rw [after1_5]; unfold Dat.blockOf iblk1; rw [A_eq1]; try rfl
  rw [(dat1 V c).before_in_eq_fetched 5 rfl (fun _ => rfl) (fun _ _ _ => rfl) hkeep t d]
  unfold Dat.fetched Dat.blockOf iblk1; rw [A_eq1]; try rfl

theorem attn_before_6 (c : Dev nD) (t : Fin cfg1.N) (d) : (dat1 V c).before 6 t d = iblk1 V c 6 t := by
  have hkeep : ∀ t, (cfg1.win 6).cut (cfg1.grid.coords t) ((dat1 V c).after 6 t) = (dat1 V c).blockOf 6 t := by
    intro t; rw [after1_6]; unfold Dat.blockOf iblk1; rw [A_eq1]; try rfl
  rw [(dat1 V c).before_in_eq_fetched 6 rfl (fun _ => rfl) (fun _ _ _ => rfl) hkeep t d]
  unfold Dat.fetched Dat.blockOf iblk1; rw [A_eq1]; try rfl

/-! ## The body obligation at a grid point -/

/-- What the body is called with at point `t`: the invariant, the core's debts, and every window's current staging
    buffer at what the schedule left in it. -/
def attnPre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- What it must return: the invariant at the next point, the debts, and every buffer at what the proof data says the
    body leaves (the rows' buffer as it was found, where its window is idle). -/
def attnPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 4800000 in
/-- At any point the input buffers hold their blocks; the point's position modulo 4 says which case of the kernel's
    triple applies; the invariant hands the accumulator at what the point before left (at anything before the first
    point, which is a key tile 0) and takes it back at this point's contents. -/
theorem attn_sound_body (c : Dev nD) (t : Fin cfg1.N) :
    attnPre V c t ⊢ wp frame (wpE (defs₀ (F := F)) Variants.none c none) Set.univ (bodyAt1 t) (fun _ => attnPost V c t) := by
  unfold attnPre attnPost bodyAt1
  simp only [attn_before_0, attn_before_1, attn_before_2, attn_before_3, attn_before_4, attn_before_5, attn_before_6]
  rw [show (dat1 V c).owesAt () t.succ = (dat1 V c).owesAt () t.castSucc from rfl]
  rw [show (dat1 V c).Φ t.succ = Phi1 V c (t.val + 1) t.isLt from rfl, Phi1_succ]
  have hN : t.val < 64 := lt_of_lt_of_eq t.isLt (show cfg1.N = 64 from N_1)
  by_cases h0 : t.val % 4 = 0
  · have h1 : ¬ t.val % 4 = 3 := by omega
    have hc0 : attnKeyFirst (grid1.coords t) := (attn_first_iff t).mpr h0
    have hc1 : ¬ k1_cond2 (grid1.coords t) = 1#1 := fun h => h1 ((attn_last_iff t).mp h)
    rw [show (dat1 V c).leavesExact 0 t = owns (c : Thread nD τ) (st1_0 t) fullShare ((dat1 V c).after 0 t) from by
      unfold Dat.leavesExact; rw [attn_live_0 t], after1_0]
    rw [show (dat1 V c).leavesExact 1 t = owns (c : Thread nD τ) (st1_1 t) fullShare ((dat1 V c).after 1 t) from by
      unfold Dat.leavesExact; rw [attn_live_1 t], after1_1]
    rw [show (dat1 V c).leavesExact 2 t = owns (c : Thread nD τ) (st1_2 t) fullShare ((dat1 V c).after 2 t) from by
      unfold Dat.leavesExact; rw [attn_live_2 t], after1_2]
    rw [show (dat1 V c).leavesExact 3 t = owns (c : Thread nD τ) (st1_3 t) fullShare ((dat1 V c).after 3 t) from by
      unfold Dat.leavesExact; rw [attn_live_3 t], after1_3]
    rw [show (dat1 V c).leavesExact 4 t = owns (c : Thread nD τ) (st1_4 t) fullShare ((dat1 V c).after 4 t) from by
      unfold Dat.leavesExact; rw [attn_live_4 t], after1_4]
    rw [show (dat1 V c).leavesExact 5 t = owns (c : Thread nD τ) (st1_5 t) fullShare ((dat1 V c).after 5 t) from by
      unfold Dat.leavesExact; rw [attn_live_5 t], after1_5]
    rw [show (dat1 V c).leavesExact 6 t = owns (c : Thread nD τ) (st1_6 t) fullShare ((dat1 V c).after 6 t) from by
      unfold Dat.leavesExact; rw [attn_live_6 t], after1_6]
    rw [show (dat1 V c).leavesExact 7 t = owns (c : Thread nD τ) (st1_7 t) fullShare ((dat1 V c).after 7 t) from by
      unfold Dat.leavesExact; rw [attn_live_7 t], after1_7]
    rw [Dat.leavesExact_idle (dat1 V c) 8 t (attn_idle_8 t hc1) (attn_noflush_8 t hc1)]
    rw [accAfter_reset V c t h0]
    have hpre : (dat1 V c).Φ t.castSucc ⊢ iprop(restOther (F := F) c ∗ (∃ d, owns (c : Thread nD τ) scM fullShare d) ∗ (∃ r, prngReg c r)) := by
      by_cases hz : t.val = 0
      · rw [Phi1_castSucc V c t, Phi1_zero V c _ _ hz, PhiA1_eq]
        try exact Idealize.SL.BI.Entails.refl _
      · rw [Phi1_castSucc V c t, Phi1_pos V c _ _ hz]
        iintro ⟨Hr, HS, Hg⟩
        isplitl [Hr]; · iexact Hr
        isplitl [HS]; · iexists _; iexact HS
        iexact Hg
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave HΦ' := hpre $$ HΦ
    icases HΦ' with ⟨Hr, HS, Hg⟩
    iapply (attn_runA c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) ((dat1 V c).before 8 t d8) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [HS]; · iexact HS
    iintro ⟨H0, H1, H2, H3, H4, H5, H6, H7, H8, HS⟩
    isplitl [Hr HS Hg]
    · isplitl [Hr]; · iexact Hr
      isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · have hz : t.val ≠ 0 := fun h => h0 (by rw [h])
    have hc0 : ¬ attnKeyFirst (grid1.coords t) := fun h => h0 ((attn_first_iff t).mp h)
    rw [show (dat1 V c).leavesExact 0 t = owns (c : Thread nD τ) (st1_0 t) fullShare ((dat1 V c).after 0 t) from by
      unfold Dat.leavesExact; rw [attn_live_0 t], after1_0]
    rw [show (dat1 V c).leavesExact 1 t = owns (c : Thread nD τ) (st1_1 t) fullShare ((dat1 V c).after 1 t) from by
      unfold Dat.leavesExact; rw [attn_live_1 t], after1_1]
    rw [show (dat1 V c).leavesExact 2 t = owns (c : Thread nD τ) (st1_2 t) fullShare ((dat1 V c).after 2 t) from by
      unfold Dat.leavesExact; rw [attn_live_2 t], after1_2]
    rw [show (dat1 V c).leavesExact 3 t = owns (c : Thread nD τ) (st1_3 t) fullShare ((dat1 V c).after 3 t) from by
      unfold Dat.leavesExact; rw [attn_live_3 t], after1_3]
    rw [show (dat1 V c).leavesExact 4 t = owns (c : Thread nD τ) (st1_4 t) fullShare ((dat1 V c).after 4 t) from by
      unfold Dat.leavesExact; rw [attn_live_4 t], after1_4]
    rw [show (dat1 V c).leavesExact 5 t = owns (c : Thread nD τ) (st1_5 t) fullShare ((dat1 V c).after 5 t) from by
      unfold Dat.leavesExact; rw [attn_live_5 t], after1_5]
    rw [show (dat1 V c).leavesExact 6 t = owns (c : Thread nD τ) (st1_6 t) fullShare ((dat1 V c).after 6 t) from by
      unfold Dat.leavesExact; rw [attn_live_6 t], after1_6]
    rw [show (dat1 V c).leavesExact 7 t = owns (c : Thread nD τ) (st1_7 t) fullShare ((dat1 V c).after 7 t) from by
      unfold Dat.leavesExact; rw [attn_live_7 t], after1_7]
    rw [accAfter_step V c t h0]
    rw [Phi1_castSucc V c t, Phi1_pos V c _ _ hz]
    by_cases h1 : t.val % 4 = 3
    · have hc1 : k1_cond2 (grid1.coords t) = 1#1 := (attn_last_iff t).mpr h1
      rw [show (dat1 V c).leavesExact 8 t = owns (c : Thread nD τ) (st1_8 t) fullShare ((dat1 V c).after 8 t) from by
        unfold Dat.leavesExact; rw [attn_live_8 t hc1], after1_8, accAfter_step V c t h0]
      iintro ⟨⟨Hr, HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (attn_runC c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS]; · iexact HS
      iintro ⟨H0, H1, H2, H3, H4, H5, H6, H7, H8, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hc1 : ¬ k1_cond2 (grid1.coords t) = 1#1 := fun h => h1 ((attn_last_iff t).mp h)
      rw [Dat.leavesExact_idle (dat1 V c) 8 t (attn_idle_8 t hc1) (attn_noflush_8 t hc1)]
      iintro ⟨⟨Hr, HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (attn_runB c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) ((dat1 V c).before 8 t d8) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [HS]; · iexact HS
      iintro ⟨H0, H1, H2, H3, H4, H5, H6, H7, H8, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The body obligation of region 1, at every grid point. -/
theorem body_obligation1 (c : Dev nD) : BodyObligation (dat1 (F := F) V c) (defs₀ (F := F)) Variants.none () Set.univ := fun t => by
  rw [bigSep_W1, bigSep_W1]
  exact attn_sound_body V c t

end Cert.Kernel.Hand

end
-- ==== Proof.KMainRun.lean ====
/-
  The run of the whole program over the boundary valuations: @main as five items (host operations, region 0, host
  operations, region 1, host operations), each region's record built from its proof data and body obligation.
  Every weakly fair execution terminates, and the final memory holds every unscoped buffer at the last valuation.
-/
import proofs.«105034_j8933531975947_1_alg».proof.Proof.KBoundaries
import proofs.«105034_j8933531975947_1_alg».proof.Proof.KProjBody
import proofs.«105034_j8933531975947_1_alg».proof.Proof.KAttnBody
import proofs.«105034_j8933531975947_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The proof data family, the thread state, the segments -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c

abbrev 𝒱₀ : Variants := Variants.none
/-- No core owes another anything. -/
abbrev Lz : GSem nD τ sig → Finset Unit := fun _ => ∅
abbrev lvz : GSem nD τ sig → Unit → ℕ := fun _ _ => 0
/-- What rides beside the buffers: the generator register at some state, and nothing owed. -/
abbrev Rz (c : Dev nD) : sProp 𝕄 := iprop((∃ r, prngReg c r) ∗ ∃ W, owes (c : Thread nD τ) (0 : CellTallies nD τ sig Unit) W)

/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rz

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tend (c : Dev nD) : sProp 𝕄 := iprop(StableHlo.held (c : Thread nD τ) (Pipeline.ucRefs τ sig) (W5 m c) ∗ ∃ r, prngReg c r)

set_option backward.isDefEq.respectTransparency.types false in
/-- Region 0 between the thread states "every unscoped buffer at `W1`" and "at `W2`". -/
def reg0 : Pipeline.RegionSeg (pcfgs (F := F)) adm (pdats m) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ Lz lvz 0 fun _ _ => rfl
  pre c := iprop(StableHlo.held (c : Thread nD τ) (Pipeline.ucRefs τ sig) (W1 m c) ∗ Rz c)
  post c := iprop(StableHlo.held (c : Thread nD τ) (Pipeline.ucRefs τ sig) (W2 m c) ∗ Rz c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 between "every unscoped buffer at `W3`" and "at `W4`"; its invariant takes the generator register and
    the scoped buffers it does not stage (the accumulator among them) in and gives them back. -/
def reg1 : Pipeline.RegionSeg (pcfgs (F := F)) adm (pdats m) () defs₀ 𝒱₀ Lz lvz 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ Lz lvz 1 fun _ _ => rfl
  pre c := iprop(StableHlo.held (c : Thread nD τ) (Pipeline.ucRefs τ sig) (W3 m c) ∗ Rz c)
  post c := iprop(StableHlo.held (c : Thread nD τ) (Pipeline.ucRefs τ sig) (W4 m c) ∗ Rz c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (E3 m) c).Φ 0 from rfl]
    have h := hin1 (F := F) (E3 m) c
    unfold Pipeline.ΦA at h
    iintro ⟨Hp, -, Hr⟩
    iapply h
    isplitl [Hr]; · iexact Hr
    iexact Hp
  hout c := by
    rw [Pipeline.ownSems0_none, show (pdats m 1 c).Φ (Fin.last _) = (dat1 (E3 m) c).Φ (Fin.last cfg1.N) from rfl]
    have h : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (F := F) (E3 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's five items in order. -/
abbrev segs : List (Pipeline.Seg (pcfgs (F := F)) adm (pdats m) () defs₀ 𝒱₀ Lz lvz) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]

theorem main_run (c : Dev nD) : main (F := F) c = Pipeline.Seg.run (segs m) := (main_chain c).trans (by chain_rfl)

set_option backward.isDefEq.respectTransparency.types false in
/-- THE RUN: from any memory `m` with zero counters every weakly fair execution of @main terminates, nothing
    faulting, and the final memory holds every unscoped buffer at `W5`. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W5 m c b) :=
  Pipeline.θ_run_regions_kit (pcfgs (F := F)) adm (pdats m) () cellOf_inj emb₁ defs₀ 𝒱₀ Lz lvz m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rz c)) (Tₙ := Tend m)
    (hch := ⟨fun _ => .rfl, fun _ => .rfl, fun _ => .rfl, fun _ => .rfl, fun _ => .rfl, fun c => (show iprop(StableHlo.held (c : Thread nD τ) (Pipeline.ucRefs τ sig) (W5 m c) ∗ Rz (F := F) c)
        ⊢ iprop(Tend m c ∗ ∃ W, owes (c : Thread nD τ) (0 : CellTallies nD τ sig Unit) W) from by
      iintro ⟨Hh, Hp, HO⟩
      isplitl [Hh Hp]
      · isplitl [Hh]; · iexact Hh
        iexact Hp
      iexact HO)⟩)
    (hinit := by
      refine Pipeline.initEach Lz lvz fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.Kernel.Hand

end
-- ==== Proof.Spec.lean ====
/-
  The specification both programs are compared with: the two results as functions of the seven argument arrays, index
  by index, at the ideal values (floats are extended reals, every operation exact). The attention block, for one batch entry:
  the 4096 positions of a 64 x 64 image carry 256 channels; queries, keys and values are per-position channel products with
  Wq, Wk, Wv; the weights are the logistic of the scaled query-key products (no normalisation across keys); the weighted values,
  divided by the number of positions, go through Wo, are added to the input, and are normalised across the channels.
  Float literals stay the IEEE words they are written as.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The image array's shape, batch x channel x row x column. -/
local notation "SX" => (⟨4, ![4, 256, 64, 64]⟩ : Shape)
/-- A weight matrix's shape, output channel x input channel. -/
local notation "SW" => (⟨2, ![256, 256]⟩ : Shape)
/-- A per-channel vector's shape. -/
local notation "SC" => (⟨1, ![256]⟩ : Shape)
/-- Batch x position x channel. -/
local notation "SA" => (⟨3, ![4, 4096, 256]⟩ : Shape)
/-- Batch x query position x key position. -/
local notation "SP" => (⟨3, ![4, 4096, 4096]⟩ : Shape)
/-- Batch x position. -/
local notation "SR" => (⟨2, ![4, 4096]⟩ : Shape)

/-- The row of position n in the 64 x 64 image: n / 64. -/
def rowOf (n : Fin 4096) : Fin 64 := ⟨n.val / 64, by have := n.isLt; omega⟩
/-- The column of position n: n % 64. -/
def colOf (n : Fin 4096) : Fin 64 := ⟨n.val % 64, by omega⟩
/-- The position of row h, column w: 64 h + w. -/
def posOf (h w : Fin 64) : Fin 4096 := ⟨64 * h.val + w.val, by have := h.isLt; have := w.isLt; omega⟩

/-- The scale of the query-key products, 1/16 as an f32 word. -/
def wScale : EReal := Ideal.ofBits .f32 0x3D800000#32
/-- The number of positions, 4096 as an f32 word. -/
def wCount : EReal := Ideal.ofBits .f32 0x45800000#32
/-- The number of channels, 256 as an f32 word. -/
def wChan : EReal := Ideal.ofBits .f32 0x43800000#32
/-- The variance offset of the normalisation, about 1e-5 as an f32 word. -/
def wEps : EReal := Ideal.ofBits .f32 0x3727C5AC#32

/-- The image as positions x channels: (b, n, c) reads x at (b, c, n / 64, n % 64). -/
def xfS (x : FVec Ideal SX .f32) : FVec Ideal SA .f32 :=
  fun j => x (ix4 (j 0) (j 2) (rowOf (j 1)) (colOf (j 1)))

/-- A per-position channel product: (b, n, o) is the sum over c of a (b, n, c) * W (o, c). -/
def projS (a : FVec Ideal SA .f32) (W : FVec Ideal SW .f32) : FVec Ideal SA .f32 :=
  fun j => ∑ c : Fin 256, a (ix3 (j 0) (j 1) c) * W (ix2 (j 2) c)

/-- The attention weights: (b, n, m) is the logistic of (the sum over c of q (b, n, c) * k (b, m, c)) * 1/16. -/
def xwS (q k : FVec Ideal SA .f32) : FVec Ideal SP .f32 :=
  fun j => Ideal.logistic ((∑ c : Fin 256, q (ix3 (j 0) (j 1) c) * k (ix3 (j 0) (j 2) c)) * wScale)

/-- The weighted values: (b, n, c) is the sum over the key positions m of w (b, n, m) * v (b, m, c). -/
def avS (w : FVec Ideal SP .f32) (v : FVec Ideal SA .f32) : FVec Ideal SA .f32 :=
  fun j => ∑ m : Fin 4096, w (ix3 (j 0) (j 1) m) * v (ix3 (j 0) m (j 2))

/-- The weighted values divided by the number of positions, 4096. -/
def relS (a : FVec Ideal SA .f32) : FVec Ideal SA .f32 :=
  fun j => Ideal.div (a j) wCount

/-- The residual sum: the input plus the block's output, element by element. -/
def resS (a r : FVec Ideal SA .f32) : FVec Ideal SA .f32 :=
  fun j => a j + r j

/-- The mean over the channels at (b, n): (the sum over c of y (b, n, c)) / 256. -/
def meanS (y : FVec Ideal SA .f32) : FVec Ideal SR .f32 :=
  fun j => Ideal.div (∑ c : Fin 256, y (ix3 (j 0) (j 1) c)) wChan

/-- The centred value: y (b, n, c) minus the mean at (b, n). -/
def cenS (y : FVec Ideal SA .f32) : FVec Ideal SA .f32 :=
  fun j => y j - meanS y (ix2 (j 0) (j 1))

/-- The variance over the channels at (b, n): (the sum over c of the squared centred values) / 256. -/
def varS (y : FVec Ideal SA .f32) : FVec Ideal SR .f32 :=
  fun j => Ideal.div (∑ c : Fin 256, cenS y (ix3 (j 0) (j 1) c) * cenS y (ix3 (j 0) (j 1) c)) wChan

/-- The normalisation across the channels: (centred * rsqrt (variance + eps)) * gamma c + beta c. -/
def lnS (y : FVec Ideal SA .f32) (gamma beta : FVec Ideal SC .f32) : FVec Ideal SA .f32 :=
  fun j => cenS y j * Ideal.rsqrt (varS y (ix2 (j 0) (j 1)) + wEps) * gamma (ix1 (j 2)) + beta (ix1 (j 2))

/-- Back to the image layout: (b, c, h, w) reads y at (b, 64 h + w, c). -/
def outS (y : FVec Ideal SA .f32) : FVec Ideal SX .f32 :=
  fun j => y (ix3 (j 0) (posOf (j 2) (j 3)) (j 1))

/-- The second result, the attention weights, of the image and the query and key matrices. -/
def Gxw (x : FVec Ideal SX .f32) (Wq Wk : FVec Ideal SW .f32) : FVec Ideal SP .f32 :=
  xwS (projS (xfS x) Wq) (projS (xfS x) Wk)

/-- The normalised residual sum before the change of layout, positions x channels. -/
def yS (x : FVec Ideal SX .f32) (Wq Wk Wv Wo : FVec Ideal SW .f32) (gamma beta : FVec Ideal SC .f32) :
    FVec Ideal SA .f32 :=
  lnS (resS (xfS x) (projS (relS (avS (Gxw x Wq Wk) (projS (xfS x) Wv))) Wo)) gamma beta

/-- The first result, the block's output image, of the seven arguments. -/
def Gout (x : FVec Ideal SX .f32) (Wq Wk Wv Wo : FVec Ideal SW .f32) (gamma beta : FVec Ideal SC .f32) :
    FVec Ideal SX .f32 :=
  outS (yS x Wq Wk Wv Wo gamma beta)

/-! Each layer at an index built from its coordinates, by definition. -/

theorem xfS_apply (x : FVec Ideal SX .f32) (b : Fin 4) (n : Fin 4096) (c : Fin 256) :
    xfS x (ix3 b n c) = x (ix4 b c (rowOf n) (colOf n)) := rfl
theorem projS_apply (a : FVec Ideal SA .f32) (W : FVec Ideal SW .f32) (b : Fin 4) (n : Fin 4096) (o : Fin 256) :
    projS a W (ix3 b n o) = ∑ c : Fin 256, a (ix3 b n c) * W (ix2 o c) := rfl
theorem xwS_apply (q k : FVec Ideal SA .f32) (b : Fin 4) (n m : Fin 4096) :
    xwS q k (ix3 b n m) = Ideal.logistic ((∑ c : Fin 256, q (ix3 b n c) * k (ix3 b m c)) * wScale) := rfl
theorem avS_apply (w : FVec Ideal SP .f32) (v : FVec Ideal SA .f32) (b : Fin 4) (n : Fin 4096) (c : Fin 256) :
    avS w v (ix3 b n c) = ∑ m : Fin 4096, w (ix3 b n m) * v (ix3 b m c) := rfl
theorem outS_apply (y : FVec Ideal SA .f32) (b : Fin 4) (c : Fin 256) (h w : Fin 64) :
    outS y (ix4 b c h w) = y (ix3 b (posOf h w) c) := rfl

end Cert.Spec

end
-- ==== Proof.KernelLayers.lean ====
/-
  The kernel's spelling of three layers of the specification, and what the two pipelined regions leave in their
  output arrays, stated at the ideal values as functions of the arrays each region finds at its entry.
  The kernel contracts a weight matrix it was handed transposed, multiplies by 2^-12 where the specification
  divides by 4096, and reads gamma and beta as one-row matrices.
-/
import proofs.«105034_j8933531975947_1_alg».proof.Proof.RegionData
import proofs.«105034_j8933531975947_1_alg».proof.Proof.Spec
import Idealize.ShloMosaic.Lib.Pipeline.Value

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

/-- A square matrix read with its two coordinates exchanged. -/
def trS (W : FVec Ideal ⟨2, ![256, 256]⟩ .f32) : FVec Ideal ⟨2, ![256, 256]⟩ .f32 :=
  fun j => W (ix2 (j 1) (j 0))

/-- The kernel's normalisation of the accumulated weighted values: times the f32 word of 2^-12. -/
def scaleK (a : FVec Ideal ⟨3, ![4, 4096, 256]⟩ .f32) : FVec Ideal ⟨3, ![4, 4096, 256]⟩ .f32 :=
  fun j => a j * Ideal.ofBits .f32 0x39800000#32

/-- A one-row matrix read as a vector. -/
def rowK (g : FVec Ideal ⟨2, ![1, 256]⟩ .f32) : FVec Ideal ⟨1, ![256]⟩ .f32 :=
  fun j => g (ix2 0 (j 0))

variable (V : (c : Dev nD) → (b : Ref sig .tc) → Buf (Elt Ideal) ((c : Thread nD τ).loc b))

/-- What region 1 leaves in the rows' array, of the arrays it finds: the normalised residual sum, the weighted
    values scaled the kernel's way and contracted with the transposed output matrix it was handed. -/
def rowsK (c : Dev nD) : FVec Ideal ⟨3, ![4, 4096, 256]⟩ .f32 :=
  Cert.Spec.lnS
    (Cert.Spec.resS (V c main_v1)
      (Cert.Spec.projS (scaleK (Cert.Spec.avS (Cert.Spec.xwS (V c main_v6_0) (V c main_v6_1)) (V c main_v6_2))) (trS (V c main_v5))))
    (rowK (V c main_v7)) (rowK (V c main_v8))

end Cert.KernelIdeal.Hand

end
-- ==== Proof.HostValues.lean ====
/-
  What the three stretches of host operations compute, at the ideal values, from any contents `W` of the buffers:
  the image re-laid positions x channels and the four weight matrices transposed; gamma and beta as one-row
  matrices; the finished rows re-laid as an image.
-/
import proofs.«105034_j8933531975947_1_alg».proof.Proof.Gen.KernelIdeal.Launch
import proofs.«105034_j8933531975947_1_alg».proof.Proof.KernelLayers
import Idealize.ShloMosaic.Lib.StableHlo.Run
import Idealize.ShloMosaic.Lib.Pipeline.Value
import Idealize.ShloMosaic.Lib.ValueIdx

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen Cert.Spec

variable (W : Valuation τ sig (Elt Ideal))

/-- A vector as a one-row matrix. -/
def rowUp (g : FVec Ideal ⟨1, ![256]⟩ .f32) : FVec Ideal ⟨2, ![1, 256]⟩ .f32 := fun j => g (ix1 (j 1))

theorem rowK_rowUp (g : FVec Ideal ⟨1, ![256]⟩ .f32) : rowK (rowUp g) = g := by
  funext j; obtain ⟨k, rfl⟩ : ∃ k : Fin 256, j = ix1 k := ⟨j 0, eq_ix1 j⟩; rfl

theorem trS_trS (M : FVec Ideal ⟨2, ![256, 256]⟩ .f32) : trS (trS M) = M := by
  funext j; obtain ⟨a, b, rfl⟩ : ∃ (a b : Fin 256), j = ix2 a b := ⟨j 0, j 1, eq_ix2 j⟩; rfl

/-- A transposed square matrix, read at an index. -/
theorem transpose_sq (M : FVec Ideal S256x256 .f32) :
    transpose S256x256 [1, 0] M transposes_S256x256_S256x256_1_0 = trS M := by
  funext j
  obtain ⟨a, b, rfl⟩ : ∃ (a b : Fin 256), j = ix2 a b := ⟨j 0, j 1, eq_ix2 j⟩
  refine (transpose_apply _ _ _ (ix2 a b) (ix2 b a) ?_).trans rfl
  intro d; match d with | ⟨0, _⟩ => rfl | ⟨1, _⟩ => rfl

/-! ## The first stretch -/

theorem host0_v1 : (StableHlo.after (hostOps0 (F := Ideal)) W (Proc.devRef .tc main_v1) : FVec Ideal S4x4096x256 .f32)
    = xfS (W (Proc.devRef .tc main_arg0)) := by
  have e : (StableHlo.after (hostOps0 (F := Ideal)) W (Proc.devRef .tc main_v1) : S4x4096x256.Idx → EReal)
      = transpose S4x4096x256 [0, 2, 1] (shapeCast S4x256x4096 (W (Proc.devRef .tc main_arg0)) shapeCasts_S4x256x64x64_S4x256x4096)
          transposes_S4x256x4096_S4x4096x256_0_2_1 := by
    after_results; rfl
  rw [e]
  funext j
  obtain ⟨b, n, ch, rfl⟩ : ∃ (b : Fin 4) (n : Fin 4096) (ch : Fin 256), j = ix3 b n ch := ⟨j 0, j 1, j 2, eq_ix3 j⟩
  refine (transpose_apply _ _ _ (ix3 b n ch) (ix3 b ch n) ?_).trans ?_
  · intro d; match d with | ⟨0, _⟩ => rfl | ⟨1, _⟩ => rfl | ⟨2, _⟩ => rfl
  refine (shapeCast_apply _ _ (ix3 b ch n) (ix4 b ch (rowOf n) (colOf n)) ?_).trans rfl
  rw [Shape.rowMajor_val_four, Shape.rowMajor_val_three]
  show ((b.val * 256 + ch.val) * 64 + n.val / 64) * 64 + n.val % 64 = (b.val * 256 + ch.val) * 4096 + n.val
  omega

theorem host0_v2 : (StableHlo.after (hostOps0 (F := Ideal)) W (Proc.devRef .tc main_v2) : FVec Ideal S256x256 .f32)
    = trS (W (Proc.devRef .tc main_arg1)) := by
  have e : (StableHlo.after (hostOps0 (F := Ideal)) W (Proc.devRef .tc main_v2) : S256x256.Idx → EReal)
      = transpose S256x256 [1, 0] (W (Proc.devRef .tc main_arg1)) transposes_S256x256_S256x256_1_0 := by
    after_results
  rw [e, transpose_sq]
theorem host0_v3 : (StableHlo.after (hostOps0 (F := Ideal)) W (Proc.devRef .tc main_v3) : FVec Ideal S256x256 .f32)
    = trS (W (Proc.devRef .tc main_arg2)) := by
  have e : (StableHlo.after (hostOps0 (F := Ideal)) W (Proc.devRef .tc main_v3) : S256x256.Idx → EReal)
      = transpose S256x256 [1, 0] (W (Proc.devRef .tc main_arg2)) transposes_S256x256_S256x256_1_0 := by
    after_results
  rw [e, transpose_sq]
theorem host0_v4 : (StableHlo.after (hostOps0 (F := Ideal)) W (Proc.devRef .tc main_v4) : FVec Ideal S256x256 .f32)
    = trS (W (Proc.devRef .tc main_arg3)) := by
  have e : (StableHlo.after (hostOps0 (F := Ideal)) W (Proc.devRef .tc main_v4) : S256x256.Idx → EReal)
      = transpose S256x256 [1, 0] (W (Proc.devRef .tc main_arg3)) transposes_S256x256_S256x256_1_0 := by
    after_results
  rw [e, transpose_sq]
theorem host0_v5 : (StableHlo.after (hostOps0 (F := Ideal)) W (Proc.devRef .tc main_v5) : FVec Ideal S256x256 .f32)
    = trS (W (Proc.devRef .tc main_arg4)) := by
  have e : (StableHlo.after (hostOps0 (F := Ideal)) W (Proc.devRef .tc main_v5) : S256x256.Idx → EReal)
      = transpose S256x256 [1, 0] (W (Proc.devRef .tc main_arg4)) transposes_S256x256_S256x256_1_0 := by
    after_results
  rw [e, transpose_sq]

/-! ## The second stretch -/

theorem reshape_row (g : FVec Ideal S256 .f32) : shapeCast S1x256 g shapeCasts_S256_S1x256 = rowUp g := by
  funext j
  obtain ⟨z, k, rfl⟩ : ∃ (z : Fin 1) (k : Fin 256), j = ix2 z k := ⟨j 0, j 1, eq_ix2 j⟩
  refine (shapeCast_apply _ _ (ix2 z k) (ix1 k) ?_).trans rfl
  rw [Shape.rowMajor_val_one, Shape.rowMajor_val_two]
  show k.val = z.val * 256 + k.val
  have := z.isLt; omega

theorem host1_v7 : (StableHlo.after (hostOps1 (F := Ideal)) W (Proc.devRef .tc main_v7) : FVec Ideal S1x256 .f32)
    = rowUp (W (Proc.devRef .tc main_arg5)) := by
  have e : (StableHlo.after (hostOps1 (F := Ideal)) W (Proc.devRef .tc main_v7) : S1x256.Idx → EReal)
      = shapeCast S1x256 (W (Proc.devRef .tc main_arg5)) shapeCasts_S256_S1x256 := by
    after_results; rfl
  rw [e, reshape_row]
theorem host1_v8 : (StableHlo.after (hostOps1 (F := Ideal)) W (Proc.devRef .tc main_v8) : FVec Ideal S1x256 .f32)
    = rowUp (W (Proc.devRef .tc main_arg6)) := by
  have e : (StableHlo.after (hostOps1 (F := Ideal)) W (Proc.devRef .tc main_v8) : S1x256.Idx → EReal)
      = shapeCast S1x256 (W (Proc.devRef .tc main_arg6)) shapeCasts_S256_S1x256 := by
    after_results; rfl
  rw [e, reshape_row]

/-! ## The last stretch -/

theorem host2_v11 : (StableHlo.after (hostOps2 (F := Ideal)) W (Proc.devRef .tc main_v11) : FVec Ideal S4x256x64x64 .f32)
    = outS (W (Proc.devRef .tc main_v9_1)) := by
  have e : (StableHlo.after (hostOps2 (F := Ideal)) W (Proc.devRef .tc main_v11) : S4x256x64x64.Idx → EReal)
      = shapeCast S4x256x64x64 (transpose S4x256x4096 [0, 2, 1] (W (Proc.devRef .tc main_v9_1)) transposes_S4x4096x256_S4x256x4096_0_2_1)
          shapeCasts_S4x256x4096_S4x256x64x64 := by
    after_results; rfl
  rw [e]
  funext j
  obtain ⟨b, ch, h, w, rfl⟩ : ∃ (b : Fin 4) (ch : Fin 256) (h w : Fin 64), j = ix4 b ch h w := ⟨j 0, j 1, j 2, j 3, eq_ix4 j⟩
  refine (shapeCast_apply _ _ (ix4 b ch h w) (ix3 b ch (posOf h w)) ?_).trans ?_
  · rw [Shape.rowMajor_val_four, Shape.rowMajor_val_three]
    show (b.val * 256 + ch.val) * 4096 + (64 * h.val + w.val) = ((b.val * 256 + ch.val) * 64 + h.val) * 64 + w.val
    omega
  refine (transpose_apply _ _ _ (ix3 b ch (posOf h w)) (ix3 b (posOf h w) ch) ?_).trans rfl
  intro d; match d with | ⟨0, _⟩ => rfl | ⟨1, _⟩ => rfl | ⟨2, _⟩ => rfl

end Cert.KernelIdeal.Hand

end
-- ==== Proof.Bridge.lean ====
/-
  The kernel multiplies the accumulated weighted values by the f32 word of 2^-12 where the specification divides
  by the f32 word of 4096: on the extended reals, dividing by a nonzero real is multiplying by its inverse, and
  2^-12 is exactly 1/4096, so the two layers are one function.
-/
import proofs.«105034_j8933531975947_1_alg».proof.Proof.KernelLayers

noncomputable section

namespace Cert.KernelIdeal.Hand

open Idealize.ShloMosaic

/-- The word 0x45800000 denotes 4096. -/
theorem word_count : Ideal.ofBits .f32 0x45800000#32 = ((4096 : ℝ) : EReal) := by
  simp [Ideal.ofBits, Ideal.ieee, -EReal.coe_mul]; norm_num

/-- The word 0x39800000 denotes 1/4096. -/
theorem word_inv_count : Ideal.ofBits .f32 0x39800000#32 = ((1 / 4096 : ℝ) : EReal) := by
  simp [Ideal.ofBits, Ideal.ieee, -EReal.coe_mul]; norm_num

theorem scaleK_eq_relS (a : FVec Ideal ⟨3, ![4, 4096, 256]⟩ .f32) : scaleK a = Cert.Spec.relS a := by
  funext j
  show a j * Ideal.ofBits .f32 0x39800000#32 = Ideal.div (a j) Cert.Spec.wCount
  rw [Cert.Spec.wCount, word_count, word_inv_count, Ideal.div_coe (by norm_num : (4096 : ℝ) ≠ 0)]

end Cert.KernelIdeal.Hand

end
-- ==== Proof.ProjValue.lean ====
/-
  Region 0's three output arrays after its four grid points: each is the per-position channel product of the
  position-major input with one weight matrix (the matrix the region was handed transposed, read back).
-/
import proofs.«105034_j8933531975947_1_alg».proof.Proof.KernelLayers
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

/-! ## The kernel's product at an index

Each of the three payloads is the same term of the rows' block `x0` and one weight block `w`: the rows and the
matrix rounded to the narrow format, multiplied into a zero accumulator contracting the rows' channel axis with the
matrix's FIRST axis, rounded again, and given a leading unit axis. At the ideal values the roundings are the
identity and the product's element is the sum over the contracted channel. -/

/-- The contraction the kernel's product performs: the rows' second axis against the matrix's first. -/
abbrev projDot : DotDims S4096x256 S256x256 S4096x256 := dot_S4096x256_S256x256_S4096x256_1_0_0_1_n_n

/-- The kernel's product of the rows' block with a weight block, as one term. -/
def projMM (x0 : Vec Ideal S1x4096x256 .f32) (w : Vec Ideal S256x256 .f32) : FVec Ideal S1x4096x256 .bf16 :=
  shapeCast S1x4096x256
    (truncf .bf16
      (matmul projDot none (k0_pay1 x0)
        (truncf .bf16 (shapeCast S256x256 w shapeCasts_S256x256_S256x256) bitsLt_bf16_f32)
        (constant S4096x256 .f32 0x00000000#32))
      bitsLt_bf16_f32)
    shapeCasts_S4096x256_S1x4096x256

/-- The three payloads are that term, by definition. -/
theorem proj_pay2_eq (x0 : Vec Ideal S1x4096x256 .f32) (w : Vec Ideal S256x256 .f32) : k0_pay2 (F := Ideal) x0 w = projMM x0 w := rfl
theorem proj_pay3_eq (x0 : Vec Ideal S1x4096x256 .f32) (w : Vec Ideal S256x256 .f32) : k0_pay3 (F := Ideal) x0 w = projMM x0 w := rfl
theorem proj_pay4_eq (x0 : Vec Ideal S1x4096x256 .f32) (w : Vec Ideal S256x256 .f32) : k0_pay4 (F := Ideal) x0 w = projMM x0 w := rfl

/-- The left operand's index: the output's row, -/
theorem projDot_lhs0 (j : S4096x256.Idx) (q : projDot.contr.Idx) : (projDot.lhsIdx j q 0).val = (j 0).val := by
  unfold DotDims.lhsIdx
  rw [dif_neg (show ¬(0 : Fin S4096x256.rank) ∈ projDot.lhsBatch by decide),
    dif_pos (show (0 : Fin S4096x256.rank) ∈ projDot.lhsNonContracting by decide)]
  rfl
/-- and the contracted channel. -/
theorem projDot_lhs1 (j : S4096x256.Idx) (q : projDot.contr.Idx) : (projDot.lhsIdx j q 1).val = (q ⟨0, by decide⟩).val :=
  projDot.lhsIdx_val_of_single rfl j q
/-- The right operand's index: the contracted channel, -/
theorem projDot_rhs0 (j : S4096x256.Idx) (q : projDot.contr.Idx) : (projDot.rhsIdx j q 0).val = (q ⟨0, by decide⟩).val :=
  projDot.rhsIdx_val_of_single rfl j q
/-- and the output's column. -/
theorem projDot_rhs1 (j : S4096x256.Idx) (q : projDot.contr.Idx) : (projDot.rhsIdx j q 1).val = (j 1).val := by
  unfold DotDims.rhsIdx
  rw [dif_neg (show ¬(1 : Fin S256x256.rank) ∈ projDot.rhsBatch by decide),
    dif_pos (show (1 : Fin S256x256.rank) ∈ projDot.rhsNonContracting by decide)]
  rfl

/-- The product at (z, n, o): the sum over the channel k of the rows' block at (0, n, k) times the weight block
    at (k, o). -/
theorem projMM_apply (x0 : Vec Ideal S1x4096x256 .f32) (w : Vec Ideal S256x256 .f32) (z : Fin 1) (n : Fin 4096) (o : Fin 256) :
    projMM x0 w (ix3 z n o) = ∑ k : Fin 256, x0 (ix3 0 n k) * w (ix2 k o) := by
  unfold projMM
  refine (shapeCast_addUnit_apply ![4096, 256] _ _ (ix3 z n o)).trans ?_
  have e : (fun a : Fin 2 => (ix3 z n o) a.succ) = ix2 n o :=
    funext fun a => by match a with | ⟨0, _⟩ => rfl | ⟨1, _⟩ => rfl
  rw [e]
  refine (Ideal.matmul_constant_zero_apply projDot none _ _ (ix2 n o)).trans ?_
  rw [← Equiv.sum_comp (contrEquiv1 projDot 256 rfl rfl).symm]
  refine Finset.sum_congr rfl fun k _ => ?_
  have hk := contrEquiv1_symm_val projDot 256 rfl rfl k
  have el : projDot.lhsIdx (ix2 n o) ((contrEquiv1 projDot 256 rfl rfl).symm k) = ix2 n k := funext fun a => Fin.ext (by
    match a with
    | ⟨0, _⟩ => exact projDot_lhs0 _ _
    | ⟨1, _⟩ => exact (projDot_lhs1 _ _).trans hk)
  have er : projDot.rhsIdx (ix2 n o) ((contrEquiv1 projDot 256 rfl rfl).symm k) = ix2 k o := funext fun a => Fin.ext (by
    match a with
    | ⟨0, _⟩ => exact (projDot_rhs0 _ _).trans hk
    | ⟨1, _⟩ => exact projDot_rhs1 _ _)
  rw [el, er, shapeCast_self]
  show k0_pay1 x0 (ix2 n k) * w (ix2 k o) = _
  refine congrArg (· * w (ix2 k o)) ?_
  unfold k0_pay1
  refine (shapeCast_dropUnit_apply ![4096, 256] x0 _ (ix2 n k)).trans ?_
  exact congrArg x0 (funext fun a => by match a with | ⟨0, _⟩ => rfl | ⟨1, _⟩ => rfl | ⟨2, _⟩ => rfl)

variable (V : (c : Dev nD) → (b : Ref sig .tc) → Buf (Elt Ideal) ((c : Thread nD τ).loc b))

/-! ## The blocks as parts of the arrays

Region 0's grid is the four batch entries. The rows' window and the three output windows have blocks of one
batch entry, at block index (t, 0, 0) at point t; the weight windows' block is the whole matrix at block index
(0, 0). These relations between the printed index maps are decided once over the grid. A block's element sits
in its array, on each axis, at the block index times the block's size plus its own coordinate. -/

/-- The batch entry grid point `t` works on. -/
def projBatch (t : Fin cfg0.N) : Fin 4 := ⟨t.val, lt_of_lt_of_eq t.isLt N_0⟩

theorem proj_idx_rows : ∀ t : Fin cfg0.N, win0_0.index t (0 : Fin 3) = t.val ∧ win0_0.index t (1 : Fin 3) = 0 ∧ win0_0.index t (2 : Fin 3) = 0 :=
  (by decide +kernel : ∀ t : Fin grid0.N, _)
theorem proj_idx_w1 : ∀ t : Fin cfg0.N, win0_1.index t (0 : Fin 2) = 0 ∧ win0_1.index t (1 : Fin 2) = 0 :=
  (by decide +kernel : ∀ t : Fin grid0.N, _)
theorem proj_idx_w2 : ∀ t : Fin cfg0.N, win0_2.index t (0 : Fin 2) = 0 ∧ win0_2.index t (1 : Fin 2) = 0 :=
  (by decide +kernel : ∀ t : Fin grid0.N, _)
theorem proj_idx_w3 : ∀ t : Fin cfg0.N, win0_3.index t (0 : Fin 2) = 0 ∧ win0_3.index t (1 : Fin 2) = 0 :=
  (by decide +kernel : ∀ t : Fin grid0.N, _)
theorem proj_idx_o4 : ∀ t : Fin cfg0.N, win0_4.index t (0 : Fin 3) = t.val ∧ win0_4.index t (1 : Fin 3) = 0 ∧ win0_4.index t (2 : Fin 3) = 0 :=
  (by decide +kernel : ∀ t : Fin grid0.N, _)
theorem proj_idx_o5 : ∀ t : Fin cfg0.N, win0_5.index t (0 : Fin 3) = t.val ∧ win0_5.index t (1 : Fin 3) = 0 ∧ win0_5.index t (2 : Fin 3) = 0 :=
  (by decide +kernel : ∀ t : Fin grid0.N, _)
theorem proj_idx_o6 : ∀ t : Fin cfg0.N, win0_6.index t (0 : Fin 3) = t.val ∧ win0_6.index t (1 : Fin 3) = 0 ∧ win0_6.index t (2 : Fin 3) = 0 :=
  (by decide +kernel : ∀ t : Fin grid0.N, _)

/-- The rows' block at point `t` is batch entry `t` of the position-major input. -/
theorem proj_rows_blk (c : Dev nD) (t : Fin cfg0.N) (n : Fin 4096) (k : Fin 256) :
    iblk0 V c 0 t (ix3 0 n k) = (V c main_v1 : S4x4096x256.Idx → Elt Ideal .f32) (ix3 (projBatch t) n k) := by
  obtain ⟨e0, e1, e2⟩ := proj_idx_rows t
  unfold iblk0
  rw [View.read_apply]
  show V c main_v1 _ = V c main_v1 _
  congr 1
  funext a
  apply Fin.ext
  match a with
  | ⟨0, _⟩ => show win0_0.index t (0 : Fin 3) * 1 + 1 * 0 = t.val; omega
  | ⟨1, _⟩ => show win0_0.index t (1 : Fin 3) * 4096 + 1 * n.val = n.val; omega
  | ⟨2, _⟩ => show win0_0.index t (2 : Fin 3) * 256 + 1 * k.val = k.val; omega

/-- The first weight window's block, at every point, is its whole matrix. -/
theorem proj_w1_blk (c : Dev nD) (t : Fin cfg0.N) (k o : Fin 256) :
    iblk0 V c 1 t (ix2 k o) = (V c main_v2 : S256x256.Idx → Elt Ideal .f32) (ix2 k o) := by
  obtain ⟨e0, e1⟩ := proj_idx_w1 t
  unfold iblk0
  rw [View.read_apply]
  show V c main_v2 _ = V c main_v2 _
  congr 1
  funext a
  apply Fin.ext
  match a with
  | ⟨0, _⟩ => show win0_1.index t (0 : Fin 2) * 256 + 1 * k.val = k.val; omega
  | ⟨1, _⟩ => show win0_1.index t (1 : Fin 2) * 256 + 1 * o.val = o.val; omega

/-- The second weight window's block, at every point, is its whole matrix. -/
theorem proj_w2_blk (c : Dev nD) (t : Fin cfg0.N) (k o : Fin 256) :
    iblk0 V c 2 t (ix2 k o) = (V c main_v3 : S256x256.Idx → Elt Ideal .f32) (ix2 k o) := by
  obtain ⟨e0, e1⟩ := proj_idx_w2 t
  unfold iblk0
  rw [View.read_apply]
  show V c main_v3 _ = V c main_v3 _
  congr 1
  funext a
  apply Fin.ext
  match a with
  | ⟨0, _⟩ => show win0_2.index t (0 : Fin 2) * 256 + 1 * k.val = k.val; omega
  | ⟨1, _⟩ => show win0_2.index t (1 : Fin 2) * 256 + 1 * o.val = o.val; omega

/-- The third weight window's block, at every point, is its whole matrix. -/
theorem proj_w3_blk (c : Dev nD) (t : Fin cfg0.N) (k o : Fin 256) :
    iblk0 V c 3 t (ix2 k o) = (V c main_v4 : S256x256.Idx → Elt Ideal .f32) (ix2 k o) := by
  obtain ⟨e0, e1⟩ := proj_idx_w3 t
  unfold iblk0
  rw [View.read_apply]
  show V c main_v4 _ = V c main_v4 _
  congr 1
  funext a
  apply Fin.ext
  match a with
  | ⟨0, _⟩ => show win0_3.index t (0 : Fin 2) * 256 + 1 * k.val = k.val; omega
  | ⟨1, _⟩ => show win0_3.index t (1 : Fin 2) * 256 + 1 * o.val = o.val; omega

/-! ## The value a point writes back

With the rows' block batch entry `b` of an array `a` and the weight block a whole matrix `w`, the kernel's product
at (z, n, o) is the specification's per-position channel product of `a` with the transpose of `w` at (b, n, o):
the kernel contracts the matrix's first axis, the specification the second of the transposed one. -/

theorem proj_value (a : FVec Ideal S4x4096x256 .f32) (w : FVec Ideal S256x256 .f32)
    (x0 : Vec Ideal S1x4096x256 .f32) (x1 : Vec Ideal S256x256 .f32) (b : Fin 4)
    (h0 : ∀ (n : Fin 4096) (k : Fin 256), x0 (ix3 0 n k) = a (ix3 b n k))
    (h1 : ∀ k o : Fin 256, x1 (ix2 k o) = w (ix2 k o))
    (z : Fin 1) (n : Fin 4096) (o : Fin 256) :
    projMM x0 x1 (ix3 z n o) = Cert.Spec.projS a (trS w) (ix3 b n o) := by
  rw [projMM_apply, Cert.Spec.projS_apply]
  refine Finset.sum_congr rfl fun k _ => ?_
  rw [h0, h1]
  rfl

/-! ### The first output -/

/-- An element of the first output's block at point `t` sits in batch entry `t` of its array. -/
theorem proj_o4_emb (t : Fin cfg0.N) (z : Fin 1) (n : Fin 4096) (o : Fin 256) :
    ((cfg0.win 4).blk t).view.emb (ix3 z n o) = (ix3 (projBatch t) n o : S4x4096x256.Idx) := by
  obtain ⟨e0, e1, e2⟩ := proj_idx_o4 t
  funext a
  apply Fin.ext
  match a with
  | ⟨0, _⟩ => show win0_4.index t (0 : Fin 3) * 1 + 1 * z.val = t.val; have := z.isLt; omega
  | ⟨1, _⟩ => show win0_4.index t (1 : Fin 3) * 4096 + 1 * n.val = n.val; omega
  | ⟨2, _⟩ => show win0_4.index t (2 : Fin 3) * 256 + 1 * o.val = o.val; omega

/-- What point `t` writes back to the first output is block `t` of the product array. -/
theorem flushed0_4_eq (c : Dev nD) (t : Fin cfg0.N) :
    (dat0 (F := Ideal) V c).flushed 4 t
      = ((cfg0.win 4).blk t).view.read (Elt Ideal) (Cert.Spec.projS (V c main_v1) (trS (V c main_v2))) := by
  show (cfg0.win 4).cut (grid0.coords t) ((dat0 V c).after 4 t) = _
  rw [after0_4, proj_pay2_eq]
  funext j
  obtain ⟨z, n, o, rfl⟩ : ∃ (z : Fin 1) (n : Fin 4096) (o : Fin 256), j = ix3 z n o := ⟨j 0, j 1, j 2, eq_ix3 j⟩
  rw [View.read_apply, proj_o4_emb]
  exact proj_value (V c main_v1) (V c main_v2) _ _ (projBatch t) (proj_rows_blk V c t) (proj_w1_blk V c t) z n o

/-- Every index of the first output array is in the block of the point of its batch entry, and every point writes
    its block back: the array ends holding the product. -/
theorem final0_4 (c : Dev nD) : (dat0 (F := Ideal) V c).arrAt 4 cfg0.N = Cert.Spec.projS (V c main_v1) (trS (V c main_v2)) := by
  refine (dat0 (F := Ideal) V c).arrAt_eq_of_cover 4 _ (fun t _ => flushed0_4_eq V c t) fun i => ?_
  obtain ⟨b, n, o, rfl⟩ : ∃ (b : Fin 4) (n : Fin 4096) (o : Fin 256), i = ix3 b n o := ⟨i 0, i 1, i 2, eq_ix3 i⟩
  refine ⟨⟨b.val, lt_of_lt_of_eq b.isLt N_0.symm⟩, flush0_4 _, ?_⟩
  have e := proj_o4_emb ⟨b.val, lt_of_lt_of_eq b.isLt N_0.symm⟩ 0 n o
  rw [show projBatch ⟨b.val, lt_of_lt_of_eq b.isLt N_0.symm⟩ = b from rfl] at e
  rw [← e]
  exact View.emb_mem_set _ _

/-! ### The second output -/

/-- An element of the second output's block at point `t` sits in batch entry `t` of its array. -/
theorem proj_o5_emb (t : Fin cfg0.N) (z : Fin 1) (n : Fin 4096) (o : Fin 256) :
    ((cfg0.win 5).blk t).view.emb (ix3 z n o) = (ix3 (projBatch t) n o : S4x4096x256.Idx) := by
  obtain ⟨e0, e1, e2⟩ := proj_idx_o5 t
  funext a
  apply Fin.ext
  match a with
  | ⟨0, _⟩ => show win0_5.index t (0 : Fin 3) * 1 + 1 * z.val = t.val; have := z.isLt; omega
  | ⟨1, _⟩ => show win0_5.index t (1 : Fin 3) * 4096 + 1 * n.val = n.val; omega
  | ⟨2, _⟩ => show win0_5.index t (2 : Fin 3) * 256 + 1 * o.val = o.val; omega

/-- What point `t` writes back to the second output is block `t` of the product array. -/
theorem flushed0_5_eq (c : Dev nD) (t : Fin cfg0.N) :
    (dat0 (F := Ideal) V c).flushed 5 t
      = ((cfg0.win 5).blk t).view.read (Elt Ideal) (Cert.Spec.projS (V c main_v1) (trS (V c main_v3))) := by
  show (cfg0.win 5).cut (grid0.coords t) ((dat0 V c).after 5 t) = _
  rw [after0_5, proj_pay3_eq]
  funext j
  obtain ⟨z, n, o, rfl⟩ : ∃ (z : Fin 1) (n : Fin 4096) (o : Fin 256), j = ix3 z n o := ⟨j 0, j 1, j 2, eq_ix3 j⟩
  rw [View.read_apply, proj_o5_emb]
  exact proj_value (V c main_v1) (V c main_v3) _ _ (projBatch t) (proj_rows_blk V c t) (proj_w2_blk V c t) z n o

/-- Every index of the second output array is in the block of the point of its batch entry, and every point writes
    its block back: the array ends holding the product. -/
theorem final0_5 (c : Dev nD) : (dat0 (F := Ideal) V c).arrAt 5 cfg0.N = Cert.Spec.projS (V c main_v1) (trS (V c main_v3)) := by
  refine (dat0 (F := Ideal) V c).arrAt_eq_of_cover 5 _ (fun t _ => flushed0_5_eq V c t) fun i => ?_
  obtain ⟨b, n, o, rfl⟩ : ∃ (b : Fin 4) (n : Fin 4096) (o : Fin 256), i = ix3 b n o := ⟨i 0, i 1, i 2, eq_ix3 i⟩
  refine ⟨⟨b.val, lt_of_lt_of_eq b.isLt N_0.symm⟩, flush0_5 _, ?_⟩
  have e := proj_o5_emb ⟨b.val, lt_of_lt_of_eq b.isLt N_0.symm⟩ 0 n o
  rw [show projBatch ⟨b.val, lt_of_lt_of_eq b.isLt N_0.symm⟩ = b from rfl] at e
  rw [← e]
  exact View.emb_mem_set _ _

/-! ### The third output -/

/-- An element of the third output's block at point `t` sits in batch entry `t` of its array. -/
theorem proj_o6_emb (t : Fin cfg0.N) (z : Fin 1) (n : Fin 4096) (o : Fin 256) :
    ((cfg0.win 6).blk t).view.emb (ix3 z n o) = (ix3 (projBatch t) n o : S4x4096x256.Idx) := by
  obtain ⟨e0, e1, e2⟩ := proj_idx_o6 t
  funext a
  apply Fin.ext
  match a with
  | ⟨0, _⟩ => show win0_6.index t (0 : Fin 3) * 1 + 1 * z.val = t.val; have := z.isLt; omega
  | ⟨1, _⟩ => show win0_6.index t (1 : Fin 3) * 4096 + 1 * n.val = n.val; omega
  | ⟨2, _⟩ => show win0_6.index t (2 : Fin 3) * 256 + 1 * o.val = o.val; omega

/-- What point `t` writes back to the third output is block `t` of the product array. -/
theorem flushed0_6_eq (c : Dev nD) (t : Fin cfg0.N) :
    (dat0 (F := Ideal) V c).flushed 6 t
      = ((cfg0.win 6).blk t).view.read (Elt Ideal) (Cert.Spec.projS (V c main_v1) (trS (V c main_v4))) := by
  show (cfg0.win 6).cut (grid0.coords t) ((dat0 V c).after 6 t) = _
  rw [after0_6, proj_pay4_eq]
  funext j
  obtain ⟨z, n, o, rfl⟩ : ∃ (z : Fin 1) (n : Fin 4096) (o : Fin 256), j = ix3 z n o := ⟨j 0, j 1, j 2, eq_ix3 j⟩
  rw [View.read_apply, proj_o6_emb]
  exact proj_value (V c main_v1) (V c main_v4) _ _ (projBatch t) (proj_rows_blk V c t) (proj_w3_blk V c t) z n o

/-- Every index of the third output array is in the block of the point of its batch entry, and every point writes
    its block back: the array ends holding the product. -/
theorem final0_6 (c : Dev nD) : (dat0 (F := Ideal) V c).arrAt 6 cfg0.N = Cert.Spec.projS (V c main_v1) (trS (V c main_v4)) := by
  refine (dat0 (F := Ideal) V c).arrAt_eq_of_cover 6 _ (fun t _ => flushed0_6_eq V c t) fun i => ?_
  obtain ⟨b, n, o, rfl⟩ : ∃ (b : Fin 4) (n : Fin 4096) (o : Fin 256), i = ix3 b n o := ⟨i 0, i 1, i 2, eq_ix3 i⟩
  refine ⟨⟨b.val, lt_of_lt_of_eq b.isLt N_0.symm⟩, flush0_6 _, ?_⟩
  have e := proj_o6_emb ⟨b.val, lt_of_lt_of_eq b.isLt N_0.symm⟩ 0 n o
  rw [show projBatch ⟨b.val, lt_of_lt_of_eq b.isLt N_0.symm⟩ = b from rfl] at e
  rw [← e]
  exact View.emb_mem_set _ _

end Cert.KernelIdeal.Hand

end
-- ==== Proof.WeightsValue.lean ====
/-
  Region 1's first output array after its 64 grid points: the attention weights, the logistic of the scaled
  query-key products, every (query tile, key tile) block written once.
-/
import proofs.«105034_j8933531975947_1_alg».proof.Proof.KernelLayers
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable (V : (c : Dev nD) → (b : Ref sig .tc) → Buf (Elt Ideal) ((c : Thread nD τ).loc b))

namespace Weights

/-! ## The tile a point computes, at an index -/

/-- The contraction record of the query-key product, by a short name. -/
abbrev qkDot := dot_S1024x256_S1024x256_S1024x1024_1_1_0_0_n_n

theorem qkDot_lhs0 (o : S1024x1024.Idx) (q : qkDot.contr.Idx) : (qkDot.lhsIdx o q 0).val = (o 0).val := by
  unfold DotDims.lhsIdx
  rw [dif_neg (show ¬(0 : Fin S1024x256.rank) ∈ qkDot.lhsBatch by decide), dif_pos (show (0 : Fin S1024x256.rank) ∈ qkDot.lhsNonContracting by decide)]
  rfl
theorem qkDot_lhs1 (o : S1024x1024.Idx) (q : qkDot.contr.Idx) : (qkDot.lhsIdx o q 1).val = (q ⟨0, by decide⟩).val :=
  qkDot.lhsIdx_val_of_single rfl o q
theorem qkDot_rhs0 (o : S1024x1024.Idx) (q : qkDot.contr.Idx) : (qkDot.rhsIdx o q 0).val = (o 1).val := by
  unfold DotDims.rhsIdx
  rw [dif_neg (show ¬(0 : Fin S1024x256.rank) ∈ qkDot.rhsBatch by decide), dif_pos (show (0 : Fin S1024x256.rank) ∈ qkDot.rhsNonContracting by decide)]
  rfl
theorem qkDot_rhs1 (o : S1024x1024.Idx) (q : qkDot.contr.Idx) : (qkDot.rhsIdx o q 1).val = (q ⟨0, by decide⟩).val :=
  qkDot.rhsIdx_val_of_single rfl o q

/-- The product of two row blocks contracted along the channels, into a zero accumulator, at (i, j). -/
theorem qkProduct_apply (a b : FVec Ideal S1024x256 .bf16) (i j : Fin 1024) :
    matmul qkDot none a b (constant S1024x1024 .f32 0x00000000#32) (ix2 i j) = ∑ c : Fin 256, a (ix2 i c) * b (ix2 j c) := by
  refine (Ideal.matmul_constant_zero_apply qkDot none a b (ix2 i j)).trans ?_
  rw [← Equiv.sum_comp (contrEquiv1 qkDot 256 rfl rfl).symm]
  refine Finset.sum_congr rfl fun k _ => ?_
  have hk := contrEquiv1_symm_val qkDot 256 rfl rfl k
  have el : qkDot.lhsIdx (ix2 i j) ((contrEquiv1 qkDot 256 rfl rfl).symm k) = ix2 i k := funext fun x => Fin.ext (by
    match x with
    | ⟨0, _⟩ => exact qkDot_lhs0 _ _
    | ⟨1, _⟩ => exact (qkDot_lhs1 _ _).trans hk)
  have er : qkDot.rhsIdx (ix2 i j) ((contrEquiv1 qkDot 256 rfl rfl).symm k) = ix2 j k := funext fun x => Fin.ext (by
    match x with
    | ⟨0, _⟩ => exact qkDot_rhs0 _ _
    | ⟨1, _⟩ => exact (qkDot_rhs1 _ _).trans hk)
  rw [el, er]

/-- The logistic tile at an index: the logistic of the scaled product of query row i with key row j. -/
theorem weightsTile_apply (x0 x1 : FVec Ideal S1x1024x256 .bf16) (u : Fin 1) (i j : Fin 1024) :
    k1_pay3 (F := Ideal) x0 x1 (ix3 u i j)
      = Ideal.logistic ((∑ c : Fin 256, x0 (ix3 (0 : Fin 1) i c) * x1 (ix3 (0 : Fin 1) j c)) * Cert.Spec.wScale) := by
  unfold k1_pay3
  refine (shapeCast_ab_1ab_apply _ _ u i j).trans ?_
  unfold k1_pay2
  refine congrArg Ideal.logistic ?_
  refine congrArg (· * Cert.Spec.wScale) ?_
  refine (qkProduct_apply _ _ i j).trans ?_
  refine Finset.sum_congr rfl fun c _ => ?_
  rw [shapeCast_1ab_ab_apply x0 _ i c, shapeCast_1ab_ab_apply x1 _ j c]

/-- The same at any index of the tile. -/
theorem weightsTile_at (x0 x1 : FVec Ideal S1x1024x256 .bf16) (y : S1x1024x1024.Idx) :
    k1_pay3 (F := Ideal) x0 x1 y
      = Ideal.logistic ((∑ c : Fin 256, x0 (ix3 (0 : Fin 1) (y 1) c) * x1 (ix3 (0 : Fin 1) (y 2) c)) * Cert.Spec.wScale) := by
  obtain ⟨u, i, j, rfl⟩ : ∃ (u : Fin 1) (i j : Fin 1024), y = ix3 u i j := ⟨y 0, y 1, y 2, eq_ix3 y⟩
  exact weightsTile_apply x0 x1 u i j

/-! ## From the 64 tiles to the array -/

/-- The three index maps over the grid: the query window follows the output's batch and row block, the key window
    the output's batch and column block, both whole along the channels; the output's block indices are below 4. -/
theorem tile_index_facts : ∀ t : Fin cfg1.N,
    win1_0.index t (0 : Fin 3) = win1_7.index t (0 : Fin 3)
    ∧ win1_0.index t (1 : Fin 3) = win1_7.index t (1 : Fin 3)
    ∧ win1_0.index t (2 : Fin 3) = 0
    ∧ win1_1.index t (0 : Fin 3) = win1_7.index t (0 : Fin 3)
    ∧ win1_1.index t (1 : Fin 3) = win1_7.index t (2 : Fin 3)
    ∧ win1_1.index t (2 : Fin 3) = 0
    ∧ win1_7.index t (0 : Fin 3) ≤ 3 ∧ win1_7.index t (1 : Fin 3) ≤ 3 ∧ win1_7.index t (2 : Fin 3) ≤ 3 :=
  (by decide +kernel : ∀ t : Fin grid1.N, _)

/-- Every (batch, row block, column block) is some point's output block. -/
theorem tile_index_onto : ∀ (q0 q1 q2 : Fin 4), ∃ t : Fin cfg1.N, win1_7.index t = ![q0.val, q1.val, q2.val] :=
  (by decide +kernel : ∀ (q0 q1 q2 : Fin 4), ∃ t : Fin grid1.N, win1_7.index t = ![q0.val, q1.val, q2.val])

/-- What a point writes back is its block of the attention weights of the query and key arrays. -/
theorem flushed1_7_eq (c : Dev nD) (t : Fin cfg1.N) :
    (dat1 (F := Ideal) V c).flushed 7 t
      = ((cfg1.win 7).blk t).view.read (Elt Ideal) (Cert.Spec.xwS (V c main_v6_0) (V c main_v6_1)) := by
  show (cfg1.win 7).cut (grid1.coords t) ((dat1 (F := Ideal) V c).after 7 t) = _
  rw [after1_7]
  obtain ⟨e00, e01, e02, e10, e11, e12, b0, b1, b2⟩ := tile_index_facts t
  funext y
  show k1_pay3 (F := Ideal) (iblk1 V c 0 t) (iblk1 V c 1 t) ((cfg1.win 7).xinj (grid1.coords t) y)
    = Cert.Spec.xwS (V c main_v6_0) (V c main_v6_1) (((cfg1.win 7).blk t).view.emb y)
  refine (weightsTile_at _ _ _).trans ?_
  refine congrArg (fun s : EReal => Ideal.logistic (s * Cert.Spec.wScale)) ?_
  refine Finset.sum_congr rfl fun k _ => ?_
  refine congrArg₂ (fun a b : EReal => a * b) ?_ ?_
  · show V c main_v6_0 (((cfg1.win 0).blk t).view.emb (ix3 (0 : Fin 1) ((cfg1.win 7).xinj (grid1.coords t) y 1) k)) = _
    refine congrArg (V c main_v6_0) ?_
    funext a; apply Fin.ext
    have hy0 : (y 0).val < 1 := (y 0).isLt
    match a with
    | ⟨0, _⟩ => show win1_0.index t (0 : Fin 3) * 1 + 1 * 0 = win1_7.index t (0 : Fin 3) * 1 + 1 * (y 0).val; omega
    | ⟨1, _⟩ => show win1_0.index t (1 : Fin 3) * 1024 + 1 * (y 1).val = win1_7.index t (1 : Fin 3) * 1024 + 1 * (y 1).val; omega
    | ⟨2, _⟩ => show win1_0.index t (2 : Fin 3) * 256 + 1 * k.val = k.val; omega
  · show V c main_v6_1 (((cfg1.win 1).blk t).view.emb (ix3 (0 : Fin 1) ((cfg1.win 7).xinj (grid1.coords t) y 2) k)) = _
    refine congrArg (V c main_v6_1) ?_
    funext a; apply Fin.ext
    have hy0 : (y 0).val < 1 := (y 0).isLt
    match a with
    | ⟨0, _⟩ => show win1_1.index t (0 : Fin 3) * 1 + 1 * 0 = win1_7.index t (0 : Fin 3) * 1 + 1 * (y 0).val; omega
    | ⟨1, _⟩ => show win1_1.index t (1 : Fin 3) * 1024 + 1 * (y 2).val = win1_7.index t (2 : Fin 3) * 1024 + 1 * (y 2).val; omega
    | ⟨2, _⟩ => show win1_1.index t (2 : Fin 3) * 256 + 1 * k.val = k.val; omega

/-- An index of the weights array is in a point's block iff each coordinate is in the block's range on its axis. -/
theorem mem_tile (t : Fin cfg1.N) (i : S4x4096x4096.Idx) :
    i ∈ ((cfg1.win 7).blk t).view.set ↔ ∀ a : Fin 3, win1_7.index t a * S1x1024x1024.size a ≤ (i a).val ∧ (i a).val < win1_7.index t a * S1x1024x1024.size a + S1x1024x1024.size a := by
  show i ∈ ((View.whole main_v9_0).slice (win1_7.rect t)).set ↔ _
  rw [View.set_slice_whole, Rect.mem_set_unit]
  exact Iff.rfl

/-- The 64 blocks tile the weights array: (b, n, m) lies in the block of batch b, row block n / 1024, column block m / 1024. -/
theorem tiles_cover (i : S4x4096x4096.Idx) :
    ∃ t : Fin cfg1.N, (cfg1.win 7).flush t = true ∧ i ∈ ((cfg1.win 7).blk t).view.set := by
  have hi0 : (i 0).val < 4 := (i 0).isLt
  have hi1 : (i 1).val < 4096 := (i 1).isLt
  have hi2 : (i 2).val < 4096 := (i 2).isLt
  obtain ⟨t, ht⟩ := tile_index_onto ⟨(i 0).val, hi0⟩ ⟨(i 1).val / 1024, by omega⟩ ⟨(i 2).val / 1024, by omega⟩
  have q0 : win1_7.index t (0 : Fin 3) = (i 0).val := congrFun ht 0
  have q1 : win1_7.index t (1 : Fin 3) = (i 1).val / 1024 := congrFun ht 1
  have q2 : win1_7.index t (2 : Fin 3) = (i 2).val / 1024 := congrFun ht 2
  refine ⟨t, flush1_7 t, ?_⟩
  rw [mem_tile]
  intro a
  match a with
  | ⟨0, _⟩ => show win1_7.index t (0 : Fin 3) * 1 ≤ (i 0).val ∧ (i 0).val < win1_7.index t (0 : Fin 3) * 1 + 1; omega
  | ⟨1, _⟩ => show win1_7.index t (1 : Fin 3) * 1024 ≤ (i 1).val ∧ (i 1).val < win1_7.index t (1 : Fin 3) * 1024 + 1024; omega
  | ⟨2, _⟩ => show win1_7.index t (2 : Fin 3) * 1024 ≤ (i 2).val ∧ (i 2).val < win1_7.index t (2 : Fin 3) * 1024 + 1024; omega

end Weights

/-- The weights array after the 64 points is the logistic of the scaled query-key products of the query and key arrays. -/
theorem final1_7 (c : Dev nD) : (dat1 (F := Ideal) V c).arrAt 7 cfg1.N = Cert.Spec.xwS (V c main_v6_0) (V c main_v6_1) :=
  (dat1 (F := Ideal) V c).arrAt_eq_of_cover 7 (Cert.Spec.xwS (V c main_v6_0) (V c main_v6_1))
    (fun t _ => Weights.flushed1_7_eq V c t) Weights.tiles_cover

end Cert.KernelIdeal.Hand

end
-- ==== Proof.LibColumns.lean ====
/-
  Column forms of the layout reads, at indices given by coordinates: a vector seen as a one-column matrix
  ([a] → [a, 1], what a row reduction with the axis kept produces), a one-column matrix seen as a vector again
  ([a, 1] → [a]) or as a one-row matrix ([a, 1] → [1, a]), and a one-column matrix repeated along the rows
  ([a, 1] → [a, b]). Each is the general read of the operation (a shape cast keeps the row-major position, a
  broadcast reads 0 on a unit axis) at these two shapes, with both indices written by coordinates.
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`:
the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` array cast to `[1, a]` reads, at `(u, i)`, the operand at `(i, 0)`: both positions are `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.RowsPayload.lean ====
/-
  The finished rows' payload, read at an index. For one row of a query tile the kernel scales the accumulated weighted
  values by 2^-12, contracts them with the output matrix it was handed transposed, adds the input row, and normalises
  the 256 channels of the sum: mean, centred values, variance, reciprocal square root, gamma and beta.
-/
import proofs.«105034_j8933531975947_1_alg».proof.Proof.KernelLayers
import proofs.«105034_j8933531975947_1_alg».proof.Proof.LibColumns
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Cert.KernelIdeal Cert.KernelIdeal.Gen Cert.Spec

/-! ## The normalisation of one row of 256 channels -/

/-- The mean of a row: its sum divided by the f32 word of 256. -/
def rowMean (y : Fin 256 → EReal) : EReal := Ideal.div (∑ c : Fin 256, y c) wChan
/-- A row's value at channel c minus the row's mean. -/
def rowCen (y : Fin 256 → EReal) (c : Fin 256) : EReal := y c - rowMean y
/-- The variance of a row: the sum of its squared centred values divided by the word of 256. -/
def rowVar (y : Fin 256 → EReal) : EReal := Ideal.div (∑ c : Fin 256, rowCen y c * rowCen y c) wChan
/-- The normalised row at channel ch, scaled by g and shifted by b. -/
def rowNorm (y : Fin 256 → EReal) (g b : EReal) (ch : Fin 256) : EReal :=
  rowCen y ch * Ideal.rsqrt (rowVar y + wEps) * g + b

/-- The specification's normalisation at (b, n, ch) is the normalisation of row (b, n). -/
theorem lnS_row (Y : FVec Ideal ⟨3, ![4, 4096, 256]⟩ .f32) (gamma beta : FVec Ideal ⟨1, ![256]⟩ .f32)
    (b : Fin 4) (n : Fin 4096) (ch : Fin 256) :
    lnS Y gamma beta (ix3 b n ch) = rowNorm (fun c => Y (ix3 b n c)) (gamma (ix1 ch)) (beta (ix1 ch)) ch := rfl

/-! ## The payload's non-pointwise operations at an index -/

theorem dotT_lhs_0 (j : S1024x256.Idx) (q : dot_S1024x256_S256x256_S1024x256_1_0_0_1_n_n.contr.Idx) :
    (dot_S1024x256_S256x256_S1024x256_1_0_0_1_n_n.lhsIdx j q 0).val = (j 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem dotT_lhs_1 (j : S1024x256.Idx) (q : dot_S1024x256_S256x256_S1024x256_1_0_0_1_n_n.contr.Idx) :
    (dot_S1024x256_S256x256_S1024x256_1_0_0_1_n_n.lhsIdx j q 1).val = (q ⟨0, by decide⟩).val :=
  dot_S1024x256_S256x256_S1024x256_1_0_0_1_n_n.lhsIdx_val_of_single rfl j q
theorem dotT_rhs_0 (j : S1024x256.Idx) (q : dot_S1024x256_S256x256_S1024x256_1_0_0_1_n_n.contr.Idx) :
    (dot_S1024x256_S256x256_S1024x256_1_0_0_1_n_n.rhsIdx j q 0).val = (q ⟨0, by decide⟩).val :=
  dot_S1024x256_S256x256_S1024x256_1_0_0_1_n_n.rhsIdx_val_of_single rfl j q
theorem dotT_rhs_1 (j : S1024x256.Idx) (q : dot_S1024x256_S256x256_S1024x256_1_0_0_1_n_n.contr.Idx) :
    (dot_S1024x256_S256x256_S1024x256_1_0_0_1_n_n.rhsIdx j q 1).val = (j 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- The matrix product that contracts the left operand's columns with the right operand's ROWS, into zero:
    at (i, o) the sum over k of a (i, k) * w (k, o). -/
theorem matmulT_apply (a : FVec Ideal S1024x256 .bf16) (w : FVec Ideal S256x256 .bf16) (i : Fin 1024) (o : Fin 256) :
    matmul (F := Ideal) dot_S1024x256_S256x256_S1024x256_1_0_0_1_n_n none a w (constant (F := Ideal) S1024x256 .f32 0x00000000#32) (ix2 i o)
      = ∑ k : Fin 256, a (ix2 i k) * w (ix2 k o) := by
  simp only [matmul]
  rw [Ideal.matmul_constant_zero_apply, ← Equiv.sum_comp (ValueIdx.contrEquiv1 dot_S1024x256_S256x256_S1024x256_1_0_0_1_n_n 256 rfl rfl).symm]
  refine Finset.sum_congr rfl fun k _ => ?_
  have hk := ValueIdx.contrEquiv1_symm_val dot_S1024x256_S256x256_S1024x256_1_0_0_1_n_n 256 rfl rfl k
  have el : dot_S1024x256_S256x256_S1024x256_1_0_0_1_n_n.lhsIdx (ix2 i o) ((ValueIdx.contrEquiv1 dot_S1024x256_S256x256_S1024x256_1_0_0_1_n_n 256 rfl rfl).symm k) = ix2 i k := funext fun a => Fin.ext (by
    match a with
    | ⟨0, _⟩ => exact dotT_lhs_0 _ _
    | ⟨1, _⟩ => exact (dotT_lhs_1 _ _).trans hk)
  have er : dot_S1024x256_S256x256_S1024x256_1_0_0_1_n_n.rhsIdx (ix2 i o) ((ValueIdx.contrEquiv1 dot_S1024x256_S256x256_S1024x256_1_0_0_1_n_n 256 rfl rfl).symm k) = ix2 k o := funext fun a => Fin.ext (by
    match a with
    | ⟨0, _⟩ => exact (dotT_rhs_0 _ _).trans hk
    | ⟨1, _⟩ => exact dotT_rhs_1 _ _)
  rw [el, er]

/-- The sum along a row: at row i the sum over the 256 channels. -/
theorem rowSum_apply (v : FVec Ideal S1024x256 .f32) (hφ : FTy.f32 = FTy.f32 ∨ FTy.f32 = FTy.bf16)
    (hacc : (0x00000000#32 : BitVec 32) = 0x00000000#32) (i : Fin 1024) :
    multiReduction (F := Ideal) .add [1] S1024 v 0x00000000#32 reduces_S1024x256_S1024 hφ hacc (ix1 i)
      = ∑ c : Fin 256, v (ix2 i c) := by
  refine (Ideal.multiReduction_add_single v 0x00000000#32 reduces_S1024x256_S1024 hφ hacc (ix1 i)).trans ?_
  refine Finset.sum_congr rfl fun k _ => congrArg v ?_
  funext a
  match a with
  | ⟨0, _⟩ => rfl
  | ⟨1, _⟩ => rfl

/-- The reciprocal square root of a vector at an index is that of the element. -/
theorem rsqrt_apply {s : Shape} (v : FVec Ideal s .f32) (j : s.Idx) : rsqrt v j = Ideal.rsqrt (v j) := rfl

/-- The finished rows' payload at (i, ch): the normalisation of row i of
    xf (0, i, ·) + ∑ k, (acc (i, k) * 2^-12) * wo (k, ·), scaled by gamma's and shifted by beta's one row. -/
theorem pay6_apply (acc : FVec Ideal S1024x256 .f32) (wo : FVec Ideal S256x256 .f32) (xf : FVec Ideal S1x1024x256 .f32)
    (g be : FVec Ideal S1x256 .f32) (i : Fin 1024) (ch : Fin 256) :
    k1_pay6 (F := Ideal) acc wo xf g be (ix2 i ch)
      = rowNorm (fun c => xf (ix3 (0 : Fin 1) i c)
            + ∑ k : Fin 256, (acc (ix2 i k) * Ideal.ofBits .f32 0x39800000#32) * wo (ix2 k c))
          (g (ix2 (0 : Fin 1) ch)) (be (ix2 (0 : Fin 1) ch)) ch := by
  unfold k1_pay6
  simp only [addf_apply, mulf_apply, subf_apply, divf_apply, broadcast_apply, truncf_apply, rsqrt_apply, shapeCast_self,
    broadcastTo_1b_ab_apply, broadcastTo_a1_ab_apply, shapeCast_a_a1_apply, shapeCast_1ab_ab_apply, matmulT_apply]
  rw [rowSum_apply, rowSum_apply]
  simp only [addf_apply, mulf_apply, subf_apply, divf_apply, broadcast_apply, truncf_apply, shapeCast_self,
    broadcastTo_a1_ab_apply, shapeCast_a_a1_apply, shapeCast_1ab_ab_apply, matmulT_apply]
  rw [rowSum_apply]
  simp only [addf_apply, mulf_apply, broadcast_apply, truncf_apply, shapeCast_self, shapeCast_1ab_ab_apply, matmulT_apply]
  rfl

end Cert.KernelIdeal.Hand

end
-- ==== Proof.AccValue.lean ====
/-
  The accumulator at the last key tile. Over the four key tiles of one (batch, query tile) it starts from zero
  and adds each tile's weights times values, so after the fourth it holds, at row i and channel ch, the sum over
  all 4096 key positions of weight times value.
-/
import proofs.«105034_j8933531975947_1_alg».proof.Proof.KernelLayers
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The batch entry of grid point t (the grid is batch x query tile x key tile, 4 x 4 x 4, key tile innermost). -/
def ptBatch (t : Fin cfg1.N) : Fin 4 :=
  ⟨t.val / 16, by have h : t.val < 64 := lt_of_lt_of_eq t.isLt (show cfg1.N = 64 from N_1); omega⟩
/-- The position, among the 4096, of row i of grid point t's query tile. -/
def ptRow (t : Fin cfg1.N) (i : Fin 1024) : Fin 4096 :=
  ⟨1024 * ((t.val / 4) % 4) + i.val, by have := i.isLt; omega⟩

/-- The zero tile reads zero everywhere. -/
theorem zeroTile_apply (i : Fin 1024) (ch : Fin 256) : k1_pay1 (F := Ideal) (ix2 i ch) = 0 := by
  unfold k1_pay1
  rw [shapeCast_self]
  exact Ideal.ofBits_zero_f32

/-! The two contractions' operand indices, axis by axis. -/

theorem qk_lhs_row (j : S1024x1024.Idx) (q : dot_S1024x256_S1024x256_S1024x1024_1_1_0_0_n_n.contr.Idx) :
    (dot_S1024x256_S1024x256_S1024x1024_1_1_0_0_n_n.lhsIdx j q 0).val = (j 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
theorem qk_lhs_chan (j : S1024x1024.Idx) (q : dot_S1024x256_S1024x256_S1024x1024_1_1_0_0_n_n.contr.Idx) :
    (dot_S1024x256_S1024x256_S1024x1024_1_1_0_0_n_n.lhsIdx j q 1).val = (q ⟨0, by decide⟩).val :=
  dot_S1024x256_S1024x256_S1024x1024_1_1_0_0_n_n.lhsIdx_val_of_single rfl j q
theorem qk_rhs_row (j : S1024x1024.Idx) (q : dot_S1024x256_S1024x256_S1024x1024_1_1_0_0_n_n.contr.Idx) :
    (dot_S1024x256_S1024x256_S1024x1024_1_1_0_0_n_n.rhsIdx j q 0).val = (j 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
theorem qk_rhs_chan (j : S1024x1024.Idx) (q : dot_S1024x256_S1024x256_S1024x1024_1_1_0_0_n_n.contr.Idx) :
    (dot_S1024x256_S1024x256_S1024x1024_1_1_0_0_n_n.rhsIdx j q 1).val = (q ⟨0, by decide⟩).val :=
  dot_S1024x256_S1024x256_S1024x1024_1_1_0_0_n_n.rhsIdx_val_of_single rfl j q

theorem wv_lhs_row (j : S1024x256.Idx) (q : dot_S1024x1024_S1024x256_S1024x256_1_0_0_1_n_n.contr.Idx) :
    (dot_S1024x1024_S1024x256_S1024x256_1_0_0_1_n_n.lhsIdx j q 0).val = (j 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem wv_lhs_key (j : S1024x256.Idx) (q : dot_S1024x1024_S1024x256_S1024x256_1_0_0_1_n_n.contr.Idx) :
    (dot_S1024x1024_S1024x256_S1024x256_1_0_0_1_n_n.lhsIdx j q 1).val = (q ⟨0, by decide⟩).val :=
  dot_S1024x1024_S1024x256_S1024x256_1_0_0_1_n_n.lhsIdx_val_of_single rfl j q
theorem wv_rhs_key (j : S1024x256.Idx) (q : dot_S1024x1024_S1024x256_S1024x256_1_0_0_1_n_n.contr.Idx) :
    (dot_S1024x1024_S1024x256_S1024x256_1_0_0_1_n_n.rhsIdx j q 0).val = (q ⟨0, by decide⟩).val :=
  dot_S1024x1024_S1024x256_S1024x256_1_0_0_1_n_n.rhsIdx_val_of_single rfl j q
theorem wv_rhs_chan (j : S1024x256.Idx) (q : dot_S1024x1024_S1024x256_S1024x256_1_0_0_1_n_n.contr.Idx) :
    (dot_S1024x1024_S1024x256_S1024x256_1_0_0_1_n_n.rhsIdx j q 1).val = (j 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- The query-key contraction at (i, j): the sum over the channels of a (i, c) * b (j, c). -/
theorem qk_apply (a b : FVec Ideal S1024x256 .bf16) (i j : Fin 1024) :
    FloatOps.matmul dot_S1024x256_S1024x256_S1024x1024_1_1_0_0_n_n none a b (constant S1024x1024 .f32 0x00000000#32) (ix2 i j)
      = ∑ c : Fin 256, a (ix2 i c) * b (ix2 j c) := by
  rw [Ideal.matmul_constant_zero_apply, ← Equiv.sum_comp (contrEquiv1 dot_S1024x256_S1024x256_S1024x1024_1_1_0_0_n_n 256 rfl rfl).symm]
  refine Finset.sum_congr rfl fun k _ => ?_
  have hk := contrEquiv1_symm_val dot_S1024x256_S1024x256_S1024x1024_1_1_0_0_n_n 256 rfl rfl k
  have el : dot_S1024x256_S1024x256_S1024x1024_1_1_0_0_n_n.lhsIdx (ix2 i j) ((contrEquiv1 dot_S1024x256_S1024x256_S1024x1024_1_1_0_0_n_n 256 rfl rfl).symm k) = ix2 i k :=
    funext fun a => Fin.ext (by
      match a with
      | ⟨0, _⟩ => exact qk_lhs_row _ _
      | ⟨1, _⟩ => exact (qk_lhs_chan _ _).trans hk)
  have er : dot_S1024x256_S1024x256_S1024x1024_1_1_0_0_n_n.rhsIdx (ix2 i j) ((contrEquiv1 dot_S1024x256_S1024x256_S1024x1024_1_1_0_0_n_n 256 rfl rfl).symm k) = ix2 j k :=
    funext fun a => Fin.ext (by
      match a with
      | ⟨0, _⟩ => exact qk_rhs_row _ _
      | ⟨1, _⟩ => exact (qk_rhs_chan _ _).trans hk)
  rw [el, er]

/-- The weights-values contraction at (i, ch): the sum over the key rows of w (i, j) * v (j, ch). -/
theorem wv_apply (w : FVec Ideal S1024x1024 .bf16) (v : FVec Ideal S1024x256 .bf16) (i : Fin 1024) (ch : Fin 256) :
    FloatOps.matmul dot_S1024x1024_S1024x256_S1024x256_1_0_0_1_n_n none w v (constant S1024x256 .f32 0x00000000#32) (ix2 i ch)
      = ∑ j : Fin 1024, w (ix2 i j) * v (ix2 j ch) := by
  rw [Ideal.matmul_constant_zero_apply, ← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 i ch) ((contrEquiv1 dot_S1024x1024_S1024x256_S1024x256_1_0_0_1_n_n 1024 rfl rfl).symm k) = ix2 i k :=
    funext fun a => Fin.ext (by
      match a with
      | ⟨0, _⟩ => exact wv_lhs_row _ _
      | ⟨1, _⟩ => exact (wv_lhs_key _ _).trans hk)
  have er : dot_S1024x1024_S1024x256_S1024x256_1_0_0_1_n_n.rhsIdx (ix2 i ch) ((contrEquiv1 dot_S1024x1024_S1024x256_S1024x256_1_0_0_1_n_n 1024 rfl rfl).symm k) = ix2 k ch :=
    funext fun a => Fin.ext (by
      match a with
      | ⟨0, _⟩ => exact (wv_rhs_key _ _).trans hk
      | ⟨1, _⟩ => exact wv_rhs_chan _ _)
  rw [el, er]

/-- The logistic tile at (i, j): the logistic of the scaled sum over the channels of q (i, c) * k (j, c). -/
theorem weights_apply (x0 x1 : FVec Ideal S1x1024x256 .bf16) (i j : Fin 1024) :
    k1_pay2 (F := Ideal) x0 x1 (ix2 i j)
      = Ideal.logistic ((∑ c : Fin 256, x0 (ix3 (0 : Fin 1) i c) * x1 (ix3 (0 : Fin 1) j c)) * Cert.Spec.wScale) := by
  unfold k1_pay2
  show Ideal.logistic (FloatOps.matmul dot_S1024x256_S1024x256_S1024x1024_1_1_0_0_n_n none
      (shapeCast S1024x256 x0 shapeCasts_S1x1024x256_S1024x256) (shapeCast S1024x256 x1 shapeCasts_S1x1024x256_S1024x256)
      (constant S1024x1024 .f32 0x00000000#32) (ix2 i j) * Cert.Spec.wScale) = _
  rw [qk_apply]
  refine congrArg (fun s => Ideal.logistic (s * Cert.Spec.wScale)) (Finset.sum_congr rfl fun c _ => ?_)
  rw [shapeCast_1ab_ab_apply, shapeCast_1ab_ab_apply]

/-- The accumulator after a point, at (i, ch): what it held plus the sum over the tile's key rows of weight times value. -/
theorem step_apply (x0 x1 x2 : FVec Ideal S1x1024x256 .bf16) (acc : FVec Ideal S1024x256 .f32) (i : Fin 1024) (ch : Fin 256) :
    k1_pay4 (F := Ideal) x0 x1 x2 acc (ix2 i ch)
      = acc (ix2 i ch) + ∑ j : Fin 1024, Ideal.logistic ((∑ c : Fin 256, x0 (ix3 (0 : Fin 1) i c) * x1 (ix3 (0 : Fin 1) j c)) * Cert.Spec.wScale)
          * x2 (ix3 (0 : Fin 1) j ch) := by
  unfold k1_pay4
  rw [shapeCast_self]
  show acc (ix2 i ch) + FloatOps.matmul dot_S1024x1024_S1024x256_S1024x256_1_0_0_1_n_n none
      (truncf .bf16 (k1_pay2 x0 x1) bitsLt_bf16_f32) (shapeCast S1024x256 x2 shapeCasts_S1x1024x256_S1024x256)
      (constant S1024x256 .f32 0x00000000#32) (ix2 i ch) = _
  rw [wv_apply]
  refine congrArg (fun s => acc (ix2 i ch) + s) (Finset.sum_congr rfl fun j _ => ?_)
  rw [shapeCast_1ab_ab_apply, truncf_apply, weights_apply]

/-- The position, among the 4096, of row j of grid point t's key tile. -/
def ptKey (t : Fin cfg1.N) (j : Fin 1024) : Fin 4096 :=
  ⟨1024 * (t.val % 4) + j.val, by have := j.isLt; omega⟩

/-- The block indices of the query, key and value windows at a grid point, decided over the grid. -/
theorem tile_index : ∀ t : Fin cfg1.N,
    win1_0.index t (0 : Fin 3) = t.val / 16 ∧ win1_0.index t (1 : Fin 3) = (t.val / 4) % 4 ∧ win1_0.index t (2 : Fin 3) = 0
    ∧ win1_1.index t (0 : Fin 3) = t.val / 16 ∧ win1_1.index t (1 : Fin 3) = t.val % 4 ∧ win1_1.index t (2 : Fin 3) = 0
    ∧ win1_2.index t (0 : Fin 3) = t.val / 16 ∧ win1_2.index t (1 : Fin 3) = t.val % 4 ∧ win1_2.index t (2 : Fin 3) = 0 :=
  (by decide +kernel : ∀ t : Fin grid1.N,
    win1_0.index t (0 : Fin 3) = t.val / 16 ∧ win1_0.index t (1 : Fin 3) = (t.val / 4) % 4 ∧ win1_0.index t (2 : Fin 3) = 0
    ∧ win1_1.index t (0 : Fin 3) = t.val / 16 ∧ win1_1.index t (1 : Fin 3) = t.val % 4 ∧ win1_1.index t (2 : Fin 3) = 0
    ∧ win1_2.index t (0 : Fin 3) = t.val / 16 ∧ win1_2.index t (1 : Fin 3) = t.val % 4 ∧ win1_2.index t (2 : Fin 3) = 0)

/-- The query tile at a point: row i, channel cc of it is the query array at (batch, query position, cc). -/
theorem qTile_apply (c : Dev nD) (t : Fin cfg1.N) (i : Fin 1024) (cc : Fin 256) :
    (iblk1 V c 0 t : FVec Ideal S1x1024x256 .bf16) (ix3 (0 : Fin 1) i cc) = V c main_v6_0 (ix3 (ptBatch t) (ptRow t i) cc) := by
  obtain ⟨e0, e1, e2, -⟩ := tile_index t
  unfold iblk1
  rw [View.read_apply]
  show V c main_v6_0 (((cfg1.win 0).blk t).view.emb (ix3 (0 : Fin 1) i cc)) = V c main_v6_0 _
  refine congrArg (V c main_v6_0) (funext fun a => Fin.ext ?_)
  match a with
  | ⟨0, _⟩ => show win1_0.index t (0 : Fin 3) * 1 + 1 * 0 = t.val / 16; omega
  | ⟨1, _⟩ => show win1_0.index t (1 : Fin 3) * 1024 + 1 * i.val = 1024 * ((t.val / 4) % 4) + i.val; omega
  | ⟨2, _⟩ => show win1_0.index t (2 : Fin 3) * 256 + 1 * cc.val = cc.val; omega

/-- The key tile at a point: row j, channel cc of it is the key array at (batch, key position, cc). -/
theorem kTile_apply (c : Dev nD) (t : Fin cfg1.N) (j : Fin 1024) (cc : Fin 256) :
    (iblk1 V c 1 t : FVec Ideal S1x1024x256 .bf16) (ix3 (0 : Fin 1) j cc) = V c main_v6_1 (ix3 (ptBatch t) (ptKey t j) cc) := by
  obtain ⟨-, -, -, e0, e1, e2, -⟩ := tile_index t
  unfold iblk1
  rw [View.read_apply]
  show V c main_v6_1 (((cfg1.win 1).blk t).view.emb (ix3 (0 : Fin 1) j cc)) = V c main_v6_1 _
  refine congrArg (V c main_v6_1) (funext fun a => Fin.ext ?_)
  match a with
  | ⟨0, _⟩ => show win1_1.index t (0 : Fin 3) * 1 + 1 * 0 = t.val / 16; omega
  | ⟨1, _⟩ => show win1_1.index t (1 : Fin 3) * 1024 + 1 * j.val = 1024 * (t.val % 4) + j.val; omega
  | ⟨2, _⟩ => show win1_1.index t (2 : Fin 3) * 256 + 1 * cc.val = cc.val; omega

/-- The value tile at a point: row j, channel ch of it is the value array at (batch, key position, ch). -/
theorem vTile_apply (c : Dev nD) (t : Fin cfg1.N) (j : Fin 1024) (ch : Fin 256) :
    (iblk1 V c 2 t : FVec Ideal S1x1024x256 .bf16) (ix3 (0 : Fin 1) j ch) = V c main_v6_2 (ix3 (ptBatch t) (ptKey t j) ch) := by
  obtain ⟨-, -, -, -, -, -, e0, e1, e2⟩ := tile_index t
  unfold iblk1
  rw [View.read_apply]
  show V c main_v6_2 (((cfg1.win 2).blk t).view.emb (ix3 (0 : Fin 1) j ch)) = V c main_v6_2 _
  refine congrArg (V c main_v6_2) (funext fun a => Fin.ext ?_)
  match a with
  | ⟨0, _⟩ => show win1_2.index t (0 : Fin 3) * 1 + 1 * 0 = t.val / 16; omega
  | ⟨1, _⟩ => show win1_2.index t (1 : Fin 3) * 1024 + 1 * j.val = 1024 * (t.val % 4) + j.val; omega
  | ⟨2, _⟩ => show win1_2.index t (2 : Fin 3) * 256 + 1 * ch.val = ch.val; omega

/-- What grid point t adds to the accumulator at (i, ch): the sum over its key tile's rows of weight times value. -/
def tileSum (c : Dev nD) (t : Fin cfg1.N) (i : Fin 1024) (ch : Fin 256) : EReal :=
  ∑ j : Fin 1024, Cert.Spec.xwS (V c main_v6_0) (V c main_v6_1) (ix3 (ptBatch t) (ptRow t i) (ptKey t j))
    * V c main_v6_2 (ix3 (ptBatch t) (ptKey t j) ch)

/-- One point's step of the accumulator at (i, ch), in terms of the arrays. -/
theorem point_apply (c : Dev nD) (t : Fin cfg1.N) (acc : FVec Ideal S1024x256 .f32) (i : Fin 1024) (ch : Fin 256) :
    k1_pay4 (F := Ideal) (iblk1 V c 0 t) (iblk1 V c 1 t) (iblk1 V c 2 t) acc (ix2 i ch)
      = acc (ix2 i ch) + tileSum V c t i ch := by
  refine (step_apply _ _ _ acc i ch).trans ?_
  refine congrArg (fun s => acc (ix2 i ch) + s) (Finset.sum_congr rfl fun j _ => ?_)
  rw [vTile_apply, Cert.Spec.xwS_apply]
  refine congrArg (fun s => Ideal.logistic (s * Cert.Spec.wScale) * _) (Finset.sum_congr rfl fun cc _ => ?_)
  rw [qTile_apply, kTile_apply]

/-- A sum over the 4096 positions is the sum over the four tiles of the sums over each tile's 1024 rows. -/
theorem sum_tiles (f : Fin 4096 → EReal) :
    ∑ m : Fin 4096, f m
      = ∑ s : Fin 4, ∑ j : Fin 1024, f ⟨1024 * s.val + j.val, by have := s.isLt; have := j.isLt; omega⟩ := by
  rw [← Equiv.sum_comp (finProdFinEquiv : Fin 4 × Fin 1024 ≃ Fin 4096) f, Fintype.sum_prod_type]
  refine Finset.sum_congr rfl fun s _ => Finset.sum_congr rfl fun j _ => congrArg f (Fin.ext ?_)
  show j.val + 1024 * s.val = 1024 * s.val + j.val
  omega

/-- A point's addend, written from another point of the same batch entry and query tile and the point's key tile. -/
theorem tileSum_eq (c : Dev nD) (t u : Fin cfg1.N) (s : Fin 4) (hb : u.val / 16 = t.val / 16)
    (hq : (u.val / 4) % 4 = (t.val / 4) % 4) (hs : u.val % 4 = s.val) (i : Fin 1024) (ch : Fin 256) :
    tileSum V c u i ch
      = ∑ j : Fin 1024, Cert.Spec.xwS (V c main_v6_0) (V c main_v6_1)
            (ix3 (ptBatch t) (ptRow t i) ⟨1024 * s.val + j.val, by have := s.isLt; have := j.isLt; omega⟩)
          * V c main_v6_2 (ix3 (ptBatch t) ⟨1024 * s.val + j.val, by have := s.isLt; have := j.isLt; omega⟩ ch) := by
  have e1 : ptBatch u = ptBatch t := Fin.ext hb
  have e2 : ptRow u i = ptRow t i := Fin.ext (by
    show 1024 * ((u.val / 4) % 4) + i.val = 1024 * ((t.val / 4) % 4) + i.val
    rw [hq])
  have e3 : ∀ j : Fin 1024, ptKey u j = ⟨1024 * s.val + j.val, by have := s.isLt; have := j.isLt; omega⟩ := fun j => Fin.ext (by
    show 1024 * (u.val % 4) + j.val = 1024 * s.val + j.val
    rw [hs])
  unfold tileSum
  refine Finset.sum_congr rfl fun j _ => ?_
  rw [e1, e2, e3]

/-- The accumulator after a last key tile, at (i, ch): the four key tiles' addends, from zero. -/
theorem acc_unroll (c : Dev nD) (t : Fin cfg1.N) (h3 : t.val % 4 = 3) (i : Fin 1024) (ch : Fin 256) :
    accAfter (F := Ideal) V c t.val t.isLt (ix2 i ch)
      = tileSum V c ⟨t.val - 1 - 1 - 1, by have := t.isLt; omega⟩ i ch + tileSum V c ⟨t.val - 1 - 1, by have := t.isLt; omega⟩ i ch
        + tileSum V c ⟨t.val - 1, by have := t.isLt; omega⟩ i ch + tileSum V c t i ch := by
  have ht := t.isLt
  have s0 : accAfter (F := Ideal) V c t.val t.isLt (ix2 i ch)
      = accAfter (F := Ideal) V c (t.val - 1) (by omega) (ix2 i ch) + tileSum V c t i ch :=
    (congrFun (accAfter_step V c t (by omega)) (ix2 i ch)).trans (point_apply V c t _ i ch)
  have s1 : accAfter (F := Ideal) V c (t.val - 1) (by omega) (ix2 i ch)
      = accAfter (F := Ideal) V c (t.val - 1 - 1) (by omega) (ix2 i ch) + tileSum V c ⟨t.val - 1, by omega⟩ i ch :=
    (congrFun (accAfter_step V c ⟨t.val - 1, by omega⟩ (by show ¬(t.val - 1) % 4 = 0; omega)) (ix2 i ch)).trans
      (point_apply V c ⟨t.val - 1, by omega⟩ _ i ch)
  have s2 : accAfter (F := Ideal) V c (t.val - 1 - 1) (by omega) (ix2 i ch)
      = accAfter (F := Ideal) V c (t.val - 1 - 1 - 1) (by omega) (ix2 i ch) + tileSum V c ⟨t.val - 1 - 1, by omega⟩ i ch :=
    (congrFun (accAfter_step V c ⟨t.val - 1 - 1, by omega⟩ (by show ¬(t.val - 1 - 1) % 4 = 0; omega)) (ix2 i ch)).trans
      (point_apply V c ⟨t.val - 1 - 1, by omega⟩ _ i ch)
  have s3 : accAfter (F := Ideal) V c (t.val - 1 - 1 - 1) (by omega) (ix2 i ch)
      = 0 + tileSum V c ⟨t.val - 1 - 1 - 1, by omega⟩ i ch :=
    ((congrFun (accAfter_reset V c ⟨t.val - 1 - 1 - 1, by omega⟩ (by show (t.val - 1 - 1 - 1) % 4 = 0; omega)) (ix2 i ch)).trans
      (point_apply V c ⟨t.val - 1 - 1 - 1, by omega⟩ _ i ch)).trans (congrArg (· + _) (zeroTile_apply i ch))
  rw [s0, s1, s2, s3, zero_add]

theorem acc_full (c : Dev nD) (t : Fin cfg1.N) (h3 : t.val % 4 = 3) (i : Fin 1024) (ch : Fin 256) :
    accAfter (F := Ideal) V c t.val t.isLt (ix2 i ch)
      = Cert.Spec.avS (Cert.Spec.xwS (V c main_v6_0) (V c main_v6_1)) (V c main_v6_2) (ix3 (ptBatch t) (ptRow t i) ch) := by
  have ht := t.isLt
  rw [acc_unroll V c t h3 i ch, Cert.Spec.avS_apply, sum_tiles, Fin.sum_univ_four,
    tileSum_eq V c t ⟨t.val - 1 - 1 - 1, by omega⟩ 0 (by show (t.val - 1 - 1 - 1) / 16 = t.val / 16; omega)
      (by show ((t.val - 1 - 1 - 1) / 4) % 4 = (t.val / 4) % 4; omega) (by show (t.val - 1 - 1 - 1) % 4 = 0; omega) i ch,
    tileSum_eq V c t ⟨t.val - 1 - 1, by omega⟩ 1 (by show (t.val - 1 - 1) / 16 = t.val / 16; omega)
      (by show ((t.val - 1 - 1) / 4) % 4 = (t.val / 4) % 4; omega) (by show (t.val - 1 - 1) % 4 = 1; omega) i ch,
    tileSum_eq V c t ⟨t.val - 1, by omega⟩ 2 (by show (t.val - 1) / 16 = t.val / 16; omega)
      (by show ((t.val - 1) / 4) % 4 = (t.val / 4) % 4; omega) (by show (t.val - 1) % 4 = 2; omega) i ch,
    tileSum_eq V c t t 3 rfl rfl (by show t.val % 4 = 3; exact h3) i ch]

end Cert.KernelIdeal.Hand

end
-- ==== Proof.RowsBlocks.lean ====
/-
  Region 1's rows array after its sixty-four grid points. The rows' window is written back only at the last key
  tile of each (batch, query tile); those sixteen blocks of 1024 positions tile the array, so the array ends holding
  any function of the index that every written-back block agrees with.
-/
import proofs.«105034_j8933531975947_1_alg».proof.Proof.KernelLayers
import proofs.«105034_j8933531975947_1_alg».proof.Proof.AccValue
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## The rows' blocks as parts of the array

Region 1's grid is batch x query tile x key tile, 4 x 4 x 4 with the key tile innermost, so point t has batch
entry t / 16 and query tile (t / 4) % 4. The rows' window's block at t, 1024 positions of one batch entry, has
block index (t / 16, (t / 4) % 4, 0): decided once over the grid. A block's element sits in the array, on each
axis, at the block index times the block's size plus its own coordinate. -/

theorem rowsBlk_idx : ∀ t : Fin cfg1.N, win1_8.index t (0 : Fin 3) = t.val / 16
    ∧ win1_8.index t (1 : Fin 3) = (t.val / 4) % 4 ∧ win1_8.index t (2 : Fin 3) = 0 :=
  (by decide +kernel : ∀ t : Fin grid1.N, _)

/-- Row i, channel ch of the block at point t is position 1024 * (query tile) + i of the point's batch entry. -/
theorem rowsBlk_emb (t : Fin cfg1.N) (z : Fin 1) (i : Fin 1024) (ch : Fin 256) :
    ((cfg1.win 8).blk t).view.emb (ix3 z i ch) = (ix3 (ptBatch t) (ptRow t i) ch : S4x4096x256.Idx) := by
  obtain ⟨e0, e1, e2⟩ := rowsBlk_idx t
  funext a
  apply Fin.ext
  match a with
  | ⟨0, _⟩ => show win1_8.index t (0 : Fin 3) * 1 + 1 * z.val = t.val / 16; have := z.isLt; omega
  | ⟨1, _⟩ => show win1_8.index t (1 : Fin 3) * 1024 + 1 * i.val = 1024 * ((t.val / 4) % 4) + i.val; omega
  | ⟨2, _⟩ => show win1_8.index t (2 : Fin 3) * 256 + 1 * ch.val = ch.val; omega

/-! ## From the written-back blocks to the array -/

/-- At a point that writes the rows' window back (a last key tile), what it writes is its block of any function
    `G` of the index that the body's result there agrees with, element by element. -/
theorem rowsBlk_flushed (c : Dev nD) (G : FVec Ideal S4x4096x256 .f32)
    (H : ∀ (t : Fin cfg1.N) (h3 : t.val % 4 = 3) (i : Fin 1024) (ch : Fin 256),
      k1_pay5 (k1_pay6 (accAfter (F := Ideal) V c t.val t.isLt) (iblk1 V c 4 t) (iblk1 V c 3 t) (iblk1 V c 5 t) (iblk1 V c 6 t)) (ix3 0 i ch)
        = G (ix3 (ptBatch t) (ptRow t i) ch))
    (t : Fin cfg1.N) (hf : (cfg1.win 8).flush t = true) :
    (dat1 (F := Ideal) V c).flushed 8 t = ((cfg1.win 8).blk t).view.read (Elt Ideal) G := by
  have h3 : t.val % 4 = 3 := (flush1_8 t).mp hf
  show (cfg1.win 8).cut (grid1.coords t) ((dat1 V c).after 8 t) = _
  rw [after1_8]
  funext j
  obtain ⟨z, i, ch, rfl⟩ : ∃ (z : Fin 1) (i : Fin 1024) (ch : Fin 256), j = ix3 z i ch := ⟨j 0, j 1, j 2, eq_ix3 j⟩
  obtain rfl : z = 0 := Subsingleton.elim _ _
  rw [View.read_apply, rowsBlk_emb]
  exact H t h3 i ch

/-- Position n of batch entry b is row n % 1024 of the block at the last key tile of query tile n / 1024, the
    point 16 b + 4 (n / 1024) + 3, which writes its block back: the sixteen written-back blocks cover the array,
    and it ends holding the rows the hypothesis names. -/
theorem final1_8_of (c : Dev nD) (H : ∀ (t : Fin cfg1.N) (h3 : t.val % 4 = 3) (i : Fin 1024) (ch : Fin 256), k1_pay5 (k1_pay6 (accAfter (F := Ideal) V c t.val t.isLt) (iblk1 V c 4 t) (iblk1 V c 3 t) (iblk1 V c 5 t) (iblk1 V c 6 t)) (ix3 0 i ch) = rowsK V c (ix3 (ptBatch t) (ptRow t i) ch)) : (dat1 (F := Ideal) V c).arrAt 8 cfg1.N = rowsK V c := by
  refine (dat1 (F := Ideal) V c).arrAt_eq_of_cover 8 _ (fun t hf => rowsBlk_flushed V c (rowsK V c) H t hf) fun i => ?_
  obtain ⟨b, n, ch, rfl⟩ : ∃ (b : Fin 4) (n : Fin 4096) (ch : Fin 256), i = ix3 b n ch := ⟨i 0, i 1, i 2, eq_ix3 i⟩
  have hb := b.isLt
  have hn := n.isLt
  have ht : 16 * b.val + 4 * (n.val / 1024) + 3 < 64 := by omega
  refine ⟨⟨16 * b.val + 4 * (n.val / 1024) + 3, lt_of_lt_of_eq ht N_1.symm⟩,
    (flush1_8 _).mpr (by show (16 * b.val + 4 * (n.val / 1024) + 3) % 4 = 3; omega), ?_⟩
  have e := rowsBlk_emb ⟨16 * b.val + 4 * (n.val / 1024) + 3, lt_of_lt_of_eq ht N_1.symm⟩ 0 ⟨n.val % 1024, by omega⟩ ch
  have eb : ptBatch ⟨16 * b.val + 4 * (n.val / 1024) + 3, lt_of_lt_of_eq ht N_1.symm⟩ = b :=
    Fin.ext (by show (16 * b.val + 4 * (n.val / 1024) + 3) / 16 = b.val; omega)
  have er : ptRow ⟨16 * b.val + 4 * (n.val / 1024) + 3, lt_of_lt_of_eq ht N_1.symm⟩ ⟨n.val % 1024, by omega⟩ = n :=
    Fin.ext (by show 1024 * (((16 * b.val + 4 * (n.val / 1024) + 3) / 4) % 4) + n.val % 1024 = n.val; omega)
  rw [eb, er] at e
  rw [← e]
  exact View.emb_mem_set _ _

end Cert.KernelIdeal.Hand

end
-- ==== Proof.RowsValue.lean ====
/-
  Region 1's second output array after its 64 grid points: the finished rows, written back at the last key tile of
  each (batch, query tile) from the accumulator, which by then holds the sum over all four key tiles.
  Here: each input block of a grid point read through its window's rectangle, the rows' payload at a last key tile as
  the specification's rows at the block's place in the array, and with the sixteen blocks tiling the array, the array.
-/
import proofs.«105034_j8933531975947_1_alg».proof.Proof.KernelLayers
import proofs.«105034_j8933531975947_1_alg».proof.Proof.RowsPayload
import proofs.«105034_j8933531975947_1_alg».proof.Proof.AccValue
import proofs.«105034_j8933531975947_1_alg».proof.Proof.RowsBlocks
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The block index maps of the windows the finished rows read, decided over the 64 grid points: the input rows' window
    sits at (batch, query tile, 0) = (t / 16, t / 4 % 4, 0); the output matrix, gamma and beta are read whole. -/
theorem idx_rows : ∀ t : Fin cfg1.N,
    win1_3.index t (0 : Fin 3) = t.val / 16 ∧ win1_3.index t (1 : Fin 3) = t.val / 4 % 4 ∧ win1_3.index t (2 : Fin 3) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- The input rows' block at point t: row r of the tile is position 1024 (t / 4 % 4) + r of batch entry t / 16. -/
theorem iblk1_3_apply (c : Dev nD) (t : Fin cfg1.N) (u : Fin 1) (r : Fin 1024) (ch : Fin 256) :
    (iblk1 (F := Ideal) V c 3 t : FVec Ideal S1x1024x256 .f32) (ix3 u r ch)
      = (V c main_v1 : FVec Ideal S4x4096x256 .f32) (ix3 (ptBatch t) (ptRow t r) ch) := by
  obtain ⟨e0, e1, e2, -⟩ := idx_rows t
  unfold iblk1
  rw [View.read_apply]
  show V c main_v1 _ = V c main_v1 _
  congr 1
  funext a
  apply Fin.ext
  match a with
  | ⟨0, _⟩ => show win1_3.index t (0 : Fin 3) * 1 + 1 * u.val = t.val / 16; have := u.isLt; omega
  | ⟨1, _⟩ => show win1_3.index t (1 : Fin 3) * 1024 + 1 * r.val = 1024 * (t.val / 4 % 4) + r.val; omega
  | ⟨2, _⟩ => show win1_3.index t (2 : Fin 3) * 256 + 1 * ch.val = ch.val; omega

/-- The output matrix's block at any point is the whole matrix. -/
theorem iblk1_4_apply (c : Dev nD) (t : Fin cfg1.N) (k o : Fin 256) :
    (iblk1 (F := Ideal) V c 4 t : FVec Ideal S256x256 .f32) (ix2 k o) = (V c main_v5 : FVec Ideal S256x256 .f32) (ix2 k o) := by
  obtain ⟨-, -, -, e0, e1, -⟩ := idx_rows t
  unfold iblk1
  rw [View.read_apply]
  show V c main_v5 _ = V c main_v5 _
  congr 1
  funext a
  apply Fin.ext
  match a with
  | ⟨0, _⟩ => show win1_4.index t (0 : Fin 2) * 256 + 1 * k.val = k.val; omega
  | ⟨1, _⟩ => show win1_4.index t (1 : Fin 2) * 256 + 1 * o.val = o.val; omega

/-- Gamma's block at any point is its one row. -/
theorem iblk1_5_apply (c : Dev nD) (t : Fin cfg1.N) (u : Fin 1) (ch : Fin 256) :
    (iblk1 (F := Ideal) V c 5 t : FVec Ideal S1x256 .f32) (ix2 u ch) = (V c main_v7 : FVec Ideal S1x256 .f32) (ix2 (0 : Fin 1) ch) := by
  obtain ⟨-, -, -, -, -, e0, e1, -⟩ := idx_rows t
  unfold iblk1
  rw [View.read_apply]
  show V c main_v7 _ = V c main_v7 _
  congr 1
  funext a
  apply Fin.ext
  match a with
  | ⟨0, _⟩ => show win1_5.index t (0 : Fin 2) * 1 + 1 * u.val = 0; have := u.isLt; omega
  | ⟨1, _⟩ => show win1_5.index t (1 : Fin 2) * 256 + 1 * ch.val = ch.val; omega

/-- Beta's block at any point is its one row. -/
theorem iblk1_6_apply (c : Dev nD) (t : Fin cfg1.N) (u : Fin 1) (ch : Fin 256) :
    (iblk1 (F := Ideal) V c 6 t : FVec Ideal S1x256 .f32) (ix2 u ch) = (V c main_v8 : FVec Ideal S1x256 .f32) (ix2 (0 : Fin 1) ch) := by
  obtain ⟨-, -, -, -, -, -, -, e0, e1⟩ := idx_rows t
  unfold iblk1
  rw [View.read_apply]
  show V c main_v8 _ = V c main_v8 _
  congr 1
  funext a
  apply Fin.ext
  match a with
  | ⟨0, _⟩ => show win1_6.index t (0 : Fin 2) * 1 + 1 * u.val = 0; have := u.isLt; omega
  | ⟨1, _⟩ => show win1_6.index t (1 : Fin 2) * 256 + 1 * ch.val = ch.val; omega

/-- The normalisation of a row depends only on the row's values, the scale and the shift. -/
theorem rowNorm_congr {y y' : Fin 256 → EReal} {g g' b b' : EReal} (hy : ∀ c, y c = y' c) (hg : g = g') (hb : b = b')
    (ch : Fin 256) : rowNorm y g b ch = rowNorm y' g' b' ch := by
  obtain rfl : y = y' := funext hy
  rw [hg, hb]

/-- The kernel's spelling of the residual sum at (b, n, c'): the input there plus the sum over k of the scaled weighted
    values at (b, n, k) times the handed matrix at (k, c'). -/
theorem resid_row (X A : FVec Ideal ⟨3, ![4, 4096, 256]⟩ .f32) (W : FVec Ideal ⟨2, ![256, 256]⟩ .f32)
    (b : Fin 4) (n : Fin 4096) (c' : Fin 256) :
    Cert.Spec.resS X (Cert.Spec.projS (scaleK A) (trS W)) (ix3 b n c')
      = X (ix3 b n c') + ∑ k : Fin 256, (A (ix3 b n k) * Ideal.ofBits .f32 0x39800000#32) * W (ix2 k c') := rfl

/-- At a last key tile the rows' payload, read at row i and channel ch of its block, is the specification's rows at
    the block's place in the array: the accumulator holds the weighted values of the row's position, the input block
    the input at that position, and the matrix, gamma and beta are whole. -/
theorem rows_pay (c : Dev nD) : ∀ (t : Fin cfg1.N) (h3 : t.val % 4 = 3) (i : Fin 1024) (ch : Fin 256),
    k1_pay5 (k1_pay6 (accAfter (F := Ideal) V c t.val t.isLt) (iblk1 V c 4 t) (iblk1 V c 3 t) (iblk1 V c 5 t) (iblk1 V c 6 t)) (ix3 0 i ch)
      = rowsK V c (ix3 (ptBatch t) (ptRow t i) ch) := by
  intro t h3 i ch
  unfold k1_pay5
  refine (shapeCast_ab_1ab_apply _ shapeCasts_S1024x256_S1x1024x256 (0 : Fin 1) i ch).trans ?_
  refine (pay6_apply _ _ _ _ _ i ch).trans ?_
  unfold rowsK
  rw [lnS_row]
  refine rowNorm_congr (fun c' => ?_) ?_ ?_ ch
  · rw [resid_row]
    show _ = _
    rw [iblk1_3_apply V c t 0 i c']
    congr 1
    refine Finset.sum_congr rfl fun k _ => ?_
    rw [acc_full V c t h3 i k, iblk1_4_apply V c t k c']
  · exact iblk1_5_apply V c t 0 ch
  · exact iblk1_6_apply V c t 0 ch

theorem final1_8 (c : Dev nD) : (dat1 (F := Ideal) V c).arrAt 8 cfg1.N = rowsK V c :=
  final1_8_of V c (rows_pay V c)

end Cert.KernelIdeal.Hand

end
-- ==== Proof.KernelIsSpec.lean ====
/-
  The kernel's two results as the specification's functions of the argument arrays. The last boundary's contents
  are read backwards: the image result is the last host stretch's re-layout of region 1's rows array; the rows and
  the attention weights are region 1's functions of the arrays it finds, which are region 0's products, the
  position-major image, the transposed output matrix and the one-row gamma and beta; those are the first two host
  stretches' functions of the arguments. Transposing twice and reading a one-row matrix back as a vector undo each
  other, and scaling by 2^-12 is dividing by 4096.
-/
import proofs.«105034_j8933531975947_1_alg».proof.Proof.Boundaries
import proofs.«105034_j8933531975947_1_alg».proof.Proof.HostValues
import proofs.«105034_j8933531975947_1_alg».proof.Proof.Bridge
import proofs.«105034_j8933531975947_1_alg».proof.Proof.ProjValue
import proofs.«105034_j8933531975947_1_alg».proof.Proof.WeightsValue
import proofs.«105034_j8933531975947_1_alg».proof.Proof.RowsValue

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.Spec

variable (m : (ℓ : Loc nD τ sig) → Buf (Elt Ideal) ℓ)

/-! ## Region 0's entry: the first host stretch's results -/

theorem E1_v1 (c : Dev nD) : E1 m c main_v1 = xfS (m ((c : Thread nD τ).loc main_arg0)) := host0_v1 (W0 m c)
theorem E1_v2 (c : Dev nD) : E1 m c main_v2 = trS (m ((c : Thread nD τ).loc main_arg1)) := host0_v2 (W0 m c)
theorem E1_v3 (c : Dev nD) : E1 m c main_v3 = trS (m ((c : Thread nD τ).loc main_arg2)) := host0_v3 (W0 m c)
theorem E1_v4 (c : Dev nD) : E1 m c main_v4 = trS (m ((c : Thread nD τ).loc main_arg3)) := host0_v4 (W0 m c)
theorem E1_v5 (c : Dev nD) : E1 m c main_v5 = trS (m ((c : Thread nD τ).loc main_arg4)) := host0_v5 (W0 m c)

/-! ## Region 1's entry -/

/-- A buffer the second host stretch does not write keeps region 0's exit contents. -/
theorem E3_keep (c : Dev nD) (r : Ref sig .tc) (h : r ∉ hostOps1_W) : E3 m c r = E2 m c r :=
  StableHlo.after_of_writes_sub hostOps1 _ hostOps1_writes h

theorem E3_q (c : Dev nD) : E3 m c main_v6_0 = projS (xfS (m ((c : Thread nD τ).loc main_arg0))) (m ((c : Thread nD τ).loc main_arg1)) := by
  rw [E3_keep m c main_v6_0 (by decide)]
  refine (W2_arr m c 4).trans ?_
  rw [final0_4, E1_v1, E1_v2, trS_trS]
theorem E3_k (c : Dev nD) : E3 m c main_v6_1 = projS (xfS (m ((c : Thread nD τ).loc main_arg0))) (m ((c : Thread nD τ).loc main_arg2)) := by
  rw [E3_keep m c main_v6_1 (by decide)]
  refine (W2_arr m c 5).trans ?_
  rw [final0_5, E1_v1, E1_v3, trS_trS]
theorem E3_v (c : Dev nD) : E3 m c main_v6_2 = projS (xfS (m ((c : Thread nD τ).loc main_arg0))) (m ((c : Thread nD τ).loc main_arg3)) := by
  rw [E3_keep m c main_v6_2 (by decide)]
  refine (W2_arr m c 6).trans ?_
  rw [final0_6, E1_v1, E1_v4, trS_trS]
/-- The position-major image is an input of region 0: it leaves it as it found it. -/
theorem E3_xf (c : Dev nD) : E3 m c main_v1 = xfS (m ((c : Thread nD τ).loc main_arg0)) := by
  rw [E3_keep m c main_v1 (by decide)]
  refine (W2_arr m c 0).trans ?_
  exact (((dat0 (E1 m) c).arrAt_in 0 rfl _).trans (A_eq0 (E1 m) c 0)).trans (E1_v1 m c)
theorem E3_wo (c : Dev nD) : E3 m c main_v5 = trS (m ((c : Thread nD τ).loc main_arg4)) := by
  rw [E3_keep m c main_v5 (by decide)]
  exact (W2_of_ne m c main_v5 (by decide)).trans (E1_v5 m c)
theorem E3_gamma (c : Dev nD) : E3 m c main_v7 = rowUp (m ((c : Thread nD τ).loc main_arg5)) := by
  refine (host1_v7 (W2 m c)).trans ?_
  rw [show W2 m c (Proc.devRef .tc main_arg5) = m ((c : Thread nD τ).loc main_arg5) from
    (W2_of_ne m c main_arg5 (by decide)).trans ((StableHlo.after_of_writes_sub hostOps0 _ hostOps0_writes (r := main_arg5) (by decide)).trans rfl)]
theorem E3_beta (c : Dev nD) : E3 m c main_v8 = rowUp (m ((c : Thread nD τ).loc main_arg6)) := by
  refine (host1_v8 (W2 m c)).trans ?_
  rw [show W2 m c (Proc.devRef .tc main_arg6) = m ((c : Thread nD τ).loc main_arg6) from
    (W2_of_ne m c main_arg6 (by decide)).trans ((StableHlo.after_of_writes_sub hostOps0 _ hostOps0_writes (r := main_arg6) (by decide)).trans rfl)]

/-! ## The two results -/

/-- The attention weights the program returns are the specification's. -/
theorem W5_xw (c : Dev nD) : W5 m c (Proc.devRef .tc main_v9_0)
    = Gxw (m ((c : Thread nD τ).loc main_arg0)) (m ((c : Thread nD τ).loc main_arg1)) (m ((c : Thread nD τ).loc main_arg2)) := by
  refine (StableHlo.after_of_writes_sub hostOps2 _ hostOps2_writes (r := main_v9_0) (by decide)).trans ?_
  refine (W4_arr m c 7).trans ?_
  rw [final1_7, E3_q, E3_k]
  rfl

/-- The rows region 1 leaves are the specification's normalised residual sum. -/
theorem W4_rows (c : Dev nD) : W4 m c (Proc.devRef .tc main_v9_1)
    = yS (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) := by
  refine (W4_arr m c 8).trans ?_
  rw [final1_8]
  unfold rowsK
  rw [E3_q, E3_k, E3_v, E3_xf, E3_wo, E3_gamma, E3_beta, trS_trS, rowK_rowUp, rowK_rowUp, scaleK_eq_relS]
  rfl

/-- The image the program returns is the specification's. -/
theorem W5_out (c : Dev nD) : W5 m c (Proc.devRef .tc main_v11)
    = Gout (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) := by
  refine (host2_v11 (W4 m c)).trans ?_
  rw [W4_rows]
  rfl

end Cert.KernelIdeal.Hand

end
-- ==== Proof.RefIsSpec.lean ====
/-
  The reference program is the specification. At the ideal values every operation of the reference is exact, so each of its
  stages, read at an index, is one layer of Cert.Spec: the reshape and transpose are a change of index, each dot_general the
  sum over its contracted axis, negate / exponential / add 1 / divide 1 by it the logistic, the two reductions over the
  channels the mean and the variance, and the closing transpose and reshape the change of index back. The stages are proved
  one layer at a time, each over the finished ones, and then the run of the reference is restated over the specification.
-/
import proofs.«105034_j8933531975947_1_alg».proof.Proof.Spec
import proofs.«105034_j8933531975947_1_alg».proof.Proof.Gen.ReferenceIdeal.Read

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Spec

/-- The f32 word of 1.0 denotes the extended real 1. -/
theorem ofBits_one_f32 : Ideal.ofBits .f32 0x3F800000#32 = 1 := by
  simp [Ideal.ofBits, Ideal.ieee, -EReal.coe_mul]; norm_num

/-! ## The composed index functions of the layout operations, as indices built from coordinates -/

/-- Reshape [4,256,64,64] to [4,256,4096] then swap the last two axes: position n of channel c is pixel (n / 64, n % 64). -/
theorem idx_v0_v1 (i : S4x4096x256.Idx) :
    idx_main_v0 (idx_main_v1 i) = ix4 (i 0) (i 2) (rowOf (i 1)) (colOf (i 1)) := by
  have h0 : (i 0).val < 4 := (i 0).isLt
  have h1 : (i 1).val < 4096 := (i 1).isLt
  have h2 : (i 2).val < 256 := (i 2).isLt
  funext a
  match a with
  | ⟨0, _⟩ => exact Fin.ext (by show (((i 0).val * 256 + (i 2).val) * 4096 + (i 1).val) / 1048576 = (i 0).val; omega)
  | ⟨1, _⟩ => exact Fin.ext (by show (((i 0).val * 256 + (i 2).val) * 4096 + (i 1).val) / 4096 % 256 = (i 2).val; omega)
  | ⟨2, _⟩ => exact Fin.ext (by show (((i 0).val * 256 + (i 2).val) * 4096 + (i 1).val) / 64 % 64 = (i 1).val / 64; omega)
  | ⟨3, _⟩ => exact Fin.ext (by show (((i 0).val * 256 + (i 2).val) * 4096 + (i 1).val) % 64 = (i 1).val % 64; omega)

theorem lidx_v2 (i : S4x4096x256.Idx) (k : Fin 256) : lidx_main_v2 i k = ix3 (i 0) (i 1) k :=
  funext fun a => by match a with | ⟨0, _⟩ => rfl | ⟨1, _⟩ => rfl | ⟨2, _⟩ => rfl
theorem ridx_v2 (i : S4x4096x256.Idx) (k : Fin 256) : ridx_main_v2 i k = ix2 (i 2) k :=
  funext fun a => by match a with | ⟨0, _⟩ => rfl | ⟨1, _⟩ => rfl
theorem lidx_v3 (i : S4x4096x256.Idx) (k : Fin 256) : lidx_main_v3 i k = ix3 (i 0) (i 1) k :=
  funext fun a => by match a with | ⟨0, _⟩ => rfl | ⟨1, _⟩ => rfl | ⟨2, _⟩ => rfl
theorem ridx_v3 (i : S4x4096x256.Idx) (k : Fin 256) : ridx_main_v3 i k = ix2 (i 2) k :=
  funext fun a => by match a with | ⟨0, _⟩ => rfl | ⟨1, _⟩ => rfl
theorem lidx_v4 (i : S4x4096x256.Idx) (k : Fin 256) : lidx_main_v4 i k = ix3 (i 0) (i 1) k :=
  funext fun a => by match a with | ⟨0, _⟩ => rfl | ⟨1, _⟩ => rfl | ⟨2, _⟩ => rfl
theorem ridx_v4 (i : S4x4096x256.Idx) (k : Fin 256) : ridx_main_v4 i k = ix2 (i 2) k :=
  funext fun a => by match a with | ⟨0, _⟩ => rfl | ⟨1, _⟩ => rfl
theorem lidx_v5 (i : S4x4096x4096.Idx) (k : Fin 256) : lidx_main_v5 i k = ix3 (i 0) (i 1) k :=
  funext fun a => by match a with | ⟨0, _⟩ => rfl | ⟨1, _⟩ => rfl | ⟨2, _⟩ => rfl
theorem ridx_v5 (i : S4x4096x4096.Idx) (k : Fin 256) : ridx_main_v5 i k = ix3 (i 0) (i 2) k :=
  funext fun a => by match a with | ⟨0, _⟩ => rfl | ⟨1, _⟩ => rfl | ⟨2, _⟩ => rfl
theorem lidx_v14 (i : S4x4096x256.Idx) (k : Fin 4096) : lidx_main_v14 i k = ix3 (i 0) (i 1) k :=
  funext fun a => by match a with | ⟨0, _⟩ => rfl | ⟨1, _⟩ => rfl | ⟨2, _⟩ => rfl
theorem ridx_v14 (i : S4x4096x256.Idx) (k : Fin 4096) : ridx_main_v14 i k = ix3 (i 0) k (i 2) :=
  funext fun a => by match a with | ⟨0, _⟩ => rfl | ⟨1, _⟩ => rfl | ⟨2, _⟩ => rfl
theorem lidx_v17 (i : S4x4096x256.Idx) (k : Fin 256) : lidx_main_v17 i k = ix3 (i 0) (i 1) k :=
  funext fun a => by match a with | ⟨0, _⟩ => rfl | ⟨1, _⟩ => rfl | ⟨2, _⟩ => rfl
theorem ridx_v17 (i : S4x4096x256.Idx) (k : Fin 256) : ridx_main_v17 i k = ix2 (i 2) k :=
  funext fun a => by match a with | ⟨0, _⟩ => rfl | ⟨1, _⟩ => rfl

/-! ## The stages, one layer of the specification each -/

/-- The reshape and the transpose: the image as positions x channels. -/
theorem v1_eq (x0 : FVec Ideal S4x256x64x64 .f32) : val_main_v1 (F := Ideal) x0 = xfS x0 := by
  funext i
  rw [val_main_v1_apply, val_main_v0_apply, idx_v0_v1]
  rfl

/-- The query projection. -/
theorem v2_eq (x0 : FVec Ideal S4x256x64x64 .f32) (x1 : FVec Ideal S256x256 .f32) :
    val_main_v2 (F := Ideal) x0 x1 = projS (xfS x0) x1 := by
  funext i
  rw [val_main_v2_apply, v1_eq]
  simp only [lidx_v2, ridx_v2]
  rfl

/-- The key projection. -/
theorem v3_eq (x0 : FVec Ideal S4x256x64x64 .f32) (x2 : FVec Ideal S256x256 .f32) :
    val_main_v3 (F := Ideal) x0 x2 = projS (xfS x0) x2 := by
  funext i
  rw [val_main_v3_apply, v1_eq]
  simp only [lidx_v3, ridx_v3]
  rfl

/-- The value projection. -/
theorem v4_eq (x0 : FVec Ideal S4x256x64x64 .f32) (x3 : FVec Ideal S256x256 .f32) :
    val_main_v4 (F := Ideal) x0 x3 = projS (xfS x0) x3 := by
  funext i
  rw [val_main_v4_apply, v1_eq]
  simp only [lidx_v4, ridx_v4]
  rfl

/-- The attention weights: 1 / (1 + exp (-(q . k * 1/16))) is the logistic of the scaled product. -/
theorem v13_eq (x0 : FVec Ideal S4x256x64x64 .f32) (x1 x2 : FVec Ideal S256x256 .f32) :
    val_main_v13 (F := Ideal) x0 x1 x2 = Gxw x0 x1 x2 := by
  funext i
  rw [val_main_v13_apply, val_main_v12_apply, val_main_cst_1_apply, val_main_v11_apply, val_main_v10_apply,
    val_main_cst_0_apply, val_main_v9_apply, val_main_v8_apply, val_main_v7_apply, val_main_v6_apply,
    val_main_cst_apply, val_main_v5_apply, v2_eq, v3_eq]
  simp only [lidx_v5, ridx_v5, Ideal.ofBits_def, ofBits_one_f32, Ideal.hostDivf_def, Ideal.addf_def,
    Ideal.hostUnary_exp_def, Ideal.hostNegf_def, Ideal.negf_def, Ideal.mulf_def]
  rfl

/-- The weighted values. -/
theorem v14_eq (x0 : FVec Ideal S4x256x64x64 .f32) (x1 x2 x3 : FVec Ideal S256x256 .f32) :
    val_main_v14 (F := Ideal) x0 x1 x2 x3 = avS (Gxw x0 x1 x2) (projS (xfS x0) x3) := by
  funext i
  rw [val_main_v14_apply, v13_eq, v4_eq]
  simp only [lidx_v14, ridx_v14]
  rfl

/-- Divided by the number of positions. -/
theorem v16_eq (x0 : FVec Ideal S4x256x64x64 .f32) (x1 x2 x3 : FVec Ideal S256x256 .f32) :
    val_main_v16 (F := Ideal) x0 x1 x2 x3 = relS (avS (Gxw x0 x1 x2) (projS (xfS x0) x3)) := by
  funext i
  rw [val_main_v16_apply, val_main_v15_apply, val_main_cst_2_apply, v14_eq]
  simp only [Ideal.ofBits_def, Ideal.hostDivf_def]
  rfl

/-- The output projection. -/
theorem v17_eq (x0 : FVec Ideal S4x256x64x64 .f32) (x1 x2 x3 x4 : FVec Ideal S256x256 .f32) :
    val_main_v17 (F := Ideal) x0 x1 x2 x3 x4 = projS (relS (avS (Gxw x0 x1 x2) (projS (xfS x0) x3))) x4 := by
  funext i
  rw [val_main_v17_apply, v16_eq]
  simp only [lidx_v17, ridx_v17]
  rfl

/-- The residual sum before the normalisation, as the specification spells it. -/
def resid (x0 : FVec Ideal S4x256x64x64 .f32) (x1 x2 x3 x4 : FVec Ideal S256x256 .f32) : FVec Ideal S4x4096x256 .f32 :=
  resS (xfS x0) (projS (relS (avS (Gxw x0 x1 x2) (projS (xfS x0) x3))) x4)

/-- The residual sum. -/
theorem v18_eq (x0 : FVec Ideal S4x256x64x64 .f32) (x1 x2 x3 x4 : FVec Ideal S256x256 .f32) :
    val_main_v18 (F := Ideal) x0 x1 x2 x3 x4 = resid x0 x1 x2 x3 x4 := by
  funext i
  rw [val_main_v18_apply, v1_eq, v17_eq]
  rfl

theorem idx_v19_v20 (i : S4x4096x1.Idx) (k : Fin 256) : idx_main_v19 (idx_main_v20 i) k = ix3 (i 0) (i 1) k :=
  funext fun a => by match a with | ⟨0, _⟩ => rfl | ⟨1, _⟩ => rfl | ⟨2, _⟩ => rfl
theorem idx_v26_v27 (i : S4x4096x1.Idx) (k : Fin 256) : idx_main_v26 (idx_main_v27 i) k = ix3 (i 0) (i 1) k :=
  funext fun a => by match a with | ⟨0, _⟩ => rfl | ⟨1, _⟩ => rfl | ⟨2, _⟩ => rfl

/-- The mean over the channels (the sum starts from the word of 0.0, which is 0). -/
theorem v22_eq (x0 : FVec Ideal S4x256x64x64 .f32) (x1 x2 x3 x4 : FVec Ideal S256x256 .f32) (i : S4x4096x1.Idx) :
    val_main_v22 (F := Ideal) x0 x1 x2 x3 x4 i = meanS (resid x0 x1 x2 x3 x4) (ix2 (i 0) (i 1)) := by
  rw [val_main_v22_apply, val_main_v21_apply, val_main_cst_4_apply, val_main_v20_apply, val_main_v19_apply,
    val_main_cst_3_apply, v18_eq]
  generalize resid x0 x1 x2 x3 x4 = y
  simp only [idx_v19_v20, Ideal.ofBits_def, Ideal.ofBits_zero_f32, zero_add, Ideal.hostDivf_def]
  rfl

/-- The centred values (first copy, squared for the variance). -/
theorem v24_eq (x0 : FVec Ideal S4x256x64x64 .f32) (x1 x2 x3 x4 : FVec Ideal S256x256 .f32) :
    val_main_v24 (F := Ideal) x0 x1 x2 x3 x4 = cenS (resid x0 x1 x2 x3 x4) := by
  funext i
  rw [val_main_v24_apply, val_main_v23_apply, v22_eq, v18_eq]
  rfl

/-- The centred values (second copy, scaled for the result). -/
theorem v31_eq (x0 : FVec Ideal S4x256x64x64 .f32) (x1 x2 x3 x4 : FVec Ideal S256x256 .f32) :
    val_main_v31 (F := Ideal) x0 x1 x2 x3 x4 = cenS (resid x0 x1 x2 x3 x4) := by
  funext i
  rw [val_main_v31_apply, val_main_v30_apply, v22_eq, v18_eq]
  rfl

/-- The variance over the channels. -/
theorem v29_eq (x0 : FVec Ideal S4x256x64x64 .f32) (x1 x2 x3 x4 : FVec Ideal S256x256 .f32) (i : S4x4096x1.Idx) :
    val_main_v29 (F := Ideal) x0 x1 x2 x3 x4 i = varS (resid x0 x1 x2 x3 x4) (ix2 (i 0) (i 1)) := by
  rw [val_main_v29_apply, val_main_v28_apply, val_main_cst_6_apply, val_main_v27_apply, val_main_v26_apply,
    val_main_cst_5_apply]
  simp only [val_main_v25_apply, v24_eq]
  generalize resid x0 x1 x2 x3 x4 = y
  simp only [idx_v26_v27, Ideal.ofBits_def, Ideal.ofBits_zero_f32, zero_add, Ideal.hostDivf_def, Ideal.mulf_def]
  rfl

theorem idx_v37_v38 (i : S4x4096x256.Idx) : idx_main_v37 (idx_main_v38 i) = ix1 (i 2) :=
  funext fun a => by match a with | ⟨0, _⟩ => rfl
theorem idx_v40_v41 (i : S4x4096x256.Idx) : idx_main_v40 (idx_main_v41 i) = ix1 (i 2) :=
  funext fun a => by match a with | ⟨0, _⟩ => rfl

/-- The normalisation across the channels. -/
theorem v42_eq (x0 : FVec Ideal S4x256x64x64 .f32) (x1 x2 x3 x4 : FVec Ideal S256x256 .f32) (x5 x6 : FVec Ideal S256 .f32) :
    val_main_v42 (F := Ideal) x0 x1 x2 x3 x4 x5 x6 = lnS (resid x0 x1 x2 x3 x4) x5 x6 := by
  funext i
  rw [val_main_v42_apply, val_main_v41_apply, val_main_v40_apply, val_main_v39_apply, val_main_v38_apply,
    val_main_v37_apply, val_main_v36_apply, val_main_v35_apply, val_main_v34_apply, val_main_v33_apply,
    val_main_v32_apply, val_main_cst_7_apply, v29_eq, v31_eq, idx_v37_v38, idx_v40_v41]
  generalize resid x0 x1 x2 x3 x4 = y
  simp only [Ideal.ofBits_def, Ideal.addf_def, Ideal.mulf_def, Ideal.hostUnary_rsqrt_def]
  rfl

/-- Swap the last two axes then reshape [4,256,4096] to [4,256,64,64]: pixel (h, w) of channel c is position 64 h + w. -/
theorem idx_v43_v44 (i : S4x256x64x64.Idx) :
    idx_main_v43 (idx_main_v44 i) = ix3 (i 0) (posOf (i 2) (i 3)) (i 1) := by
  have h0 : (i 0).val < 4 := (i 0).isLt
  have h1 : (i 1).val < 256 := (i 1).isLt
  have h2 : (i 2).val < 64 := (i 2).isLt
  have h3 : (i 3).val < 64 := (i 3).isLt
  funext a
  match a with
  | ⟨0, _⟩ => exact Fin.ext (by show ((((i 0).val * 256 + (i 1).val) * 64 + (i 2).val) * 64 + (i 3).val) / 1048576 = (i 0).val; omega)
  | ⟨1, _⟩ => exact Fin.ext (by show ((((i 0).val * 256 + (i 1).val) * 64 + (i 2).val) * 64 + (i 3).val) % 4096 = 64 * (i 2).val + (i 3).val; omega)
  | ⟨2, _⟩ => exact Fin.ext (by show ((((i 0).val * 256 + (i 1).val) * 64 + (i 2).val) * 64 + (i 3).val) / 4096 % 256 = (i 1).val; omega)

/-- The first result: the normalised residual sum in the image layout. -/
theorem v44_eq (x0 : FVec Ideal S4x256x64x64 .f32) (x1 x2 x3 x4 : FVec Ideal S256x256 .f32) (x5 x6 : FVec Ideal S256 .f32) :
    val_main_v44 (F := Ideal) x0 x1 x2 x3 x4 x5 x6 = Gout x0 x1 x2 x3 x4 x5 x6 := by
  funext i
  rw [val_main_v44_apply, val_main_v43_apply, v42_eq, idx_v43_v44]
  rfl

/-! ## The two results as the run states them, and the run over the specification -/

/-- The second result's term, as the reference's run states it, is the specification's attention weights. -/
theorem ref_xw_eq (x0 : FVec Ideal S4x256x64x64 .f32) (x1 x2 : FVec Ideal S256x256 .f32) :
    Host.divf (F := Ideal) (broadcastInDim S4x4096x4096 ![] bcast_S_S4x4096x4096 (constant (F := Ideal) S_ .f32 0x3F800000#32)) (addf (broadcastInDim S4x4096x4096 ![] bcast_S_S4x4096x4096 (constant (F := Ideal) S_ .f32 0x3F800000#32)) (Host.exp (F := Ideal) (Host.negf (F := Ideal) (mulf (Host.dotGeneral (F := Ideal) dot_S4x4096x256_S4x4096x256_S4x4096x4096_2_2_1_1_0_0 none (Host.dotGeneral (F := Ideal) dot_S4x4096x256_S256x256_S4x4096x256_2_1_01_0_n_n none (transpose S4x4096x256 [0, 2, 1] (shapeCast _ (x0) shapeCasts_S4x256x64x64_S4x256x4096) transposes_S4x256x4096_S4x4096x256_0_2_1) (x1)) (Host.dotGeneral (F := Ideal) dot_S4x4096x256_S256x256_S4x4096x256_2_1_01_0_n_n none (transpose S4x4096x256 [0, 2, 1] (shapeCast _ (x0) shapeCasts_S4x256x64x64_S4x256x4096) transposes_S4x256x4096_S4x4096x256_0_2_1) (x2))) (broadcastInDim S4x4096x4096 ![] bcast_S_S4x4096x4096 (constant (F := Ideal) S_ .f32 0x3D800000#32))))))
      = Gxw x0 x1 x2 :=
  (val_main_v13_eq (F := Ideal) x0 x1 x2).trans (v13_eq x0 x1 x2)

/-- The first result's term, as the reference's run names it, is the specification's output image of the seven arguments. -/
theorem ref_out_eq (m : (ℓ : Loc nD τ sig) → Buf (Elt Ideal) ℓ) (c : Dev nD) :
    Cert.ReferenceIdeal.Value.res_main_v44 m c = Gout (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (val_main_v44_eq (F := Ideal) m c).trans (v44_eq _ _ _ _ _ _ _)

/-- Every weakly fair execution of the reference, at the ideal values, ends with the two results at the specification
    of its own arguments, and the arguments unchanged. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v44) = Gout (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6))
      ∧ r.2.mem ((c.tc : Thread nD τ).loc main_v13) = Gxw (m' ((c.tc : Thread nD τ).loc main_arg0)) (m' ((c.tc : Thread nD τ).loc main_arg1)) (m' ((c.tc : Thread nD τ).loc main_arg2))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)) :=
  (θ_run defs _ _).mono
    (fun _ h c => ⟨(h c).1.trans (ref_out_eq m' c), (h c).2.1.trans (ref_xw_eq _ _ _), (h c).2.2⟩)
    (Cert.ReferenceIdeal.Value.run (F := Ideal) m' ρ')

end Cert.ReferenceIdeal.RefValue

end
-- ==== Proof.lean ====
/-
  The certificate's five claims.

  The kernel is two pipelined regions among three stretches of host operations: the projections q, k, v of the
  position-major image (one grid point per batch entry), then the attention over (batch, query tile, key tile) —
  the logistic of the scaled query-key products written tile by tile, their products with the value tiles summed
  over the four key tiles in a scratch that starts from zero, and at the last key tile that sum scaled by 2^-12,
  contracted with the output matrix, added to the image rows and normalised across the channels.

  Frames: the run of the program over the buffers' contents at each boundary (every execution terminates, and the
  final memory holds every unscoped buffer at the last boundary's contents) gives each argument array back as
  launched, since no host operation and no region writes one; the same text read at the word-level instance and at
  the ideal one. The reference is a host program: its frame is its run with the results dropped.
  The ideal pass rewrote nothing, so the idealization claim is trivial.
  Equality of the results at the ideal values: both programs' results are the specification's two functions of the
  argument arrays — the reference's by reading its operations one at a time; the kernel's by reading the last
  boundary backwards through the regions' output arrays (each block written back is its block of one whole-array
  function, the blocks tile the array, and the accumulator at the last key tile holds the whole sum over the key
  positions, a regrouping of one sum) and the host stretches; a transpose undone by contracting the other axis,
  2^-12 against the division by 4096, gamma and beta as one-row matrices.
-/
import proofs.«105034_j8933531975947_1_alg».proof.Defs
import proofs.«105034_j8933531975947_1_alg».proof.Proof.Gen.Kernel
import proofs.«105034_j8933531975947_1_alg».proof.Proof.Gen.KernelIdeal
import proofs.«105034_j8933531975947_1_alg».proof.Proof.Gen.ReferenceIdeal
import proofs.«105034_j8933531975947_1_alg».proof.Proof.Gen.Pre_finite_inputs
import proofs.«105034_j8933531975947_1_alg».proof.Proof.Gen.ReferenceIdeal.Run
import proofs.«105034_j8933531975947_1_alg».proof.Proof.MainRun
import proofs.«105034_j8933531975947_1_alg».proof.Proof.KMainRun
import proofs.«105034_j8933531975947_1_alg».proof.Proof.KernelIsSpec
import proofs.«105034_j8933531975947_1_alg».proof.Proof.RefIsSpec

set_option maxRecDepth 16384

noncomputable section

namespace Cert.Proof

open Idealize.ShloMosaic Idealize.ShloMosaic.TcCoe Idealize.SL.Sem

/-- The word-level program gives its arguments back. -/
theorem frame_k : Cert.frame_Kernel := fun m ρ _ =>
  (θ_run (Cert.Kernel.defs (F := Bits)) _ _).mono (fun r h c =>
    ⟨(h c _ (Cert.Kernel.Hand.mem_uc Cert.Kernel.main_arg0 (by decide))).trans (Cert.Kernel.Hand.W5_main_arg0 m c),
      (h c _ (Cert.Kernel.Hand.mem_uc Cert.Kernel.main_arg1 (by decide))).trans (Cert.Kernel.Hand.W5_main_arg1 m c),
      (h c _ (Cert.Kernel.Hand.mem_uc Cert.Kernel.main_arg2 (by decide))).trans (Cert.Kernel.Hand.W5_main_arg2 m c),
      (h c _ (Cert.Kernel.Hand.mem_uc Cert.Kernel.main_arg3 (by decide))).trans (Cert.Kernel.Hand.W5_main_arg3 m c),
      (h c _ (Cert.Kernel.Hand.mem_uc Cert.Kernel.main_arg4 (by decide))).trans (Cert.Kernel.Hand.W5_main_arg4 m c),
      (h c _ (Cert.Kernel.Hand.mem_uc Cert.Kernel.main_arg5 (by decide))).trans (Cert.Kernel.Hand.W5_main_arg5 m c),
      (h c _ (Cert.Kernel.Hand.mem_uc Cert.Kernel.main_arg6 (by decide))).trans (Cert.Kernel.Hand.W5_main_arg6 m c)⟩)
    (Cert.Kernel.Hand.run_all (F := Bits) m ρ)

/-- The idealized program gives its arguments back. -/
theorem frame_ki : Cert.frame_KernelIdeal := fun m ρ _ =>
  (θ_run (Cert.KernelIdeal.defs (F := Ideal)) _ _).mono (fun r h c =>
    ⟨(h c _ (Cert.KernelIdeal.Hand.mem_uc Cert.KernelIdeal.main_arg0 (by decide))).trans (Cert.KernelIdeal.Hand.W5_main_arg0 m c),
      (h c _ (Cert.KernelIdeal.Hand.mem_uc Cert.KernelIdeal.main_arg1 (by decide))).trans (Cert.KernelIdeal.Hand.W5_main_arg1 m c),
      (h c _ (Cert.KernelIdeal.Hand.mem_uc Cert.KernelIdeal.main_arg2 (by decide))).trans (Cert.KernelIdeal.Hand.W5_main_arg2 m c),
      (h c _ (Cert.KernelIdeal.Hand.mem_uc Cert.KernelIdeal.main_arg3 (by decide))).trans (Cert.KernelIdeal.Hand.W5_main_arg3 m c),
      (h c _ (Cert.KernelIdeal.Hand.mem_uc Cert.KernelIdeal.main_arg4 (by decide))).trans (Cert.KernelIdeal.Hand.W5_main_arg4 m c),
      (h c _ (Cert.KernelIdeal.Hand.mem_uc Cert.KernelIdeal.main_arg5 (by decide))).trans (Cert.KernelIdeal.Hand.W5_main_arg5 m c),
      (h c _ (Cert.KernelIdeal.Hand.mem_uc Cert.KernelIdeal.main_arg6 (by decide))).trans (Cert.KernelIdeal.Hand.W5_main_arg6 m c)⟩)
    (Cert.KernelIdeal.Hand.run_all (F := Ideal) m ρ)

/-- The reference is host operations only: its run, the results dropped. -/
theorem frame_ri : Cert.frame_ReferenceIdeal := fun m ρ _ =>
  (θ_run Cert.ReferenceIdeal.defs _ _).mono (fun _ h c => (h c).2.2) (Cert.ReferenceIdeal.RefValue.ref_run m ρ)

/-- The ideal pass rewrote no operation. -/
theorem preserves : Cert.preserves_Kernel_KernelIdeal := trivial

/-- Both programs end with the specification's two functions of the arguments. -/
theorem algebraic : Cert.algebraic_KernelIdeal_ReferenceIdeal := by
  intro m ρ m' ρ' _ hagree
  refine ⟨fun c => Cert.Spec.Gout (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.Spec.Gxw (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · exact (θ_run (Cert.KernelIdeal.defs (F := Ideal)) _ _).mono (fun r h c =>
      ⟨(h c _ (Cert.KernelIdeal.Hand.mem_uc Cert.KernelIdeal.main_v11 (by decide))).trans (Cert.KernelIdeal.Hand.W5_out m c),
      (h c _ (Cert.KernelIdeal.Hand.mem_uc Cert.KernelIdeal.main_v9_0 (by decide))).trans (Cert.KernelIdeal.Hand.W5_xw m c),
      (h c _ (Cert.KernelIdeal.Hand.mem_uc Cert.KernelIdeal.main_arg0 (by decide))).trans (Cert.KernelIdeal.Hand.W5_main_arg0 m c),
      (h c _ (Cert.KernelIdeal.Hand.mem_uc Cert.KernelIdeal.main_arg1 (by decide))).trans (Cert.KernelIdeal.Hand.W5_main_arg1 m c),
      (h c _ (Cert.KernelIdeal.Hand.mem_uc Cert.KernelIdeal.main_arg2 (by decide))).trans (Cert.KernelIdeal.Hand.W5_main_arg2 m c),
      (h c _ (Cert.KernelIdeal.Hand.mem_uc Cert.KernelIdeal.main_arg3 (by decide))).trans (Cert.KernelIdeal.Hand.W5_main_arg3 m c),
      (h c _ (Cert.KernelIdeal.Hand.mem_uc Cert.KernelIdeal.main_arg4 (by decide))).trans (Cert.KernelIdeal.Hand.W5_main_arg4 m c),
      (h c _ (Cert.KernelIdeal.Hand.mem_uc Cert.KernelIdeal.main_arg5 (by decide))).trans (Cert.KernelIdeal.Hand.W5_main_arg5 m c),
      (h c _ (Cert.KernelIdeal.Hand.mem_uc Cert.KernelIdeal.main_arg6 (by decide))).trans (Cert.KernelIdeal.Hand.W5_main_arg6 m c)⟩)
      (Cert.KernelIdeal.Hand.run_all (F := Ideal) m ρ)
  · refine (θ_run (Cert.ReferenceIdeal.defs (F := Ideal)) _ _).mono (fun r h c => ?_) (Cert.ReferenceIdeal.RefValue.ref_run m' ρ')
    obtain ⟨h0, h1, hargs⟩ := h c
    obtain ⟨e0, e1, e2, e3, e4, e5, e6⟩ := hagree c
    refine ⟨?_, ?_, hargs⟩
    · rw [h0, e0, e1, e2, e3, e4, e5, e6]
    · rw [h1, e0, e1, e2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
